-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S262144x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S4096x128 : Shape := ⟨2, ![4096, 128]⟩

abbrev nBuf : Space → Nat
  | .hbm => 22
  | .vmem => 38
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S4096x128, .f32⟩
  | .local _ .vmem, ⟨37, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem13_1 : DmaSem sig := 33

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v58 : BitVec 1 := Scalar.cmpi .eq arg0 c63_i32
  let v59 : BitVec 32 := Scalar.extui v58
  let c0_i32_31 : BitVec 32 := 0#32
  let v60 : BitVec 1 := Scalar.cmpi .ne v59 c0_i32_31
  v60

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4096x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4096x128 : S1x128.Broadcasts S4096x128
  reduces_S4096x128_S128 : S4096x128.Reduces [0] S128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4096x128.size a ≤ S262144x128.size a
  hwx2_13 : ∀ i : grid2.Coords, EltTy.bits .f32 = 32 ∨ (Rect.block (s := S262144x128) S4096x128.size (cc2_transform_13 i) (hinb2_13 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9_0) S1x128.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9_1) S1x128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

abbrev win2_0 : Pipeline.Window sig grid2 :=
  Pipeline.Window.ofSpec (Memref.whole main_arg0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8_0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8_1) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v1) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9_0) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9_1) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v6) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v7) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v10) S4096x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 130
  | .vmem => 0
  | .smem => 0
  | _ => 0

abbrev hbmTy0_0 (i : Nat) : BufTy := match i % 128 with
  | 0 => ⟨S262144x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S262144x128, .f32⟩
  | 11 => ⟨S1x128, .f32⟩
  | 12 => ⟨S262144x128, .f32⟩
  | 13 => ⟨S262144x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S262144x128, .f32⟩
  | 21 => ⟨S262144x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S262144x128, .f32⟩
  | 35 => ⟨S262144x128, .f32⟩
  | 36 => ⟨S262144x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S262144x128, .f32⟩
  | 52 => ⟨S262144x128, .f32⟩
  | 53 => ⟨S_, .f32⟩
  | 54 => ⟨S128, .f32⟩
  | 55 => ⟨S128, .f32⟩
  | 56 => ⟨S128, .f32⟩
  | 57 => ⟨S1x128, .f32⟩
  | 58 => ⟨S262144x128, .f32⟩
  | 59 => ⟨S262144x128, .f32⟩
  | 60 => ⟨S1x128, .f32⟩
  | 61 => ⟨S262144x128, .f32⟩
  | 62 => ⟨S262144x128, .f32⟩
  | 63 => ⟨S1x128, .f32⟩
  | 64 => ⟨S262144x128, .f32⟩
  | 65 => ⟨S262144x128, .f32⟩
  | 66 => ⟨S_, .f32⟩
  | 67 => ⟨S262144x128, .f32⟩
  | 68 => ⟨S262144x128, .f32⟩
  | 69 => ⟨S128x128, .f32⟩
  | 70 => ⟨S262144x128, .f32⟩
  | 71 => ⟨S1x128, .f32⟩
  | 72 => ⟨S262144x128, .f32⟩
  | 73 => ⟨S262144x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S262144x128, .f32⟩
  | 81 => ⟨S262144x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S262144x128, .f32⟩
  | 95 => ⟨S262144x128, .f32⟩
  | 96 => ⟨S262144x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S262144x128, .f32⟩
  | 112 => ⟨S262144x128, .f32⟩
  | 113 => ⟨S_, .f32⟩
  | 114 => ⟨S128, .f32⟩
  | 115 => ⟨S128, .f32⟩
  | 116 => ⟨S128, .f32⟩
  | 117 => ⟨S1x128, .f32⟩
  | 118 => ⟨S262144x128, .f32⟩
  | 119 => ⟨S262144x128, .f32⟩
  | 120 => ⟨S1x128, .f32⟩
  | 121 => ⟨S262144x128, .f32⟩
  | 122 => ⟨S262144x128, .f32⟩
  | 123 => ⟨S1x128, .f32⟩
  | 124 => ⟨S262144x128, .f32⟩
  | 125 => ⟨S262144x128, .f32⟩
  | 126 => ⟨S_, .f32⟩
  | 127 => ⟨S262144x128, .f32⟩
  | _ => ⟨S262144x128, .f32⟩

abbrev hbmTy0_1 (i : Nat) : BufTy := match i % 128 with
  | 0 => ⟨S262144x128, .f32⟩
  | 1 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_call1_cst : Ref sig .tc := ⟨.hbm, 66, rfl⟩
abbrev main_call1_v0 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_4 : Ref sig .tc := ⟨.hbm, 74, rfl⟩
abbrev main_v36 : Ref sig .tc := ⟨.hbm, 75, rfl⟩
abbrev main_cst_5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_cst_7 : Ref sig .tc := ⟨.hbm, 84, rfl⟩
abbrev main_v43 : Ref sig .tc := ⟨.hbm, 85, rfl⟩
abbrev main_v44 : Ref sig .tc := ⟨.hbm, 86, rfl⟩
abbrev main_c_8 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_cst_9 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_call3_cst : Ref sig .tc := ⟨.hbm, 126, rfl⟩
abbrev main_call3_v0 : Ref sig .tc := ⟨.hbm, 127, rfl⟩
abbrev main_v61 : Ref sig .tc := ⟨.hbm, 128, rfl⟩
abbrev main_v62 : Ref sig .tc := ⟨.hbm, 129, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S128_d0 : S262144x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S262144x128 : S_.BroadcastsInDim S262144x128 (![] : Fin 0 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.BitsStats1Region.lean ====
import proofs.«159717_j8890582303003_2_alg».proof.Proof.Gen.Kernel.Launch
import proofs.«159717_j8890582303003_2_alg».proof.Proof.Gen.Kernel.Skeleton
import proofs.«159717_j8890582303003_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
# The first statistics pass as a region of the kernel program

The first pallas_call visits 64 grid points in order.  At each point it multiplies a tile of 4096 rows
of the input by the transposed weight, adds the bias row, and adds the tile's column sums and column
sums of squares to two one-row running totals.  The totals live in scratch memory, which the pipeline
does not touch: they are set to zero at the first point and survive from one point to the next.  At the
last point the mean and the variance are formed from the totals and stored into the two one-row
outputs; only that point's stores are written back.

The file is organised around the totals.  `sums` says, by recursion on the point, what the two scratch
rows hold after each point.  The region invariant pins the scratch rows to `sums` of the point before.
One Hoare triple per kind of point (first, middle, last) says that the body moves the scratch rows one
step along `sums`; the body obligation is those three triples, chosen by the grid coordinate.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Stats1

/-! ## Loads and stores over a whole buffer -/

/-- The offsets `![0, 0]` are the zero offsets. -/
theorem zero2 : (![0, 0] : Fin 2 → ℕ) = fun _ => 0 := by funext a; fin_cases a <;> rfl

/-- Whatever was stored before, once a value has been stored over the whole buffer the buffer reads as that value. -/
theorem read_after_whole_store {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (r : S.Idx → Elt F e)
    (L : List (View.Piece (Elt F) S e)) :
    v.read (Elt F) (v.writes (Elt F) f (⟨Rect.unit off S.size inb, r⟩ :: L)) = r := by
  rw [View.read_writes_eq_canon _ _ _ (fun y => ⟨_, List.mem_cons_self .., View.mem_set_unit_zero h inb y⟩),
    View.canon_cons_unit_zero h inb]

/-- A load of the whole of a whole memref that nothing has stored into reads what the memref holds. -/
theorem load_untouched {S : Shape} {e : EltTy} (m : Memref sig .tc .vmem S e) (hm : m.IsWhole) {off : Fin S.rank → ℕ} (h : off = fun _ => 0)
    (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's two conditions -/

/-- The body resets the totals when this holds of the grid coordinate: it is 0. -/
abbrev resetCond (i : grid0.Coords) : Prop := (Scalar.cmpi .ne (Scalar.extui (Scalar.cmpi .eq (BitVec.ofNat 32 (i 0).val) 0#32)) 0#32) = 1#1
/-- The body forms the outputs when this holds of the grid coordinate: it is 63. -/
abbrev finalCond (i : grid0.Coords) : Prop := k0_cond2 i = 1#1

/-! ## The body on whole memrefs, one triple per kind of point

Each triple is proved by running the body's memory operations symbolically.  What is left afterwards is to read the
final contents of each buffer: a buffer the body never stored into reads what it held; a buffer whose last store
covered it reads that store's value; and each loaded operand inside a stored value is in turn one of these two. -/

set_option maxHeartbeats 1000000 in
/-- The FIRST point (reset, no outputs).  Whatever the scratch rows held, they leave holding the zero rows with the tile
    added; inputs and outputs are handed back as found. -/
theorem first_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : resetCond i) (hf : ¬finalCond i)
    (x : Vec F S4096x128 .f32) (w : Vec F S128x128 .f32) (b : Vec F S1x128 .f32) (y3 y4 : Vec F S1x128 .f32) (E : Set ℕ) (K : PUnit → sProp 𝕄) :
    iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4 ∗ (∃ d, owns (c : Thread nD τ) a6 fullShare d) ∗ (∃ d, owns (c : Thread nD τ) a7 fullShare d)
      ∗ (iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4
          ∗ owns (c : Thread nD τ) a6 fullShare (k0_pay4 x w b k0_pay1) ∗ owns (c : Thread nD τ) a7 fullShare (k0_pay5 x w b k0_pay2)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  obtain rfl := w1.eq_unread h1; obtain rfl := w2.eq_unread h2; obtain rfl := w3.eq_unread h3
  obtain rfl := w4.eq_unread h4; obtain rfl := w5.eq_unread h5
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    · ipureintro; exact h4
    · iexact H4
  isplitl [H5]
  · iexists _; isplitr
    · ipureintro; exact h5
    · iexact H5
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, View.readCov_unit_zero _ zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, View.readCov_unit_zero _ zero2 inb_S1x128_S1x128_0_0]

set_option maxHeartbeats 1000000 in
/-- A MIDDLE point (no reset, no outputs).  The scratch rows enter at totals `s0`, `s1` and leave with the tile
    added; inputs and outputs are handed back as found. -/
theorem middle_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : ¬resetCond i) (hf : ¬finalCond i)
    (x : Vec F S4096x128 .f32) (w : Vec F S128x128 .f32) (b : Vec F S1x128 .f32) (y3 y4 s0 s1 : Vec F S1x128 .f32) (E : Set ℕ) (K : PUnit → sProp 𝕄) :
    iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4 ∗ owns (c : Thread nD τ) a6 fullShare s0 ∗ owns (c : Thread nD τ) a7 fullShare s1
      ∗ (iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4
          ∗ owns (c : Thread nD τ) a6 fullShare (k0_pay4 x w b s0) ∗ owns (c : Thread nD τ) a7 fullShare (k0_pay5 x w b s1)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, Hk⟩
  obtain rfl := w1.eq_unread h1; obtain rfl := w2.eq_unread h2; obtain rfl := w3.eq_unread h3
  obtain rfl := w4.eq_unread h4; obtain rfl := w5.eq_unread h5
  obtain rfl := w6.eq_unread h6; obtain rfl := w7.eq_unread h7
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    · ipureintro; exact h4
    · iexact H4
  isplitl [H5]
  · iexists _; isplitr
    · ipureintro; exact h5
    · iexact H5
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a7 w7 zero2 inb_S1x128_S1x128_0_0]

set_option maxHeartbeats 1000000 in
/-- The LAST point (no reset, outputs formed).  The scratch rows move as at a middle point; then the two outputs,
    whatever they held, receive the mean row and the variance row of the NEW totals. -/
theorem last_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : ¬resetCond i) (hf : finalCond i)
    (x : Vec F S4096x128 .f32) (w : Vec F S128x128 .f32) (b : Vec F S1x128 .f32) (s0 s1 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d) ∗ (∃ d, owns (c : Thread nD τ) a5 fullShare d) ∗ owns (c : Thread nD τ) a6 fullShare s0 ∗ owns (c : Thread nD τ) a7 fullShare s1
      ∗ (iprop(owns (c : Thread nD τ) a1 fullShare x ∗ owns (c : Thread nD τ) a2 fullShare w ∗ owns (c : Thread nD τ) a3 fullShare b
          ∗ owns (c : Thread nD τ) a4 fullShare (k0_pay6 (k0_pay4 x w b s0)) ∗ owns (c : Thread nD τ) a5 fullShare (k0_pay7 (k0_pay4 x w b s0) (k0_pay5 x w b s1))
          ∗ owns (c : Thread nD τ) a6 fullShare (k0_pay4 x w b s0) ∗ owns (c : Thread nD τ) a7 fullShare (k0_pay5 x w b s1)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%d4, %f4, -, H4⟩, ⟨%d5, %f5, -, H5⟩, ⟨%f6, %h6, H6⟩, ⟨%f7, %h7, H7⟩, Hk⟩
  obtain rfl := w1.eq_unread h1; obtain rfl := w2.eq_unread h2; obtain rfl := w3.eq_unread h3
  obtain rfl := w6.eq_unread h6; obtain rfl := w7.eq_unread h7
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    swap
    · iexact H4
    · ipureintro
      sl_unfold_run_names
      rw [read_after_whole_store (S := S1x128) _ _ zero2 inb_S1x128_S1x128_0_0, View.readCov_unit_zero _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  isplitl [H5]
  · iexists _; isplitr
    swap
    · iexact H5
    · ipureintro
      sl_unfold_run_names
      rw [read_after_whole_store (S := S1x128) _ _ zero2 inb_S1x128_S1x128_0_0, View.readCov_unit_zero _ zero2 inb_S1x128_S1x128_0_0, View.readCov_unit_zero _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0, load_untouched a7 w7 zero2 inb_S1x128_S1x128_0_0]
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a7 w7 zero2 inb_S1x128_S1x128_0_0]

/-! ## What a point sees of the three inputs -/

/-- The tile of 4096 input rows that point `t` works on. -/
def xTile (c : Dev nD) (t : Fin cfg0.N) : Vec F S4096x128 .f32 :=
  ((cfg0.win 0).blk t).view.read (Elt F) (V c (Pipeline.arrRef spec0 0))

/-- The transposed weight as point `t` sees it (the same whole matrix at every point). -/
def wTile (c : Dev nD) (t : Fin cfg0.N) : Vec F S128x128 .f32 :=
  ((cfg0.win 1).blk t).view.read (Elt F) (V c (Pipeline.arrRef spec0 1))

/-- The bias row as point `t` sees it (the same row at every point). -/
def bTile (c : Dev nD) (t : Fin cfg0.N) : Vec F S1x128 .f32 :=
  ((cfg0.win 2).blk t).view.read (Elt F) (V c (Pipeline.arrRef spec0 2))

/-! ## The running totals -/

/-- One point's work on the pair of totals: the tile's column sums are added to the first row, its column sums
    of squares to the second. -/
def addTile (x : Vec F S4096x128 .f32) (w : Vec F S128x128 .f32) (b : Vec F S1x128 .f32)
    (a : Vec F S1x128 .f32 × Vec F S1x128 .f32) : Vec F S1x128 .f32 × Vec F S1x128 .f32 :=
  (k0_pay4 x w b a.1, k0_pay5 x w b a.2)

/-- The pair of zero rows the first point starts from. -/
def zeroRows : Vec F S1x128 .f32 × Vec F S1x128 .f32 := (k0_pay1, k0_pay2)

/-- What the two scratch rows hold after the body has run at point `n`: the zero rows with the tiles of points
    `0, …, n` added one after the other. -/
def sums (c : Dev nD) : (n : ℕ) → n < cfg0.N → Vec F S1x128 .f32 × Vec F S1x128 .f32
  | 0, h => addTile (xTile V c ⟨0, h⟩) (wTile V c ⟨0, h⟩) (bTile V c ⟨0, h⟩) zeroRows
  | n + 1, h => addTile (xTile V c ⟨n + 1, h⟩) (wTile V c ⟨n + 1, h⟩) (bTile V c ⟨n + 1, h⟩) (sums c n (Nat.lt_of_succ_lt h))

/-- The mean row formed from a pair of totals. -/
def meanRow (a : Vec F S1x128 .f32 × Vec F S1x128 .f32) : Vec F S1x128 .f32 := k0_pay6 a.1
/-- The variance row formed from a pair of totals. -/
def varRow (a : Vec F S1x128 .f32 × Vec F S1x128 .f32) : Vec F S1x128 .f32 := k0_pay7 a.1 a.2

/-! ## The scratch rows and the invariant that carries them -/

/-- The two scratch rows, as whole memrefs. -/
abbrev tot0 : Memref sig .tc .vmem S1x128 .f32 := Memref.whole cc0_scratch0
abbrev tot1 : Memref sig .tc .vmem S1x128 .f32 := Memref.whole cc0_scratch1

/-- Everything else the region may use and need not describe: the core's other scoped buffers at some contents and
    the generator register at some state. -/
abbrev others (c : Dev nD) : sProp 𝕄 :=
  iprop(Pipeline.scopedRestBut (Ix := Unit) (Name := ℕ) (U := UR sig nD τ) (Lvl := ℕ) (Val := Elt F) spec0 c [cc0_scratch0, cc0_scratch1]
    ∗ (∃ r, prngReg c r))

/-- The region invariant before point `n`.  Before the first point the scratch rows hold anything (the launch's own
    invariant); before any later point they hold the totals the point before left. -/
def carried (c : Dev nD) : (n : ℕ) → n ≤ cfg0.N → sProp 𝕄
  | 0, _ => Pipeline.ΦA spec0 c
  | n + 1, h => iprop(owns (c : Thread nD τ) tot0 fullShare (sums V c n h).1 ∗ owns (c : Thread nD τ) tot1 fullShare (sums V c n h).2 ∗ others c)

end Stats1

open Stats1

/-! ## The proof data -/

/-- The region's proof data on core `c`.  The arrays are as the region finds them.  After the body an input's
    buffer still holds its tile; the two outputs hold the mean and variance rows of the totals so far — which is what
    the body stores at the last point, the only point where the outputs are live.  The invariant is `carried`. -/
def dat0 (c : Dev nD) : Dat τ (Elt F) Unit ℕ (UR sig nD τ) ℕ cfg0 c where
  A w := V c (Pipeline.arrRef spec0 w)
  after w t := match w with
    | ⟨0, _⟩ => xTile V c t
    | ⟨1, _⟩ => wTile V c t
    | ⟨2, _⟩ => bTile V c t
    | ⟨3, _⟩ => meanRow (sums V c t.val t.isLt)
    | ⟨4, _⟩ => varRow (sums V c t.val t.isLt)
  Φ t := carried V c t.val (Nat.le_of_lt_succ t.isLt)
  q _ := fullShare
  owed _ := 0

theorem A_eq0 (c : Dev nD) (w : Fin cfg0.W) : (dat0 V c).A w = V c (Pipeline.arrRef spec0 w) := rfl

namespace Stats1

/-! ## Which kind of point a grid point is -/

/-- The reset happens at the first point and nowhere else. -/
theorem reset_iff : ∀ t : Fin cfg0.N, resetCond (grid0.coords t) ↔ t.val = 0 :=
  (by decide +kernel : ∀ t : Fin grid0.N, resetCond (grid0.coords t) ↔ t.val = 0)

/-- The outputs are formed at the last point and nowhere else. -/
theorem final_iff : ∀ t : Fin cfg0.N, finalCond (grid0.coords t) ↔ t.val = 63 :=
  (by decide +kernel : ∀ t : Fin grid0.N, finalCond (grid0.coords t) ↔ t.val = 63)

/-- Before the last point the two outputs are idle: the body stores nothing into them. -/
theorem outputs_idle : ∀ t : Fin cfg0.N, t.val ≠ 63 →
    cfg0.idle 3 (grid0.coords t) = true ∧ cfg0.idle 4 (grid0.coords t) = true :=
  (by decide +kernel : ∀ t : Fin grid0.N, t.val ≠ 63 → cfg0.idle 3 (grid0.coords t) = true ∧ cfg0.idle 4 (grid0.coords t) = true)

/-- At the last point they are live. -/
theorem outputs_live : ∀ t : Fin cfg0.N, t.val = 63 →
    cfg0.idle 3 (grid0.coords t) = false ∧ cfg0.idle 4 (grid0.coords t) = false :=
  (by decide +kernel : ∀ t : Fin grid0.N, t.val = 63 → cfg0.idle 3 (grid0.coords t) = false ∧ cfg0.idle 4 (grid0.coords t) = false)

/-- Before the last point neither output is written back. -/
theorem outputs_kept (t : Fin cfg0.N) (h : t.val ≠ 63) : (cfg0.win 3).flush t = false ∧ (cfg0.win 4).flush t = false := by
  have hN : t.val < 64 := lt_of_lt_of_eq t.isLt (show cfg0.N = 64 from N_0)
  constructor
  · exact Bool.eq_false_iff.mpr fun e => h (by have := (flush0_3 t).mp e; omega)
  · exact Bool.eq_false_iff.mpr fun e => h (by have := (flush0_4 t).mp e; omega)

/-! ## The totals and the invariant, point by point -/

/-- At the first point the totals are the zero rows with that point's tile added. -/
theorem sums_first (c : Dev nD) (t : Fin cfg0.N) (h : t.val = 0) :
    sums V c t.val t.isLt = addTile (xTile V c t) (wTile V c t) (bTile V c t) zeroRows := by
  obtain ⟨n, hn⟩ := t
  cases n with
  | zero => rfl
  | succ n => exact absurd h (Nat.succ_ne_zero n)

/-- At any later point they are the totals of the point before with this point's tile added. -/
theorem sums_later (c : Dev nD) (t : Fin cfg0.N) (h : t.val ≠ 0) :
    sums V c t.val t.isLt
      = addTile (xTile V c t) (wTile V c t) (bTile V c t) (sums V c (t.val - 1) (Nat.lt_of_le_of_lt (Nat.sub_le _ _) t.isLt)) := by
  obtain ⟨n, hn⟩ := t
  cases n with
  | zero => exact absurd rfl h
  | succ n => rfl

/-- Before the first point the invariant is the launch's. -/
theorem carried_first (c : Dev nD) (n : ℕ) (h : n ≤ cfg0.N) (hz : n = 0) : carried V c n h = Pipeline.ΦA spec0 c := by
  subst hz; rfl

/-- Before a later point it pins the scratch rows to the totals of the point before. -/
theorem carried_later (c : Dev nD) (n : ℕ) (h : n ≤ cfg0.N) (hz : n ≠ 0) :
    carried V c n h
      = iprop(owns (c : Thread nD τ) tot0 fullShare (sums V c (n - 1) (by omega)).1 ∗ owns (c : Thread nD τ) tot1 fullShare (sums V c (n - 1) (by omega)).2 ∗ others c) := by
  cases n with
  | zero => exact absurd rfl hz
  | succ n => rfl

/-- The launch's invariant hands over the two scratch rows, each at some contents, and the rest. -/
theorem entry_open (c : Dev nD) :
    (Pipeline.ΦA spec0 c : sProp 𝕄)
      ⊢ iprop((∃ d, owns (c : Thread nD τ) tot0 fullShare d) ∗ (∃ d, owns (c : Thread nD τ) tot1 fullShare d) ∗ others c) := by
  unfold Pipeline.ΦA; rw [scopedRest0_split]; simp only [tot0, tot1, owns_whole]
  iintro ⟨⟨⟨T0, T1⟩, R⟩, G⟩
  isplitl [T0]; · iexact T0
  isplitl [T1]; · iexact T1
  isplitl [R]; · iexact R
  iexact G

/-- And takes them back at any contents. -/
theorem entry_close (c : Dev nD) :
    iprop((∃ d, owns (c : Thread nD τ) tot0 fullShare d) ∗ (∃ d, owns (c : Thread nD τ) tot1 fullShare d) ∗ others c)
      ⊢ (Pipeline.ΦA spec0 c : sProp 𝕄) := by
  unfold Pipeline.ΦA; rw [scopedRest0_split]; simp only [tot0, tot1, owns_whole]
  iintro ⟨T0, T1, R, G⟩
  isplitr [G]
  · isplitr [R]
    · isplitl [T0]; · iexact T0
      iexact T1
    · iexact R
  · iexact G

/-! ## The inputs' buffers -/

/-- Each input's current buffer holds the point's tile, whether the pipeline fetched it at this point or left it from
    the point before (the weight and the bias are fetched once: their block index never moves). -/
theorem found_x (c : Dev nD) (t : Fin cfg0.N) (d) : (dat0 V c).before 0 t d = xTile V c t :=
  ((dat0 V c).before_in_eq_fetched 0 rfl (fun _ => rfl) (fun _ _ _ => rfl) (fun _ => rfl) t d).trans rfl
theorem found_w (c : Dev nD) (t : Fin cfg0.N) (d) : (dat0 V c).before 1 t d = wTile V c t :=
  ((dat0 V c).before_in_eq_fetched 1 rfl (fun _ => rfl) (fun _ _ _ => rfl) (fun _ => rfl) t d).trans rfl
theorem found_b (c : Dev nD) (t : Fin cfg0.N) (d) : (dat0 V c).before 2 t d = bTile V c t :=
  ((dat0 V c).before_in_eq_fetched 2 rfl (fun _ => rfl) (fun _ _ _ => rfl) (fun _ => rfl) t d).trans rfl

/-! ## The body at a grid point -/

set_option maxHeartbeats 4000000 in
/-- The body run at point `t` on what the pipeline hands it takes the invariant before `t` to the invariant after `t`.
    The grid coordinate says which of the three triples applies.  At the first point the launch's invariant supplies the
    scratch rows at arbitrary contents; afterwards the invariant supplies them at the totals of the point before.  Away
    from the last point the outputs' buffers pass through unchanged; at the last point they receive the mean and
    variance rows of the new totals, which is what the proof data says they hold. -/
theorem point_step (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t
            ∗ (dat0 V c).leavesExact 3 t ∗ (dat0 V c).leavesExact 4 t)) := by
  have hN : t.val < 64 := lt_of_lt_of_eq t.isLt (show cfg0.N = 64 from N_0)
  simp only [found_x, found_w, found_b]
  rw [show (dat0 V c).owesAt () t.succ = (dat0 V c).owesAt () t.castSucc from rfl,
    show (dat0 V c).Φ t.succ
      = iprop(owns (c : Thread nD τ) tot0 fullShare (sums V c t.val t.isLt).1 ∗ owns (c : Thread nD τ) tot1 fullShare (sums V c t.val t.isLt).2 ∗ others c) from rfl,
    show (dat0 V c).Φ t.castSucc = carried V c t.val (Nat.le_of_lt t.isLt) from rfl,
    show (dat0 V c).leavesExact 0 t = owns (c : Thread nD τ) (st0_0 t) fullShare (xTile V c t) from rfl,
    show (dat0 V c).leavesExact 1 t = owns (c : Thread nD τ) (st0_1 t) fullShare (wTile V c t) from rfl,
    show (dat0 V c).leavesExact 2 t = owns (c : Thread nD τ) (st0_2 t) fullShare (bTile V c t) from rfl]
  unfold bodyAt0
  by_cases h0 : t.val = 0
  · have hL : t.val ≠ 63 := by omega
    rw [Dat.leavesExact_idle _ 3 t (outputs_idle t hL).1 (outputs_kept t hL).1,
      Dat.leavesExact_idle _ 4 t (outputs_idle t hL).2 (outputs_kept t hL).2,
      carried_first V c _ _ h0, sums_first V c t h0]
    refine (sep_mono (entry_open c) .rfl).trans ?_
    iintro ⟨⟨T0, T1, R⟩, Ho, ⟨%d0, X⟩, ⟨%d1, W⟩, ⟨%d2, B⟩, ⟨%d3, Y3⟩, ⟨%d4, Y4⟩⟩
    iapply first_point c (grid0.coords t) _ _ _ _ _ _ _ _ _ _ _ _ _ _ ((reset_iff t).mpr h0) (fun h => hL ((final_iff t).mp h))
      (xTile V c t) (wTile V c t) (bTile V c t) _ _ Set.univ _
    isplitl [X]; · iexact X
    isplitl [W]; · iexact W
    isplitl [B]; · iexact B
    isplitl [Y3]; · iexact Y3
    isplitl [Y4]; · iexact Y4
    isplitl [T0]; · iexact T0
    isplitl [T1]; · iexact T1
    iintro ⟨X, W, B, Y3, Y4, T0, T1⟩
    isplitl [T0 T1 R]
    · isplitl [T0]; · iexact T0
      isplitl [T1]; · iexact T1
      iexact R
    isplitl [Ho]; · iexact Ho
    isplitl [X]; · iexact X
    isplitl [W]; · iexact W
    isplitl [B]; · iexact B
    isplitl [Y3]; · iexists _; iexact Y3
    iexists _; iexact Y4
  · by_cases hL : t.val = 63
    · rw [show (dat0 V c).leavesExact 3 t = owns (c : Thread nD τ) (st0_3 t) fullShare (meanRow (sums V c t.val t.isLt)) from by
          unfold Dat.leavesExact; rw [(outputs_live t hL).1]; rfl,
        show (dat0 V c).leavesExact 4 t = owns (c : Thread nD τ) (st0_4 t) fullShare (varRow (sums V c t.val t.isLt)) from by
          unfold Dat.leavesExact; rw [(outputs_live t hL).2]; rfl,
        carried_later V c _ _ h0, sums_later V c t h0]
      iintro ⟨⟨T0, T1, R⟩, Ho, ⟨%d0, X⟩, ⟨%d1, W⟩, ⟨%d2, B⟩, ⟨%d3, Y3⟩, ⟨%d4, Y4⟩⟩
      iapply last_point c (grid0.coords t) _ _ _ _ _ _ _ _ _ _ _ _ _ _ (fun h => h0 ((reset_iff t).mp h)) ((final_iff t).mpr hL)
        (xTile V c t) (wTile V c t) (bTile V c t) _ _ Set.univ _
      isplitl [X]; · iexact X
      isplitl [W]; · iexact W
      isplitl [B]; · iexact B
      isplitl [Y3]; · iexists _; iexact Y3
      isplitl [Y4]; · iexists _; iexact Y4
      isplitl [T0]; · iexact T0
      isplitl [T1]; · iexact T1
      iintro ⟨X, W, B, Y3, Y4, T0, T1⟩
      isplitl [T0 T1 R]
      · isplitl [T0]; · iexact T0
        isplitl [T1]; · iexact T1
        iexact R
      isplitl [Ho]; · iexact Ho
      isplitl [X]; · iexact X
      isplitl [W]; · iexact W
      isplitl [B]; · iexact B
      isplitl [Y3]; · iexact Y3
      iexact Y4
    · rw [Dat.leavesExact_idle _ 3 t (outputs_idle t hL).1 (outputs_kept t hL).1,
        Dat.leavesExact_idle _ 4 t (outputs_idle t hL).2 (outputs_kept t hL).2,
        carried_later V c _ _ h0, sums_later V c t h0]
      iintro ⟨⟨T0, T1, R⟩, Ho, ⟨%d0, X⟩, ⟨%d1, W⟩, ⟨%d2, B⟩, ⟨%d3, Y3⟩, ⟨%d4, Y4⟩⟩
      iapply middle_point c (grid0.coords t) _ _ _ _ _ _ _ _ _ _ _ _ _ _ (fun h => h0 ((reset_iff t).mp h)) (fun h => hL ((final_iff t).mp h))
        (xTile V c t) (wTile V c t) (bTile V c t) _ _ _ _ Set.univ _
      isplitl [X]; · iexact X
      isplitl [W]; · iexact W
      isplitl [B]; · iexact B
      isplitl [Y3]; · iexact Y3
      isplitl [Y4]; · iexact Y4
      isplitl [T0]; · iexact T0
      isplitl [T1]; · iexact T1
      iintro ⟨X, W, B, Y3, Y4, T0, T1⟩
      isplitl [T0 T1 R]
      · isplitl [T0]; · iexact T0
        isplitl [T1]; · iexact T1
        iexact R
      isplitl [Ho]; · iexact Ho
      isplitl [X]; · iexact X
      isplitl [W]; · iexact W
      isplitl [B]; · iexact B
      isplitl [Y3]; · iexists _; iexact Y3
      iexists _; iexact Y4

end Stats1

/-- The region's body obligation: `point_step` at every point, the five windows written out one by one. -/
theorem body_obligation0 (c : Dev nD) : Pipeline.BodyObligation (dat0 (F := F) V c) (defs₀ (F := F)) Variants.none () Set.univ := fun t => by
  rw [bigSep_W0, bigSep_W0]
  exact Stats1.point_step V c t

/-! ## The two ends of the region -/

/-- Entering the region: the invariant before the first point is the launch's. -/
theorem hin0 (c : Dev nD) : Pipeline.ΦA spec0 c ⊢ (dat0 V c).Φ 0 := Entails.rfl

/-- Leaving it: after the last point the totals' values are forgotten and the launch's invariant is restored. -/
theorem hout0 (c : Dev nD) : (dat0 V c).Φ (Fin.last cfg0.N) ⊢ Pipeline.ΦA spec0 c := by
  rw [show (dat0 V c).Φ (Fin.last cfg0.N) = carried V c (Fin.last cfg0.N).val (Nat.le_of_lt_succ (Fin.last cfg0.N).isLt) from rfl,
    carried_later V c _ _ (by rw [Fin.val_last]; have : cfg0.N = 64 := N_0; omega)]
  refine BIBase.Entails.trans ?_ (entry_close c)
  iintro ⟨T0, T1, R⟩
  isplitl [T0]; · iexists _; iexact T0
  isplitl [T1]; · iexists _; iexact T1
  iexact R

end Cert.Kernel.Hand

end
-- ==== Proof.BitsStats2Runs.lean ====
/-
  The body of the second statistics pass, run once in each of its three control cases.

  The body has two conditionals on the grid coordinate: at the first point it zeroes the two one-row scratch
  buffers; at the last it forms the mean and the clamped variance from them and stores these into the two one-row
  outputs.  Between the two, at every point, it adds the block's column sums of the second layer's pre-activations,
  and of their squares, to the scratch buffers.  Each triple below is over ANY whole memrefs, the operands' at their
  contents; what the scratch and the outputs end at is stated as a value of the body's own arithmetic.
-/
import proofs.«159717_j8890582303003_2_alg».proof.Proof.Gen.Kernel.Launch
import proofs.«159717_j8890582303003_2_alg».proof.Proof.Gen.Kernel.Skeleton
import proofs.«159717_j8890582303003_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand.Stats2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer stores and loads

Every load and store of this body moves a whole buffer: the rectangle at zero offsets of the buffer's own extents. -/

/-- The zero offsets as the body spells them. -/
theorem zeroOff2 : (![0, 0] : Fin 2 → ℕ) = fun _ => 0 := by
  funext a; fin_cases a <;> rfl

section Whole

variable {sg : RefSig} {κ : Kind} {sp : Space} {S : Shape} {e : EltTy} {Val : EltTy → Type} [∀ e, Nonempty (Val e)]

/-- After a store of the whole buffer, made last, the buffer reads as the stored value, whatever was stored before
    (the offsets are zero, however spelt). -/
theorem read_writes_whole_last_of (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨_, List.mem_cons_self, View.mem_set_unit_zero h inb y⟩
  rw [View.read_writes_eq_canon v f _ hcov, View.canon_cons_unit_zero h]

/-- A load of the whole buffer from a whole memref held at the contents that read `X` reads `X`. -/
theorem readAt_whole_unread_of {m : Memref sg κ sp S e} (hm : m.IsWhole) (X : S.Idx → Val e) {off : Fin S.rank → ℕ}
    (h : off = fun _ => 0) (inb : ∀ a, off a + S.size a ≤ S.size a) :
    m.view.readAt Val (Rect.unit off S.size inb).toLoadRect (hm.unread X) = X := by
  rw [View.readAt_eq_ld, hm.read_unread, View.ld_unit_zero h]

end Whole

section Whole2

variable {sg : RefSig} {κ : Kind} {sp : Space} {sz : Fin 2 → ℕ} {e : EltTy} {Val : EltTy → Type} [∀ e, Nonempty (Val e)]

/-- The same three facts for a two-axis buffer with the zero offsets as the body spells them. -/
theorem read_writes_whole_last (v : View sg κ sp ⟨2, sz⟩ e) (f : v.ty.Contents Val)
    (inb : ∀ a, (![0, 0] : Fin 2 → ℕ) a + sz a ≤ sz a) (w : (⟨2, sz⟩ : Shape).Idx → Val e)
    (L : List (View.Piece Val ⟨2, sz⟩ e)) :
    v.read Val (v.writes Val f ((⟨Rect.unit (s := ⟨2, sz⟩) ![0, 0] sz inb, w⟩ : View.Piece Val ⟨2, sz⟩ e) :: L)) = w :=
  read_writes_whole_last_of (S := ⟨2, sz⟩) v f zeroOff2 inb w L

theorem readAt_whole_unread {m : Memref sg κ sp ⟨2, sz⟩ e} (hm : m.IsWhole) (X : (⟨2, sz⟩ : Shape).Idx → Val e)
    (inb : ∀ a, (![0, 0] : Fin 2 → ℕ) a + sz a ≤ sz a) :
    m.view.readAt Val (Rect.unit (s := ⟨2, sz⟩) ![0, 0] sz inb).toLoadRect (hm.unread X) = X :=
  readAt_whole_unread_of (S := ⟨2, sz⟩) hm X zeroOff2 inb

theorem readCov_whole_store (v : View sg κ sp ⟨2, sz⟩ e) (inb : ∀ a, (![0, 0] : Fin 2 → ℕ) a + sz a ≤ sz a)
    (w : (⟨2, sz⟩ : Shape).Idx → Val e) :
    v.readCov [(⟨Rect.unit (s := ⟨2, sz⟩) ![0, 0] sz inb, w⟩ : View.Piece Val ⟨2, sz⟩ e)]
      (Rect.unit (s := ⟨2, sz⟩) ![0, 0] sz inb).toLoadRect = w :=
  View.readCov_unit_zero (S := ⟨2, sz⟩) v zeroOff2 inb w

end Whole2

/-! ## The two conditions, and the arithmetic of one grid point -/

/-- The first conditional's test as the body computes it: the grid coordinate is 0. -/
abbrev atFirst (i : grid1.Coords) : Prop :=
  Scalar.cmpi .ne (Scalar.extui (Scalar.cmpi .eq (BitVec.ofNat 32 (i 0).val) 0#32)) 0#32 = 1#1

/-- The second conditional's test: the grid coordinate is 63. -/
abbrev atLast (i : grid1.Coords) : Prop := k1_cond2 i = 1#1

/-- The running column sums after a block: the sums so far (`s`) plus the block's column sums of the second layer's
    pre-activations, computed from the nine staged operands (the batch block, the first layer's weight, bias, mean,
    variance, scale and shift, the second layer's weight and bias). -/
def addSums (x0 : Vec F S4096x128 .f32) (x1 : Vec F S128x128 .f32) (x2 x3 x4 x5 x6 : Vec F S1x128 .f32)
    (x7 : Vec F S128x128 .f32) (x8 : Vec F S1x128 .f32) (s : Vec F S1x128 .f32) : Vec F S1x128 .f32 :=
  k1_pay2 (k1_pay8 x0 x1 x2 x4 x3 x5 x6) (k1_pay9 x7) x8 s

/-- The running column sums of squares after a block. -/
def addSquares (x0 : Vec F S4096x128 .f32) (x1 : Vec F S128x128 .f32) (x2 x3 x4 x5 x6 : Vec F S1x128 .f32)
    (x7 : Vec F S128x128 .f32) (x8 : Vec F S1x128 .f32) (s : Vec F S1x128 .f32) : Vec F S1x128 .f32 :=
  k1_pay3 (k1_pay8 x0 x1 x2 x4 x3 x5 x6) (k1_pay9 x7) x8 s

/-! ## The body's three triples -/

set_option maxHeartbeats 1000000 in
/-- The body at the first point: the first conditional zeroes the two scratch rows, whatever they held, and they end at
    the first block's sums; the operands and the two output rows are left as found. -/
theorem body_first (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : atFirst i) (hc1 : ¬atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (y9 y10 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare (addSums x0 x1 x2 x3 x4 x5 x6 x7 x8 (k1_pay6 (F := F))) ∗ owns (c : Thread nD τ) arg13 fullShare (addSquares x0 x1 x2 x3 x4 x5 x6 x7 x8 (k1_pay7 (F := F)))) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [HS0]
  · iexists _; isplitr
    swap; · iexact HS0
    ipureintro
    sl_unfold_run_names
    rw [read_writes_whole_last]
    simp only [readAt_whole_unread, readCov_whole_store]

    rfl
  · iexists _; isplitr
    swap; · iexact HS1
    ipureintro
    sl_unfold_run_names
    rw [read_writes_whole_last]
    simp only [readAt_whole_unread, readCov_whole_store]
    rfl

set_option maxHeartbeats 1000000 in
/-- The body at a point that is neither the first nor the last: neither conditional fires; the two scratch rows, held at
    the sums so far, end at the sums with this block added; the operands and the two output rows are left as found. -/
theorem body_between (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬atFirst i) (hc1 : ¬atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (y9 y10 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare (addSums x0 x1 x2 x3 x4 x5 x6 x7 x8 s0) ∗ owns (c : Thread nD τ) arg13 fullShare (addSquares x0 x1 x2 x3 x4 x5 x6 x7 x8 s1)) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  obtain rfl := harg12.eq_unread hfs0; obtain rfl := harg13.eq_unread hfs1
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [HS0]
  · iexists _; isplitr
    swap; · iexact HS0
    ipureintro
    sl_unfold_run_names
    rw [read_writes_whole_last]
    simp only [readAt_whole_unread]

    rfl
  · iexists _; isplitr
    swap; · iexact HS1
    ipureintro
    sl_unfold_run_names
    rw [read_writes_whole_last]
    simp only [readAt_whole_unread]
    rfl

set_option maxHeartbeats 1000000 in
/-- The body at the last point: the scratch rows end at the sums with the last block added, and the second conditional
    stores the mean and the clamped variance formed from them into the two output rows, whatever those held. -/
theorem body_last (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬atFirst i) (hc1 : atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k1_pay4 (addSums x0 x1 x2 x3 x4 x5 x6 x7 x8 s0)) ∗ owns (c : Thread nD τ) arg11 fullShare (k1_pay5 (addSums x0 x1 x2 x3 x4 x5 x6 x7 x8 s0) (addSquares x0 x1 x2 x3 x4 x5 x6 x7 x8 s1)) ∗ owns (c : Thread nD τ) arg12 fullShare (addSums x0 x1 x2 x3 x4 x5 x6 x7 x8 s0) ∗ owns (c : Thread nD τ) arg13 fullShare (addSquares x0 x1 x2 x3 x4 x5 x6 x7 x8 s1)) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg12.eq_unread hfs0; obtain rfl := harg13.eq_unread hfs1
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    swap; · iexact H9
    ipureintro
    sl_unfold_run_names
    rw [read_writes_whole_last]
    simp only [readAt_whole_unread, readCov_whole_store]
    rfl
  isplitl [H10]
  · iexists _; isplitr
    swap; · iexact H10
    ipureintro
    sl_unfold_run_names
    rw [read_writes_whole_last]
    simp only [readAt_whole_unread, readCov_whole_store]
    rfl
  isplitl [HS0]
  · iexists _; isplitr
    swap; · iexact HS0
    ipureintro
    sl_unfold_run_names
    rw [read_writes_whole_last]
    simp only [readAt_whole_unread, readCov_whole_store]
    rfl
  · iexists _; isplitr
    swap; · iexact HS1
    ipureintro
    sl_unfold_run_names
    rw [read_writes_whole_last]
    simp only [readAt_whole_unread, readCov_whole_store]
    rfl

end Cert.Kernel.Hand.Stats2

end
-- ==== Proof.BitsStats2Region.lean ====
/-
  The second statistics pass as one region of the program.

  The pass visits the batch in 64 blocks of 4096 rows.  Two one-row scratch buffers carry, from one grid point to the
  next, the column sums and the column sums of squares of the second layer's pre-activations over the blocks seen so
  far: the first point zeroes them before adding its block, every point adds its block, and the last point forms the
  mean and the clamped variance from them and stores these into the two one-row outputs, which the pipeline writes
  back once, after that point.  Below: the running sums as a recursion over the points, the invariant that holds the
  scratch at them, the region's proof data, and the body obligation from the body's three triples.
-/
import proofs.«159717_j8890582303003_2_alg».proof.Proof.BitsStats2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Stats2

/-! ## The operands at a grid point, and the running sums -/

/-- Window `w`'s block at point `t`, read off its array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- One grid point's work on the pair of running sums: the block at `t` added to each. -/
def stepSums (c : Dev nD) (t : Fin cfg1.N) (s : Vec F S1x128 .f32 × Vec F S1x128 .f32) :
    Vec F S1x128 .f32 × Vec F S1x128 .f32 :=
  (addSums (blockAt V c 0 t) (blockAt V c 1 t) (blockAt V c 2 t) (blockAt V c 3 t) (blockAt V c 4 t) (blockAt V c 5 t) (blockAt V c 6 t) (blockAt V c 7 t) (blockAt V c 8 t) s.1,
   addSquares (blockAt V c 0 t) (blockAt V c 1 t) (blockAt V c 2 t) (blockAt V c 3 t) (blockAt V c 4 t) (blockAt V c 5 t) (blockAt V c 6 t) (blockAt V c 7 t) (blockAt V c 8 t) s.2)

/-- The pair of running sums after point `n`: from the zero rows at the first point, from the pair the point before
    left afterwards. -/
def sumsAt (c : Dev nD) : (n : ℕ) → n < cfg1.N → Vec F S1x128 .f32 × Vec F S1x128 .f32
  | 0, h => stepSums V c ⟨0, h⟩ (k1_pay6, k1_pay7)
  | n + 1, h => stepSums V c ⟨n + 1, h⟩ (sumsAt c n (Nat.lt_of_succ_lt h))

theorem sumsAt_first (c : Dev nD) (t : Fin cfg1.N) (hz : t.val = 0) :
    sumsAt V c t.val t.isLt = stepSums V c t (k1_pay6, k1_pay7) := by
  obtain ⟨n, hn⟩ := t
  cases n with
  | zero => rfl
  | succ n => exact absurd hz (Nat.succ_ne_zero n)

theorem sumsAt_later (c : Dev nD) (t : Fin cfg1.N) (hz : t.val ≠ 0) :
    sumsAt V c t.val t.isLt
      = stepSums V c t (sumsAt V c (t.val - 1) (Nat.lt_of_le_of_lt (Nat.sub_le _ _) t.isLt)) := by
  obtain ⟨n, hn⟩ := t
  cases n with
  | zero => exact absurd rfl hz
  | succ n => rfl

/-! ## The invariant: the scratch rows at the running sums -/

/-- The two scratch rows as memrefs. -/
abbrev sumRow : Memref sig .tc .vmem S1x128 .f32 := Memref.whole cc1_scratch0
abbrev squareRow : Memref sig .tc .vmem S1x128 .f32 := Memref.whole cc1_scratch1

/-- What holds between grid points: before the first, what the launch hands over (the scratch rows at anything);
    before point `n + 1`, the scratch rows at the running sums after point `n`; in both, the other scoped buffers and
    the generator register as the launch hands them over. -/
def carried (c : Dev nD) : (n : ℕ) → n ≤ cfg1.N → sProp 𝕄
  | 0, _ => Pipeline.ΦA spec1 c
  | n + 1, h =>
    iprop(iprop(iprop(owns (c : Thread nD τ) sumRow fullShare (sumsAt V c n h).1
          ∗ owns (c : Thread nD τ) squareRow fullShare (sumsAt V c n h).2)
        ∗ Pipeline.scopedRestBut (Ix := Unit) (Name := ℕ) (U := UR sig nD τ) (Lvl := ℕ) (Val := Elt F) spec1 c [cc1_scratch0, cc1_scratch1])
      ∗ (∃ r, prngReg c r))

theorem carried_zero (c : Dev nD) (n : ℕ) (h : n ≤ cfg1.N) (hz : n = 0) : carried V c n h = Pipeline.ΦA spec1 c := by
  subst hz; rfl

theorem carried_pos (c : Dev nD) (n : ℕ) (h : n ≤ cfg1.N) (hz : n ≠ 0) :
    carried V c n h
      = iprop(iprop(iprop(owns (c : Thread nD τ) sumRow fullShare (sumsAt V c (n - 1) (by omega)).1
            ∗ owns (c : Thread nD τ) squareRow fullShare (sumsAt V c (n - 1) (by omega)).2)
          ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-- What the launch hands the region, with the two scratch rows named. -/
theorem handed_eq (c : Dev nD) :
    (Pipeline.ΦA spec1 c : sProp 𝕄)
      = iprop(iprop(iprop((∃ d, owns (c : Thread nD τ) sumRow fullShare d) ∗ (∃ d, owns (c : Thread nD τ) squareRow fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [owns_whole]; rfl

end Stats2

open Stats2

/-! ## The region's proof data -/

/-- The proof data of this region on core `c`: the arrays as the region finds them; after the body at point `t` each
    operand's buffer still at its block, the two output rows at the mean and the clamped variance formed from the running
    sums after `t` (read only after the last point, where the pipeline writes them back); between points the invariant
    above; full shares, nothing owed. -/
def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => k1_pay4 (sumsAt V c t.val t.isLt).1
    | ⟨10, _⟩ => k1_pay5 (sumsAt V c t.val t.isLt).1 (sumsAt V c t.val t.isLt).2
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

namespace Stats2

theorem after_operand0 (c : Dev nD) (t : Fin cfg1.N) : (dat1 V c).after 0 t = blockAt V c 0 t := by dsimp only [dat1]
theorem after_operand1 (c : Dev nD) (t : Fin cfg1.N) : (dat1 V c).after 1 t = blockAt V c 1 t := by dsimp only [dat1]
theorem after_operand2 (c : Dev nD) (t : Fin cfg1.N) : (dat1 V c).after 2 t = blockAt V c 2 t := by dsimp only [dat1]
theorem after_operand3 (c : Dev nD) (t : Fin cfg1.N) : (dat1 V c).after 3 t = blockAt V c 3 t := by dsimp only [dat1]
theorem after_operand4 (c : Dev nD) (t : Fin cfg1.N) : (dat1 V c).after 4 t = blockAt V c 4 t := by dsimp only [dat1]
theorem after_operand5 (c : Dev nD) (t : Fin cfg1.N) : (dat1 V c).after 5 t = blockAt V c 5 t := by dsimp only [dat1]
theorem after_operand6 (c : Dev nD) (t : Fin cfg1.N) : (dat1 V c).after 6 t = blockAt V c 6 t := by dsimp only [dat1]
theorem after_operand7 (c : Dev nD) (t : Fin cfg1.N) : (dat1 V c).after 7 t = blockAt V c 7 t := by dsimp only [dat1]
theorem after_operand8 (c : Dev nD) (t : Fin cfg1.N) : (dat1 V c).after 8 t = blockAt V c 8 t := by dsimp only [dat1]
theorem after_mean (c : Dev nD) (t : Fin cfg1.N) : (dat1 V c).after 9 t = k1_pay4 (sumsAt V c t.val t.isLt).1 := by dsimp only [dat1]
theorem after_var (c : Dev nD) (t : Fin cfg1.N) :
    (dat1 V c).after 10 t = k1_pay5 (sumsAt V c t.val t.isLt).1 (sumsAt V c t.val t.isLt).2 := by dsimp only [dat1]

theorem inv_before (c : Dev nD) (t : Fin cfg1.N) :
    (dat1 V c).Φ t.castSucc = carried V c t.val (Nat.le_of_lt t.isLt) := by
  dsimp only [dat1]; simp only [Fin.coe_castSucc]

theorem inv_after (c : Dev nD) (t : Fin cfg1.N) :
    (dat1 V c).Φ t.succ
      = iprop(iprop(iprop(owns (c : Thread nD τ) sumRow fullShare (sumsAt V c t.val t.isLt).1
            ∗ owns (c : Thread nD τ) squareRow fullShare (sumsAt V c t.val t.isLt).2)
          ∗ Pipeline.scopedRestBut (Ix := Unit) (Name := ℕ) (U := UR sig nD τ) (Lvl := ℕ) (Val := Elt F) spec1 c [cc1_scratch0, cc1_scratch1])
        ∗ (∃ r, prngReg c r)) := rfl

/-! Each operand's current staging buffer holds its block at every point, fetched there or not: the first is fetched at
    every point, the others at the first point only and their block never moves. -/

theorem found_operand0 (c : Dev nD) (t : Fin cfg1.N) (d) : (dat1 V c).before 0 t d = blockAt V c 0 t :=
  ((dat1 V c).before_in_eq_fetched 0 rfl (fun _ => rfl) (fun _ _ _ => rfl)
    (fun t => by rw [after_operand0]; unfold Dat.blockOf blockAt; rw [A_eq1]; try rfl) t d).trans
    (by unfold Dat.fetched Dat.blockOf blockAt; rw [A_eq1]; try rfl)
theorem found_operand1 (c : Dev nD) (t : Fin cfg1.N) (d) : (dat1 V c).before 1 t d = blockAt V c 1 t :=
  ((dat1 V c).before_in_eq_fetched 1 rfl (fun _ => rfl) (fun _ _ _ => rfl)
    (fun t => by rw [after_operand1]; unfold Dat.blockOf blockAt; rw [A_eq1]; try rfl) t d).trans
    (by unfold Dat.fetched Dat.blockOf blockAt; rw [A_eq1]; try rfl)
theorem found_operand2 (c : Dev nD) (t : Fin cfg1.N) (d) : (dat1 V c).before 2 t d = blockAt V c 2 t :=
  ((dat1 V c).before_in_eq_fetched 2 rfl (fun _ => rfl) (fun _ _ _ => rfl)
    (fun t => by rw [after_operand2]; unfold Dat.blockOf blockAt; rw [A_eq1]; try rfl) t d).trans
    (by unfold Dat.fetched Dat.blockOf blockAt; rw [A_eq1]; try rfl)
theorem found_operand3 (c : Dev nD) (t : Fin cfg1.N) (d) : (dat1 V c).before 3 t d = blockAt V c 3 t :=
  ((dat1 V c).before_in_eq_fetched 3 rfl (fun _ => rfl) (fun _ _ _ => rfl)
    (fun t => by rw [after_operand3]; unfold Dat.blockOf blockAt; rw [A_eq1]; try rfl) t d).trans
    (by unfold Dat.fetched Dat.blockOf blockAt; rw [A_eq1]; try rfl)
theorem found_operand4 (c : Dev nD) (t : Fin cfg1.N) (d) : (dat1 V c).before 4 t d = blockAt V c 4 t :=
  ((dat1 V c).before_in_eq_fetched 4 rfl (fun _ => rfl) (fun _ _ _ => rfl)
    (fun t => by rw [after_operand4]; unfold Dat.blockOf blockAt; rw [A_eq1]; try rfl) t d).trans
    (by unfold Dat.fetched Dat.blockOf blockAt; rw [A_eq1]; try rfl)
theorem found_operand5 (c : Dev nD) (t : Fin cfg1.N) (d) : (dat1 V c).before 5 t d = blockAt V c 5 t :=
  ((dat1 V c).before_in_eq_fetched 5 rfl (fun _ => rfl) (fun _ _ _ => rfl)
    (fun t => by rw [after_operand5]; unfold Dat.blockOf blockAt; rw [A_eq1]; try rfl) t d).trans
    (by unfold Dat.fetched Dat.blockOf blockAt; rw [A_eq1]; try rfl)
theorem found_operand6 (c : Dev nD) (t : Fin cfg1.N) (d) : (dat1 V c).before 6 t d = blockAt V c 6 t :=
  ((dat1 V c).before_in_eq_fetched 6 rfl (fun _ => rfl) (fun _ _ _ => rfl)
    (fun t => by rw [after_operand6]; unfold Dat.blockOf blockAt; rw [A_eq1]; try rfl) t d).trans
    (by unfold Dat.fetched Dat.blockOf blockAt; rw [A_eq1]; try rfl)
theorem found_operand7 (c : Dev nD) (t : Fin cfg1.N) (d) : (dat1 V c).before 7 t d = blockAt V c 7 t :=
  ((dat1 V c).before_in_eq_fetched 7 rfl (fun _ => rfl) (fun _ _ _ => rfl)
    (fun t => by rw [after_operand7]; unfold Dat.blockOf blockAt; rw [A_eq1]; try rfl) t d).trans
    (by unfold Dat.fetched Dat.blockOf blockAt; rw [A_eq1]; try rfl)
theorem found_operand8 (c : Dev nD) (t : Fin cfg1.N) (d) : (dat1 V c).before 8 t d = blockAt V c 8 t :=
  ((dat1 V c).before_in_eq_fetched 8 rfl (fun _ => rfl) (fun _ _ _ => rfl)
    (fun t => by rw [after_operand8]; unfold Dat.blockOf blockAt; rw [A_eq1]; try rfl) t d).trans
    (by unfold Dat.fetched Dat.blockOf blockAt; rw [A_eq1]; try rfl)

/-! ## Which points fire which conditional, and where the outputs are idle -/

theorem atFirst_iff : ∀ t : Fin cfg1.N, atFirst (grid1.coords t) ↔ t.val = 0 :=
  (by decide +kernel : ∀ t : Fin grid1.N, atFirst (grid1.coords t) ↔ t.val = 0)

theorem atLast_iff : ∀ t : Fin cfg1.N, atLast (grid1.coords t) ↔ t.val = 63 :=
  (by decide +kernel : ∀ t : Fin grid1.N, atLast (grid1.coords t) ↔ t.val = 63)

theorem point_lt (t : Fin cfg1.N) : t.val < 64 := lt_of_lt_of_eq t.isLt (show cfg1.N = 64 from N_1)

/-- Output 9 is idle wherever the second conditional does not fire, -/
theorem idle_out9 (t : Fin cfg1.N) (h : ¬atLast (grid1.coords t)) : cfg1.idle 9 (grid1.coords t) = true := by
  show (!(k1_cond2 (grid1.coords t) == 1#1)) = true
  rw [Bool.not_eq_true', beq_eq_false_iff_ne]; exact h
/-- live where it does, -/
theorem live_out9 (t : Fin cfg1.N) (h : atLast (grid1.coords t)) : cfg1.idle 9 (grid1.coords t) = false := by
  show (!(k1_cond2 (grid1.coords t) == 1#1)) = false
  rw [Bool.not_eq_false', beq_iff_eq]; exact h
/-- and not written back before the last point. -/
theorem unflushed_out9 (t : Fin cfg1.N) (h : t.val ≠ 63) : (cfg1.win 9).flush t = false := by
  have hN := point_lt t
  cases hf : (cfg1.win 9).flush t
  · rfl
  · exact absurd ((flush1_9 t).mp hf) (by omega)
/-- Output 10 is idle wherever the second conditional does not fire, -/
theorem idle_out10 (t : Fin cfg1.N) (h : ¬atLast (grid1.coords t)) : cfg1.idle 10 (grid1.coords t) = true := by
  show (!(k1_cond2 (grid1.coords t) == 1#1)) = true
  rw [Bool.not_eq_true', beq_eq_false_iff_ne]; exact h
/-- live where it does, -/
theorem live_out10 (t : Fin cfg1.N) (h : atLast (grid1.coords t)) : cfg1.idle 10 (grid1.coords t) = false := by
  show (!(k1_cond2 (grid1.coords t) == 1#1)) = false
  rw [Bool.not_eq_false', beq_iff_eq]; exact h
/-- and not written back before the last point. -/
theorem unflushed_out10 (t : Fin cfg1.N) (h : t.val ≠ 63) : (cfg1.win 10).flush t = false := by
  have hN := point_lt t
  cases hf : (cfg1.win 10).flush t
  · rfl
  · exact absurd ((flush1_10 t).mp hf) (by omega)

/-! ## The body obligation -/

set_option maxHeartbeats 4000000 in
/-- The body at any point, on what the pipeline hands it: the operands' buffers hold their blocks; the point is the
    first, the last or neither, and the body's triple for that case applies — the invariant hands it the scratch rows
    (at anything before the first point, at the running sums afterwards) and takes them back at this point's sums. -/
theorem at_point (c : Dev nD) (t : Fin cfg1.N) :
    iprop((dat1 V c).Φ t.castSucc ∗ (dat1 V c).owesAt () t.castSucc
        ∗ (∃ d, owns (c : Thread nD τ) ((cfg1.win 0).stage (cfg1.slots t 0)) fullShare ((dat1 V c).before 0 t d))
        ∗ (∃ d, owns (c : Thread nD τ) ((cfg1.win 1).stage (cfg1.slots t 1)) fullShare ((dat1 V c).before 1 t d))
        ∗ (∃ d, owns (c : Thread nD τ) ((cfg1.win 2).stage (cfg1.slots t 2)) fullShare ((dat1 V c).before 2 t d))
        ∗ (∃ d, owns (c : Thread nD τ) ((cfg1.win 3).stage (cfg1.slots t 3)) fullShare ((dat1 V c).before 3 t d))
        ∗ (∃ d, owns (c : Thread nD τ) ((cfg1.win 4).stage (cfg1.slots t 4)) fullShare ((dat1 V c).before 4 t d))
        ∗ (∃ d, owns (c : Thread nD τ) ((cfg1.win 5).stage (cfg1.slots t 5)) fullShare ((dat1 V c).before 5 t d))
        ∗ (∃ d, owns (c : Thread nD τ) ((cfg1.win 6).stage (cfg1.slots t 6)) fullShare ((dat1 V c).before 6 t d))
        ∗ (∃ d, owns (c : Thread nD τ) ((cfg1.win 7).stage (cfg1.slots t 7)) fullShare ((dat1 V c).before 7 t d))
        ∗ (∃ d, owns (c : Thread nD τ) ((cfg1.win 8).stage (cfg1.slots t 8)) fullShare ((dat1 V c).before 8 t d))
        ∗ (∃ d, owns (c : Thread nD τ) ((cfg1.win 9).stage (cfg1.slots t 9)) fullShare ((dat1 V c).before 9 t d))
        ∗ (∃ d, owns (c : Thread nD τ) ((cfg1.win 10).stage (cfg1.slots t 10)) fullShare ((dat1 V c).before 10 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t)) := by
  simp only [found_operand0, found_operand1, found_operand2, found_operand3, found_operand4, found_operand5, found_operand6, found_operand7, found_operand8]
  rw [show (dat1 V c).owesAt () t.succ = (dat1 V c).owesAt () t.castSucc from rfl, inv_after, inv_before]
  rw [show (dat1 V c).leavesExact 0 t = owns (c : Thread nD τ) ((cfg1.win 0).stage (cfg1.slots t 0)) fullShare (blockAt V c 0 t) from by
    rw [← after_operand0]]
  rw [show (dat1 V c).leavesExact 1 t = owns (c : Thread nD τ) ((cfg1.win 1).stage (cfg1.slots t 1)) fullShare (blockAt V c 1 t) from by
    rw [← after_operand1]]
  rw [show (dat1 V c).leavesExact 2 t = owns (c : Thread nD τ) ((cfg1.win 2).stage (cfg1.slots t 2)) fullShare (blockAt V c 2 t) from by
    rw [← after_operand2]]
  rw [show (dat1 V c).leavesExact 3 t = owns (c : Thread nD τ) ((cfg1.win 3).stage (cfg1.slots t 3)) fullShare (blockAt V c 3 t) from by
    rw [← after_operand3]]
  rw [show (dat1 V c).leavesExact 4 t = owns (c : Thread nD τ) ((cfg1.win 4).stage (cfg1.slots t 4)) fullShare (blockAt V c 4 t) from by
    rw [← after_operand4]]
  rw [show (dat1 V c).leavesExact 5 t = owns (c : Thread nD τ) ((cfg1.win 5).stage (cfg1.slots t 5)) fullShare (blockAt V c 5 t) from by
    rw [← after_operand5]]
  rw [show (dat1 V c).leavesExact 6 t = owns (c : Thread nD τ) ((cfg1.win 6).stage (cfg1.slots t 6)) fullShare (blockAt V c 6 t) from by
    rw [← after_operand6]]
  rw [show (dat1 V c).leavesExact 7 t = owns (c : Thread nD τ) ((cfg1.win 7).stage (cfg1.slots t 7)) fullShare (blockAt V c 7 t) from by
    rw [← after_operand7]]
  rw [show (dat1 V c).leavesExact 8 t = owns (c : Thread nD τ) ((cfg1.win 8).stage (cfg1.slots t 8)) fullShare (blockAt V c 8 t) from by
    rw [← after_operand8]]
  have hN := point_lt t
  by_cases hz : t.val = 0
  · -- the first point
    have h0 : atFirst (grid1.coords t) := (atFirst_iff t).mpr hz
    have h1 : ¬atLast (grid1.coords t) := fun h => by have := (atLast_iff t).mp h; omega
    rw [Dat.leavesExact_idle (dat1 V c) 9 t (idle_out9 t h1) (unflushed_out9 t (by omega)),
      Dat.leavesExact_idle (dat1 V c) 10 t (idle_out10 t h1) (unflushed_out10 t (by omega))]
    rw [carried_zero V c _ _ hz, handed_eq, sumsAt_first V c t hz]
    dsimp only [stepSums]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
      ((dat1 V c).before 9 t d9) ((dat1 V c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hrest Hg]
    · isplitl [HS0 HS1 Hrest]
      · isplitl [HS0 HS1]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases hl : t.val = 63
    · -- the last point
      have h0 : ¬atFirst (grid1.coords t) := fun h => hz ((atFirst_iff t).mp h)
      have h1 : atLast (grid1.coords t) := (atLast_iff t).mpr hl
      rw [show (dat1 V c).leavesExact 9 t = owns (c : Thread nD τ) ((cfg1.win 9).stage (cfg1.slots t 9)) fullShare ((dat1 V c).after 9 t) from by
        unfold Dat.leavesExact; rw [live_out9 t h1], after_mean]
      rw [show (dat1 V c).leavesExact 10 t = owns (c : Thread nD τ) ((cfg1.win 10).stage (cfg1.slots t 10)) fullShare ((dat1 V c).after 10 t) from by
        unfold Dat.leavesExact; rw [live_out10 t h1], after_var]
      rw [carried_pos V c _ _ hz, sumsAt_later V c t hz]
      dsimp only [stepSums]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_last c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
        _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a point in between
      have h0 : ¬atFirst (grid1.coords t) := fun h => hz ((atFirst_iff t).mp h)
      have h1 : ¬atLast (grid1.coords t) := fun h => hl ((atLast_iff t).mp h)
      rw [Dat.leavesExact_idle (dat1 V c) 9 t (idle_out9 t h1) (unflushed_out9 t hl),
        Dat.leavesExact_idle (dat1 V c) 10 t (idle_out10 t h1) (unflushed_out10 t hl)]
      rw [carried_pos V c _ _ hz, sumsAt_later V c t hz]
      dsimp only [stepSums]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_between c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
        ((dat1 V c).before 9 t d9) ((dat1 V c).before 10 t d10) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

end Stats2

/-- The library's body obligation for this region, at every point. -/
theorem body_obligation1 (c : Dev nD) :
    BodyObligation (dat1 (F := F) V c) (defs₀ (F := F)) Variants.none () Set.univ := fun t => by
  rw [bigSep_W1, bigSep_W1]
  exact at_point V c t

/-- What the launch hands the region is the invariant before the first point. -/
theorem hin1 (c : Dev nD) : Pipeline.ΦA spec1 c ⊢ (dat1 V c).Φ 0 := by
  have e : (dat1 V c).Φ 0 = Pipeline.ΦA spec1 c := rfl
  rw [e]

/-- After the last point the invariant gives back what the launch handed over: the sums in the scratch rows are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = carried V c (Fin.last cfg1.N).val (Nat.le_of_lt_succ (Fin.last cfg1.N).isLt) from rfl,
    carried_pos V c _ _ hne, handed_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.Kernel.Hand

end
-- ==== Proof.BitsFinalRegion.lean ====
import proofs.«159717_j8890582303003_2_alg».proof.Proof.Gen.Kernel.Launch
import proofs.«159717_j8890582303003_2_alg».proof.Proof.Gen.Kernel.Skeleton
import proofs.«159717_j8890582303003_2_alg».proof.Proof.Gen.Kernel.Points
import Idealize.ShloMosaic.Lib.Pipeline.FrameBody
import Idealize.ShloMosaic.Lib.Pipeline.Value
import Idealize.ShloMosaic.Lib.Tactic

/-!
# The closing call of the residual block, one grid point at a time

The third kernel call walks 64 grid points. At point `t` its body sees thirteen staged operands:
rows `4096·t … 4096·t + 4095` of the activation matrix `x`, and twelve small operands that do not move
with `t` — two transposed weight matrices `W₁`, `W₂`, and ten single rows (biases `b`, column means `μ`,
column variances `v`, scales `γ`, shifts `β`, one set per layer). It overwrites the whole staged output
tile with

  `relu(((relu(((x·W₁ + b₁ − μ₁)·rsqrt(v₁ + ε))·γ₁ + β₁)·W₂ + b₂ − μ₂)·rsqrt(v₂ + ε))·γ₂ + β₂) + x`,

and carries nothing over to the next point. So the call is described by ONE pure function of thirteen tiles,
`Final.finalBlock`. This file proves that the body computes it (`Final.final_kernel_spec`), that every operand's tile is in
place at every point whether or not a transfer just brought it (`Final.present_0` … `Final.present_12`), and packages both as the
per-point data `dat2` and obligation `body_obligation2` which the pipeline rule consumes. Everything is
generic in the float instance and in the buffer contents `V` found when the call starts.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Final

/-! ## Tiles -/

/-- The tile of operand `w` at grid point `t`: the part of the operand's array, with the contents the call
    found, that the operand's index map selects at `t`. -/
def tile (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The body as a pure function -/

/-- What the body writes, from the thirteen tiles it reads. The inner term is the second layer's product
    `relu(norm₁(x·W₁ + b₁))·W₂`; the outer one adds `b₂`, normalises with the second set of moments, clamps
    at zero and adds `x` back. (The two terms take variance before mean: that is the order in which the body
    loads them.) -/
def finalBlock (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) : Vec F S4096x128 .f32 :=
  k2_pay1 x (k2_pay2 x W₁ b₁ v₁ μ₁ γ₁ β₁ W₂) b₂ v₂ μ₂ γ₂ β₂

/-- A two-axis offset of zeros, in the two spellings that occur. -/
theorem zero_offsets : (![0, 0] : Fin 2 → Nat) = fun _ => 0 := funext fun a => by fin_cases a <;> rfl

/-- A store over a whole 4096 × 128 buffer leaves no cell of it unwritten. -/
theorem whole_store_covers (p0 : Vec F S4096x128 .f32) (y : S4096x128.Idx) :
    ∃ pc ∈ ([⟨Rect.unit (s := S4096x128) ![0, 0] S4096x128.size inb_S4096x128_S4096x128_0_0, p0⟩] :
      List (View.Piece (Elt F) S4096x128 .f32)), y ∈ pc.1.set :=
  ⟨_, List.mem_singleton_self _, View.mem_set_unit_zero zero_offsets inb_S4096x128_S4096x128_0_0 y⟩

/-! ## The body's triple -/

/-- The thirteen operands' staging buffers, each held whole at given contents. -/
def operandsHeld (c : Dev nD) (a0 : Memref sig .tc .vmem S4096x128 .f32) (a1 : Memref sig .tc .vmem S128x128 .f32) (a2 : Memref sig .tc .vmem S1x128 .f32) (a3 : Memref sig .tc .vmem S1x128 .f32) (a4 : Memref sig .tc .vmem S1x128 .f32) (a5 : Memref sig .tc .vmem S1x128 .f32) (a6 : Memref sig .tc .vmem S1x128 .f32) (a7 : Memref sig .tc .vmem S128x128 .f32) (a8 : Memref sig .tc .vmem S1x128 .f32) (a9 : Memref sig .tc .vmem S1x128 .f32) (a10 : Memref sig .tc .vmem S1x128 .f32) (a11 : Memref sig .tc .vmem S1x128 .f32) (a12 : Memref sig .tc .vmem S1x128 .f32) (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) : sProp 𝕄 :=
  iprop(owns (c : Thread nD τ) a0 fullShare x ∗ owns (c : Thread nD τ) a1 fullShare W₁ ∗ owns (c : Thread nD τ) a2 fullShare b₁ ∗ owns (c : Thread nD τ) a3 fullShare μ₁ ∗ owns (c : Thread nD τ) a4 fullShare v₁ ∗ owns (c : Thread nD τ) a5 fullShare γ₁ ∗ owns (c : Thread nD τ) a6 fullShare β₁ ∗ owns (c : Thread nD τ) a7 fullShare W₂ ∗ owns (c : Thread nD τ) a8 fullShare b₂ ∗ owns (c : Thread nD τ) a9 fullShare μ₂ ∗ owns (c : Thread nD τ) a10 fullShare v₂ ∗ owns (c : Thread nD τ) a11 fullShare γ₂ ∗ owns (c : Thread nD τ) a12 fullShare β₂)

/-- A buffer held at contents `f` is held at contents that read as `f` reads. -/
local macro "hand_back " h:ident f:ident : tactic =>
  `(tactic| (iexists $f:ident; isplitr; (· ipureintro; rfl); iexact $h:ident))

set_option maxHeartbeats 4000000 in
/-- Started with the operands' buffers at `x, W₁, …, β₂` and the output buffer at anything, the body ends with the
    operands' buffers as they were and the output buffer at `finalBlock` of them. Each load reads a whole buffer,
    so it reads the contents themselves; the one store overwrites the whole output buffer, so afterwards the buffer
    reads as the stored value, whatever it held. -/
theorem final_kernel_spec (c : Dev nD) (E : Set ℕ) (i : grid2.Coords) (a0 : Memref sig .tc .vmem S4096x128 .f32) (h0 : a0.IsWhole) (a1 : Memref sig .tc .vmem S128x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S1x128 .f32) (h12 : a12.IsWhole) (a13 : Memref sig .tc .vmem S4096x128 .f32) (h13 : a13.IsWhole)
    (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) (K : PUnit → sProp 𝕄) :
    iprop(operandsHeld c a0 a1 a2 a3 a4 a5 a6 a7 a8 a9 a10 a11 a12 x W₁ b₁ μ₁ v₁ γ₁ β₁ W₂ b₂ μ₂ v₂ γ₂ β₂ ∗ (∃ d, owns (c : Thread nD τ) a13 fullShare d)
        ∗ (iprop(operandsHeld c a0 a1 a2 a3 a4 a5 a6 a7 a8 a9 a10 a11 a12 x W₁ b₁ μ₁ v₁ γ₁ β₁ W₂ b₂ μ₂ v₂ γ₂ β₂ ∗ owns (c : Thread nD τ) a13 fullShare (finalBlock x W₁ b₁ μ₁ v₁ γ₁ β₁ W₂ b₂ μ₂ v₂ γ₂ β₂)) -∗ K ⟨⟩))
      ⊢ wp frame (wpE (defs₀ (F := F)) Variants.none c none) E (cc2__final_kernel i a0 h0 a1 h1 a2 h2 a3 h3 a4 h4 a5 h5 a6 h6 a7 h7 a8 h8 a9 h9 a10 h10 a11 h11 a12 h12 a13 h13) K := by
  simp only [cc2__final_kernel_eq_skeleton]; unfold cc2__final_kernel_skel
  simp only [k2_part1_eq_skeleton]; unfold k2_part1_skel
  unfold operandsHeld owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d, %g, -, Hout⟩, Hk⟩
  subst_vars
  sl_exec
  sl_step
  iapply Hk
  isplitr [Hout]
  · -- the operands come back as they were
    isplitl [H0]
    · hand_back H0 f0
    isplitl [H1]
    · hand_back H1 f1
    isplitl [H2]
    · hand_back H2 f2
    isplitl [H3]
    · hand_back H3 f3
    isplitl [H4]
    · hand_back H4 f4
    isplitl [H5]
    · hand_back H5 f5
    isplitl [H6]
    · hand_back H6 f6
    isplitl [H7]
    · hand_back H7 f7
    isplitl [H8]
    · hand_back H8 f8
    isplitl [H9]
    · hand_back H9 f9
    isplitl [H10]
    · hand_back H10 f10
    isplitl [H11]
    · hand_back H11 f11
    hand_back H12 f12
  -- the output buffer reads as the stored value
  iexists _; isplitr; swap; · iexact Hout
  ipureintro
  refine (View.read_writes_eq_canon _ _ _ (whole_store_covers _)).trans ?_
  rw [View.canon_unit_zero zero_offsets]
  dsimp only
  simp only [View.readAt_eq_ld, View.ld_unit_zero (S := S4096x128) zero_offsets,
    View.ld_unit_zero (S := S128x128) zero_offsets, View.ld_unit_zero (S := S1x128) zero_offsets]
  rfl

end Final

open Final

/-! ## The per-point data -/

/-- The data of the pipeline rule on core `c`: the arrays as found; after the body at point `t` every operand's buffer
    still at its tile and the output buffer at `finalBlock` of the tiles; the invariant that nothing else is touched;
    full shares; no debts to other cores. -/
def dat2 (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => tile V c 8 t
    | ⟨9, _⟩ => tile V c 9 t
    | ⟨10, _⟩ => tile V c 10 t
    | ⟨11, _⟩ => tile V c 11 t
    | ⟨12, _⟩ => tile V c 12 t
    | ⟨13, _⟩ => finalBlock (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t)
  Φ _ := Pipeline.ΦA spec2 c
  q _ := fullShare
  owed _ := 0

theorem A_eq2 (c : Dev nD) (w : Fin cfg2.W) : (dat2 V c).A w = V c (Pipeline.arrRef spec2 w) := by
  dsimp only [dat2]

namespace Final

/-- The body leaves every operand's buffer at its tile (the data's definition, projected window by window: the tile's
    type depends on the window, so there is one statement per window). -/
theorem kept_0 (c : Dev nD) (t : Fin cfg2.N) : (dat2 V c).after 0 t = tile V c 0 t := by dsimp only [dat2]
theorem kept_1 (c : Dev nD) (t : Fin cfg2.N) : (dat2 V c).after 1 t = tile V c 1 t := by dsimp only [dat2]
theorem kept_2 (c : Dev nD) (t : Fin cfg2.N) : (dat2 V c).after 2 t = tile V c 2 t := by dsimp only [dat2]
theorem kept_3 (c : Dev nD) (t : Fin cfg2.N) : (dat2 V c).after 3 t = tile V c 3 t := by dsimp only [dat2]
theorem kept_4 (c : Dev nD) (t : Fin cfg2.N) : (dat2 V c).after 4 t = tile V c 4 t := by dsimp only [dat2]
theorem kept_5 (c : Dev nD) (t : Fin cfg2.N) : (dat2 V c).after 5 t = tile V c 5 t := by dsimp only [dat2]
theorem kept_6 (c : Dev nD) (t : Fin cfg2.N) : (dat2 V c).after 6 t = tile V c 6 t := by dsimp only [dat2]
theorem kept_7 (c : Dev nD) (t : Fin cfg2.N) : (dat2 V c).after 7 t = tile V c 7 t := by dsimp only [dat2]
theorem kept_8 (c : Dev nD) (t : Fin cfg2.N) : (dat2 V c).after 8 t = tile V c 8 t := by dsimp only [dat2]
theorem kept_9 (c : Dev nD) (t : Fin cfg2.N) : (dat2 V c).after 9 t = tile V c 9 t := by dsimp only [dat2]
theorem kept_10 (c : Dev nD) (t : Fin cfg2.N) : (dat2 V c).after 10 t = tile V c 10 t := by dsimp only [dat2]
theorem kept_11 (c : Dev nD) (t : Fin cfg2.N) : (dat2 V c).after 11 t = tile V c 11 t := by dsimp only [dat2]
theorem kept_12 (c : Dev nD) (t : Fin cfg2.N) : (dat2 V c).after 12 t = tile V c 12 t := by dsimp only [dat2]

/-- The body leaves the output buffer at `finalBlock` of the tiles. -/
theorem output_left (c : Dev nD) (t : Fin cfg2.N) :
    (dat2 V c).after 13 t = finalBlock (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t) := by
  dsimp only [dat2]

set_option hygiene false in
/-- An operand's tile is in its staging buffer at EVERY point. Where a transfer has just landed this is what the
    transfer brought. Where none has — operands 1 to 12 are brought once, at the first point — the index map has
    not moved since the previous point, the body left the buffer alone there (`hk`), and the previous point's tile is
    this point's. The windows are not cut, so a tile fills its buffer. -/
local macro "tile_in_place " hk:ident : tactic => `(tactic|
  exact ((dat2 V c).before_in_eq_fetched _ rfl (fun _ => rfl) (fun _ _ _ => rfl)
      (fun s => by rw [$hk:ident]; unfold Dat.blockOf tile; rw [A_eq2]) t d).trans
    (by unfold Dat.fetched Dat.blockOf tile; rw [A_eq2]; try rfl))

theorem present_0 (c : Dev nD) (t : Fin cfg2.N) (d) : (dat2 V c).before 0 t d = tile V c 0 t := by tile_in_place kept_0
theorem present_1 (c : Dev nD) (t : Fin cfg2.N) (d) : (dat2 V c).before 1 t d = tile V c 1 t := by tile_in_place kept_1
theorem present_2 (c : Dev nD) (t : Fin cfg2.N) (d) : (dat2 V c).before 2 t d = tile V c 2 t := by tile_in_place kept_2
theorem present_3 (c : Dev nD) (t : Fin cfg2.N) (d) : (dat2 V c).before 3 t d = tile V c 3 t := by tile_in_place kept_3
theorem present_4 (c : Dev nD) (t : Fin cfg2.N) (d) : (dat2 V c).before 4 t d = tile V c 4 t := by tile_in_place kept_4
theorem present_5 (c : Dev nD) (t : Fin cfg2.N) (d) : (dat2 V c).before 5 t d = tile V c 5 t := by tile_in_place kept_5
theorem present_6 (c : Dev nD) (t : Fin cfg2.N) (d) : (dat2 V c).before 6 t d = tile V c 6 t := by tile_in_place kept_6
theorem present_7 (c : Dev nD) (t : Fin cfg2.N) (d) : (dat2 V c).before 7 t d = tile V c 7 t := by tile_in_place kept_7
theorem present_8 (c : Dev nD) (t : Fin cfg2.N) (d) : (dat2 V c).before 8 t d = tile V c 8 t := by tile_in_place kept_8
theorem present_9 (c : Dev nD) (t : Fin cfg2.N) (d) : (dat2 V c).before 9 t d = tile V c 9 t := by tile_in_place kept_9
theorem present_10 (c : Dev nD) (t : Fin cfg2.N) (d) : (dat2 V c).before 10 t d = tile V c 10 t := by tile_in_place kept_10
theorem present_11 (c : Dev nD) (t : Fin cfg2.N) (d) : (dat2 V c).before 11 t d = tile V c 11 t := by tile_in_place kept_11
theorem present_12 (c : Dev nD) (t : Fin cfg2.N) (d) : (dat2 V c).before 12 t d = tile V c 12 t := by tile_in_place kept_12

/-- The invariant does not change from point to point, -/
theorem inv_eq (c : Dev nD) (n : Fin (cfg2.N + 1)) : (dat2 V c).Φ n = Pipeline.ΦA spec2 c := by dsimp only [dat2]

/-- nor do the debts: there are none. -/
theorem debts_eq (c : Dev nD) (n n' : Fin (cfg2.N + 1)) : (dat2 V c).owesAt () n = (dat2 V c).owesAt () n' := rfl

/-! ## The obligation -/

set_option maxHeartbeats 1000000 in
/-- One point of the pipeline: handed every window's current staging buffer as the pipeline left it, the body hands
    them back as `dat2` says, the invariant and the debts untouched. -/
theorem point_step (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d))
      ∗ (∃ d, owns (c : Thread nD τ) (st2_9 t) fullShare ((dat2 V c).before 9 t d))
      ∗ (∃ d, owns (c : Thread nD τ) (st2_10 t) fullShare ((dat2 V c).before 10 t d))
      ∗ (∃ d, owns (c : Thread nD τ) (st2_11 t) fullShare ((dat2 V c).before 11 t d))
      ∗ (∃ d, owns (c : Thread nD τ) (st2_12 t) fullShare ((dat2 V c).before 12 t d))
      ∗ (∃ d, owns (c : Thread nD τ) (st2_13 t) fullShare ((dat2 V c).before 13 t d)))
    ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t)
        ∗ owns (c : Thread nD τ) (st2_7 t) fullShare ((dat2 V c).after 7 t)
        ∗ owns (c : Thread nD τ) (st2_8 t) fullShare ((dat2 V c).after 8 t)
        ∗ owns (c : Thread nD τ) (st2_9 t) fullShare ((dat2 V c).after 9 t)
        ∗ owns (c : Thread nD τ) (st2_10 t) fullShare ((dat2 V c).after 10 t)
        ∗ owns (c : Thread nD τ) (st2_11 t) fullShare ((dat2 V c).after 11 t)
        ∗ owns (c : Thread nD τ) (st2_12 t) fullShare ((dat2 V c).after 12 t)
        ∗ owns (c : Thread nD τ) (st2_13 t) fullShare ((dat2 V c).after 13 t)) := by
  unfold bodyAt2
  rw [debts_eq V c t.succ t.castSucc]
  simp only [inv_eq, present_0, present_1, present_2, present_3, present_4, present_5, present_6, present_7, present_8, present_9, present_10, present_11, present_12, kept_0, kept_1, kept_2, kept_3, kept_4, kept_5, kept_6, kept_7, kept_8, kept_9, kept_10, kept_11, kept_12, output_left]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (final_kernel_spec c Set.univ (grid2.coords t) _ _ _ _ _ _ _ _ _ _ _ _ _ _ _ _ _ _ _ _ _ _ _ _ _ _ _ _ (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t) _)
  unfold operandsHeld
  isplitl [H0 H1 H2 H3 H4 H5 H6 H7 H8 H9 H10 H11 H12]
  · iframe
  isplitl [H13]; · iexists _; iexact H13
  iintro ⟨⟨H0, H1, H2, H3, H4, H5, H6, H7, H8, H9, H10, H11, H12⟩, H13⟩
  isplitl [HΦ]; · iexact HΦ
  isplitl [Ho]; · iexact Ho
  iframe

end Final

theorem body_obligation2 (c : Dev nD) :
    BodyObligation (dat2 (F := F) V c) (defs₀ (F := F)) Variants.none () Set.univ := fun t => by
  rw [bigSep_W2, bigSep_W2]
  exact point_step V c t

/-- Before the first point the invariant is the plain one, -/
theorem hin2 (c : Dev nD) : (Pipeline.ΦA spec2 c : sProp 𝕄) ⊢ (dat2 V c).Φ 0 := .rfl

/-- and so it is after the last. -/
theorem hout2 (c : Dev nD) : (dat2 V c).Φ (Fin.last cfg2.N) ⊢ (Pipeline.ΦA spec2 c : sProp 𝕄) := .rfl

end Cert.Kernel.Hand

end
-- ==== Proof.BitsKernelRun.lean ====
/-
  The run of the kernel program: eight host operations (two weight transposes, six vectors laid out as
  one-row matrices), then three passes over the 64 row tiles — the first layer's column moments, the
  second layer's column moments, the block itself.

  Between two items of the program a core's unscoped buffers hold named contents `B0 … B4`: the launch
  memory, then the host operations applied, then after each pass that pass's arrays at what it leaves
  (an input array as entered, an output array its write-backs folded) and every other buffer untouched.
  One definition turns the facts of any pass — its arrays at the contents before it, its body obligation,
  how its invariant is entered and left, what its arrays hold afterwards — into the pass's segment of the run;
  it is used three times.  The run then ends with every unscoped buffer, the arguments and the result among
  them, read off `B4`.
-/
import proofs.«159717_j8890582303003_2_alg».proof.Proof.BitsStats1Region
import proofs.«159717_j8890582303003_2_alg».proof.Proof.BitsStats2Region
import proofs.«159717_j8890582303003_2_alg».proof.Proof.BitsFinalRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What every segment shares -/

/-- No pass has a prefetched table. -/
abbrev adm : (p : Fin 3) → (pcfgs (F := F) p).Adm := fun p => (cfgs p).toPCfg_adm
abbrev noVariants : Variants := Variants.none
/-- No core owes another anything, so no level is assigned. -/
abbrev noLevels : GSem nD τ sig → Finset Unit := fun _ => ∅
abbrev levelZero : GSem nD τ sig → Unit → ℕ := fun _ _ => 0
/-- What travels beside the buffers: the generator register at some state, and the core owing nothing. -/
abbrev Beside (c : Dev nD) : sProp 𝕄 :=
  iprop((∃ r, prngReg c r) ∗ ∃ W, owes (c : Thread nD τ) (0 : CellTallies nD τ sig Unit) W)
/-- Every unscoped buffer of core `c` at the contents `B`. -/
abbrev Held (B : Valuation τ sig (Elt F)) (c : Dev nD) : sProp 𝕄 :=
  StableHlo.held (c : Thread nD τ) (Pipeline.ucRefs τ sig) B

/-- The generator register regrouped with the buffers, the dues last. -/
theorem regroup (B : Valuation τ sig (Elt F)) (c : Dev nD) :
    iprop(Held B c ∗ Beside c) ⊢ (iprop((Held B c ∗ ∃ r, prngReg c r) ∗ ∃ W, owes (c : Thread nD τ) (0 : CellTallies nD τ sig Unit) W) : sProp 𝕄) := by
  iintro ⟨Hbufs, Hreg, Hdues⟩
  isplitl [Hbufs Hreg]
  · isplitl [Hbufs]; · iexact Hbufs
    iexact Hreg
  iexact Hdues

/-! ## One pass as a segment -/

section Pass

variable (pd : (p : Fin 3) → (c : Dev nD) → Dat τ (Elt F) Unit ℕ (UR sig nD τ) ℕ (Pipeline.pin (pcfgs (F := F)) adm p) c)
  (p : Fin 3) (lf : Pipeline.LaunchFacts (nD := nD) (τ := τ) cfgs p)
  (Bin Bout : Dev nD → Valuation τ sig (Elt F))

set_option backward.isDefEq.respectTransparency.types false in
/-- A pass entered with the unscoped buffers at `Bin` and left with them at `Bout`.  On entry the pass's arrays
    are taken out of the unscoped buffers (they hold `Bin`, which is what the proof data start from), the
    generator register and the scoped buffers make the invariant's first state; on exit the invariant's last
    state gives both back and the arrays, now at what the pass leaves, rejoin the untouched buffers as `Bout`. -/
def passSeg
    (harr : ∀ c w, (pd p c).A w = Bin c (Proc.devRef .tc (Pipeline.arrRef (cfgs p).spec w)))
    (hshare : ∀ c w, (pd p c).q w = fullShare)
    (howed : ∀ c t, (pd p c).owed t = 0)
    (hrec : ∀ c t, (pd p c).recorded t = Set.univ)
    (hbody : ∀ c, Pipeline.BodyObligationLoose (pd p c) (defs₀ (F := F)) noVariants () Set.univ)
    (henter : ∀ c, (Pipeline.ΦA (cfgs p).spec c : sProp 𝕄) ⊢ (pd p c).Φ 0)
    (hleave : ∀ c, (pd p c).Φ (Fin.last (cfgs p).N) ⊢ (Pipeline.ΦA (cfgs p).spec c : sProp 𝕄))
    (hwrote : ∀ c w, (pd p c).arrAt w (cfgs p).N = Bout c (Proc.devRef .tc (Pipeline.arrRef (cfgs p).spec w)))
    (hkept : ∀ c (b : Ref sig .tc), b ∉ Finset.univ.image (Pipeline.arrRef (cfgs p).spec) →
      Bout c (Proc.devRef .tc b) = Bin c (Proc.devRef .tc b)) :
    Pipeline.RegionSeg (pcfgs (F := F)) adm pd () defs₀ noVariants noLevels levelZero p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ noLevels levelZero p howed
  pre c := iprop(Held (Bin c) c ∗ Beside c)
  post c := iprop(Held (Bout c) c ∗ Beside c)
  X c := iprop(∃ r, prngReg c r)
  Y c := iprop(∃ r, prngReg c r)
  Z c := Pipeline.unscopedRest (Ix := Unit) (Name := ℕ) (U := UR sig nD τ) (Lvl := ℕ) (cfgs p).spec c (fun b => Bin c b)
  hentry c := by
    rw [Pipeline.ownSems0_none]
    have take := Pipeline.arrays_of_unscopedBufs (p := p) (pcfgs (F := F)) adm pd lf.win lf.arr_whole c
      ((pd p c).share_full (hshare c)) (fun b => Bin c b) (harr c)
    rw [Pipeline.unscopedBufs_held] at take
    iintro ⟨⟨Hbufs, Hreg, Hdues⟩, -, -⟩
    ihave Hsplit := take $$ Hbufs
    icases Hsplit with ⟨Harrs, Hrest⟩
    imodintro
    isplitl [Harrs]; · iexact Harrs
    isplitr; · unfold Pipeline.prefHeld; rw [show (Finset.univ : Finset (Fin 0)) = ∅ from rfl, BI.bigSep_empty]; iempintro
    isplitl [Hdues]
    · unfold Pipeline.Dat.owesAt Pipeline.owesWithin Pipeline.Dat.bound
      rw [howed c 0, hrec c 0]
      icases Hdues with ⟨%W, Hdues⟩; iexists W; isplitr; · ipureintro; exact fun _ _ => Or.inl trivial
      iexact Hdues
    isplitl [Hreg]; · iexact Hreg
    iexact Hrest
  hin c := by
    have enter := henter c
    unfold Pipeline.ΦA at enter
    iintro ⟨Hreg, -, Hscoped⟩
    iapply enter
    isplitl [Hscoped]; · iexact Hscoped
    iexact Hreg
  hout c := by
    rw [Pipeline.ownSems0_none]
    have leave := hleave c
    unfold Pipeline.ΦA at leave
    iintro HΦ
    ihave Hback := leave $$ HΦ
    icases Hback with ⟨Hscoped, Hreg⟩
    isplitl [Hreg]; · iexact Hreg
    isplitr; · iempintro
    iexact Hscoped
  hexit c := by
    have join := Pipeline.unscopedBufs_of_arrays (p := p) (pcfgs (F := F)) adm (Ix := Unit) (Name := ℕ) (U := UR sig nD τ) (Lvl := ℕ)
      lf.win lf.arr_whole c pd ((pd p c).share_full (hshare c))
      (fun b => Bin c b) (fun b => Bout c b) ((pd p c).arrAt · (cfgs p).N) (hwrote c) (hkept c)
    rw [Pipeline.unscopedBufs_held] at join
    iintro ⟨Harrs, Hdues, Hreg, Hrest⟩
    imodintro
    isplitl [Harrs Hrest]
    · iapply join; isplitl [Harrs] <;> iassumption
    isplitl [Hreg]; · iexact Hreg
    unfold Pipeline.Dat.owesAt Pipeline.owesWithin
    rw [howed c (Fin.last (cfgs p).N)]
    icases Hdues with ⟨%W, -, Hdues⟩; iexists W; iexact Hdues

end Pass

variable (m : (ℓ : Loc nD τ sig) → Buf (Elt F) ℓ) (ρ : Dev nD → PrngReg)

/-! ## The buffer contents between the items -/

/-- At launch. -/
abbrev B0 : Dev nD → Valuation τ sig (Elt F) := fun c b => (s₀ m ρ).mem ((c : Dev nD), b)
/-- After the host operations. -/
abbrev B1 : Dev nD → Valuation τ sig (Elt F) := fun c => StableHlo.after hostOps0 (B0 m ρ c)
abbrev V1 : (c : Dev nD) → (b : Ref sig .tc) → Buf (Elt F) ((c : Thread nD τ).loc b) := fun c b => B1 m ρ c b

/-- After pass 1. -/
def B2 (c : Dev nD) : Valuation τ sig (Elt F) :=
  Pipeline.withArrays spec0 c (B1 m ρ c) fun w => (dat0 (V1 m ρ) c).arrAt w cfg0.N
abbrev V2 : (c : Dev nD) → (b : Ref sig .tc) → Buf (Elt F) ((c : Thread nD τ).loc b) := fun c b => B2 m ρ c b
theorem B2_arr (c : Dev nD) (w : Fin cfg0.W) :
    B2 m ρ c (Proc.devRef .tc (Pipeline.arrRef spec0 w)) = (dat0 (V1 m ρ) c).arrAt w cfg0.N :=
  Pipeline.withArrays_arr spec0 launch0.win.arr_inj c _ _ w
theorem B2_off (c : Dev nD) (b : Ref sig .tc) (hb : ∀ w, Pipeline.arrRef spec0 w ≠ b) :
    B2 m ρ c (Proc.devRef .tc b) = B1 m ρ c (Proc.devRef .tc b) :=
  Pipeline.withArrays_of_ne spec0 c _ _ b hb

/-- After pass 2. -/
def B3 (c : Dev nD) : Valuation τ sig (Elt F) :=
  Pipeline.withArrays spec1 c (B2 m ρ c) fun w => (dat1 (V2 m ρ) c).arrAt w cfg1.N
abbrev V3 : (c : Dev nD) → (b : Ref sig .tc) → Buf (Elt F) ((c : Thread nD τ).loc b) := fun c b => B3 m ρ c b
theorem B3_arr (c : Dev nD) (w : Fin cfg1.W) :
    B3 m ρ c (Proc.devRef .tc (Pipeline.arrRef spec1 w)) = (dat1 (V2 m ρ) c).arrAt w cfg1.N :=
  Pipeline.withArrays_arr spec1 launch1.win.arr_inj c _ _ w
theorem B3_off (c : Dev nD) (b : Ref sig .tc) (hb : ∀ w, Pipeline.arrRef spec1 w ≠ b) :
    B3 m ρ c (Proc.devRef .tc b) = B2 m ρ c (Proc.devRef .tc b) :=
  Pipeline.withArrays_of_ne spec1 c _ _ b hb

/-- After pass 3. -/
def B4 (c : Dev nD) : Valuation τ sig (Elt F) :=
  Pipeline.withArrays spec2 c (B3 m ρ c) fun w => (dat2 (V3 m ρ) c).arrAt w cfg2.N
abbrev V4 : (c : Dev nD) → (b : Ref sig .tc) → Buf (Elt F) ((c : Thread nD τ).loc b) := fun c b => B4 m ρ c b
theorem B4_arr (c : Dev nD) (w : Fin cfg2.W) :
    B4 m ρ c (Proc.devRef .tc (Pipeline.arrRef spec2 w)) = (dat2 (V3 m ρ) c).arrAt w cfg2.N :=
  Pipeline.withArrays_arr spec2 launch2.win.arr_inj c _ _ w
theorem B4_off (c : Dev nD) (b : Ref sig .tc) (hb : ∀ w, Pipeline.arrRef spec2 w ≠ b) :
    B4 m ρ c (Proc.devRef .tc b) = B3 m ρ c (Proc.devRef .tc b) :=
  Pipeline.withArrays_of_ne spec2 c _ _ b hb

/-! ## What no item changes -/

/-- A buffer none of the eight host operations writes holds its launch contents after them. -/
theorem host_keeps (c : Dev nD) (b : Ref sig .tc)
    (hb : b ∉ ([main_v0, main_v1, main_v2, main_v3, main_v4, main_v5, main_v6, main_v7] : List (Ref sig .tc))) :
    B1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.unary_writes, StableHlo.reshape_writes, Finset.mem_singleton]
  simp only [List.mem_cons, List.not_mem_nil, or_false, not_or] at hb
  obtain ⟨h0, h1, h2, h3, h4, h5, h6, h7⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7⟩

/-- A buffer that is no window's array of any pass holds after the three passes what it held before them. -/
theorem passes_keep (c : Dev nD) (b : Ref sig .tc) (h0 : ∀ w, Pipeline.arrRef spec0 w ≠ b) (h1 : ∀ w, Pipeline.arrRef spec1 w ≠ b)
    (h2 : ∀ w, Pipeline.arrRef spec2 w ≠ b) : B4 m ρ c (Proc.devRef .tc b) = B1 m ρ c (Proc.devRef .tc b) :=
  (B4_off m ρ c b h2).trans ((B3_off m ρ c b h1).trans (B2_off m ρ c b h0))

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat2 (V3 m ρ) c).arrAt_in 0 rfl _).trans (A_eq2 (V3 m ρ) c 0))
    _ = B2 m ρ c (Proc.devRef .tc main_arg0) := (B3_arr m ρ c 0).trans (((dat1 (V2 m ρ) c).arrAt_in 0 rfl _).trans (A_eq1 (V2 m ρ) c 0))
    _ = B1 m ρ c (Proc.devRef .tc main_arg0) := (B2_arr m ρ c 0).trans (((dat0 (V1 m ρ) c).arrAt_in 0 rfl _).trans (A_eq0 (V1 m ρ) c 0))
    _ = m ((c : Thread nD τ).loc main_arg0) := host_keeps m ρ c main_arg0 (by decide)

theorem B4_main_arg1 (c : Dev nD) : B4 m ρ c (Proc.devRef .tc main_arg1) = m ((c : Thread nD τ).loc main_arg1) :=
  (passes_keep m ρ c main_arg1 (by decide) (by decide) (by decide)).trans (host_keeps m ρ c main_arg1 (by decide))

theorem B4_main_arg2 (c : Dev nD) : B4 m ρ c (Proc.devRef .tc main_arg2) = m ((c : Thread nD τ).loc main_arg2) :=
  (passes_keep m ρ c main_arg2 (by decide) (by decide) (by decide)).trans (host_keeps m ρ c main_arg2 (by decide))

theorem B4_main_arg3 (c : Dev nD) : B4 m ρ c (Proc.devRef .tc main_arg3) = m ((c : Thread nD τ).loc main_arg3) :=
  (passes_keep m ρ c main_arg3 (by decide) (by decide) (by decide)).trans (host_keeps m ρ c main_arg3 (by decide))

theorem B4_main_arg4 (c : Dev nD) : B4 m ρ c (Proc.devRef .tc main_arg4) = m ((c : Thread nD τ).loc main_arg4) :=
  (passes_keep m ρ c main_arg4 (by decide) (by decide) (by decide)).trans (host_keeps m ρ c main_arg4 (by decide))

theorem B4_main_arg5 (c : Dev nD) : B4 m ρ c (Proc.devRef .tc main_arg5) = m ((c : Thread nD τ).loc main_arg5) :=
  (passes_keep m ρ c main_arg5 (by decide) (by decide) (by decide)).trans (host_keeps m ρ c main_arg5 (by decide))

theorem B4_main_arg6 (c : Dev nD) : B4 m ρ c (Proc.devRef .tc main_arg6) = m ((c : Thread nD τ).loc main_arg6) :=
  (passes_keep m ρ c main_arg6 (by decide) (by decide) (by decide)).trans (host_keeps m ρ c main_arg6 (by decide))

theorem B4_main_arg7 (c : Dev nD) : B4 m ρ c (Proc.devRef .tc main_arg7) = m ((c : Thread nD τ).loc main_arg7) :=
  (passes_keep m ρ c main_arg7 (by decide) (by decide) (by decide)).trans (host_keeps m ρ c main_arg7 (by decide))

theorem B4_main_arg8 (c : Dev nD) : B4 m ρ c (Proc.devRef .tc main_arg8) = m ((c : Thread nD τ).loc main_arg8) :=
  (passes_keep m ρ c main_arg8 (by decide) (by decide) (by decide)).trans (host_keeps m ρ c main_arg8 (by decide))

/-- The result's array at the end is what the third pass's write-backs leave. -/
theorem B4_main_v10 (c : Dev nD) : B4 m ρ c (Proc.devRef .tc main_v10) = (dat2 (V3 m ρ) c).arrAt 13 cfg2.N :=
  B4_arr m ρ c 13

/-! ## The three passes and the host stretch as the program's segments -/

/-- Every pass's proof data, each from the contents it is entered with (a literal match on the pass, so that the
    configuration at a numeral is the printed one). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

/-- Pass 1 as a segment, between the contents before it and after it. -/
def seg0 : Pipeline.RegionSeg (pcfgs (F := F)) adm (pdats m ρ) () defs₀ noVariants noLevels levelZero 0 :=
  passSeg (pdats m ρ) 0 launch0 (B1 m ρ) (B2 m ρ)
    (fun c w => A_eq0 (V1 m ρ) c w) (fun _ _ => rfl) (fun _ _ => rfl) (fun _ _ => rfl)
    (fun c => (body_obligation0 (V1 m ρ) c).loose)
    (fun c => hin0 (V1 m ρ) c) (fun c => hout0 (V1 m ρ) c)
    (fun c w => (B2_arr m ρ c w).symm)
    (fun c b hb => B2_off m ρ c b fun w e => hb (Finset.mem_image.mpr ⟨w, Finset.mem_univ _, e⟩))

/-- Pass 2 as a segment, between the contents before it and after it. -/
def seg1 : Pipeline.RegionSeg (pcfgs (F := F)) adm (pdats m ρ) () defs₀ noVariants noLevels levelZero 1 :=
  passSeg (pdats m ρ) 1 launch1 (B2 m ρ) (B3 m ρ)
    (fun c w => A_eq1 (V2 m ρ) c w) (fun _ _ => rfl) (fun _ _ => rfl) (fun _ _ => rfl)
    (fun c => (body_obligation1 (V2 m ρ) c).loose)
    (fun c => hin1 (V2 m ρ) c) (fun c => hout1 (V2 m ρ) c)
    (fun c w => (B3_arr m ρ c w).symm)
    (fun c b hb => B3_off m ρ c b fun w e => hb (Finset.mem_image.mpr ⟨w, Finset.mem_univ _, e⟩))

/-- Pass 3 as a segment, between the contents before it and after it. -/
def seg2 : Pipeline.RegionSeg (pcfgs (F := F)) adm (pdats m ρ) () defs₀ noVariants noLevels levelZero 2 :=
  passSeg (pdats m ρ) 2 launch2 (B3 m ρ) (B4 m ρ)
    (fun c w => A_eq2 (V3 m ρ) c w) (fun _ _ => rfl) (fun _ _ => rfl) (fun _ _ => rfl)
    (fun c => (body_obligation2 (V3 m ρ) c).loose)
    (fun c => hin2 (V3 m ρ) c) (fun c => hout2 (V3 m ρ) c)
    (fun c w => (B4_arr m ρ c w).symm)
    (fun c b hb => B4_off m ρ c b fun w e => hb (Finset.mem_image.mpr ⟨w, Finset.mem_univ _, e⟩))

/-- No host operation allocates a buffer. -/
theorem hostOps0_noFresh : (hostOps0 : List (HloOp τ sig (Elt F))).Forall fun op => op.fresh = ∅ := by
  simp only [List.Forall]; repeat' constructor

/-- The host stretch as a segment from the launch contents. -/
abbrev hostSeg : Pipeline.HostSeg (Name := ℕ) (U := UR sig nD τ) (pcfgs (F := F)) defs₀ noVariants noLevels levelZero :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_noFresh) op h) (B0 m ρ) Beside

/-- The program's four segments in order. -/
abbrev segs : List (Pipeline.Seg (pcfgs (F := F)) adm (pdats m ρ) () defs₀ noVariants noLevels levelZero) :=
  [.host (hostSeg m ρ), .region (seg0 m ρ), .region (seg1 m ρ), .region (seg2 m ρ)]

/-- The program is the run of its segments. -/
theorem main_is_segs (c : Dev nD) : main (F := F) c = Pipeline.Seg.run (segs m ρ) := (main_chain c).trans (by chain_rfl)

set_option backward.isDefEq.respectTransparency.types false in
/-- THE RUN.  From any memory with zero counters every weakly fair execution of the program on the TensorCores
    terminates, nothing faulting, and in every final state each unscoped buffer holds `B4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVariants noLevels levelZero m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (B0 m ρ c) c ∗ Beside c))
    (Tₙ := fun c => iprop(Held (B4 m ρ c) c ∗ ∃ r, prngReg c r))
    (hch := ⟨fun _ => .rfl, fun _ => .rfl, fun _ => .rfl, fun _ => .rfl, fun c => regroup (B4 m ρ c) c⟩)
    (hinit := by
      refine Pipeline.initEach noLevels levelZero fun c => ?_
      rw [show unscopedBufs c (fun b => m ((c : Thread nD τ).loc b)) = Held (B0 m ρ c) c
        from Pipeline.unscopedBufs_held c (B0 m ρ c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = B4 m ρ c b)
    (hfin := fun c s' => by
      iintro ⟨⟨Hbufs, -⟩, Hstate⟩
      unfold Held StableHlo.held
      imodintro
      iapply (pointsTo_read_all (Pipeline.ucRefs τ sig) (fun b => (((c : Thread nD τ)).1, b)) (B4 m ρ c) s')
      isplitl [Hbufs] <;> iassumption)
    (hQ := fun s h c => h c)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Stats1Region.lean ====
import proofs.«159717_j8890582303003_2_alg».proof.Proof.Gen.KernelIdeal.Launch
import proofs.«159717_j8890582303003_2_alg».proof.Proof.Gen.KernelIdeal.Skeleton
import proofs.«159717_j8890582303003_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
# The first statistics pass as a region of the kernel program

The first pallas_call visits 64 grid points in order.  At each point it multiplies a tile of 4096 rows
of the input by the transposed weight, adds the bias row, and adds the tile's column sums and column
sums of squares to two one-row running totals.  The totals live in scratch memory, which the pipeline
does not touch: they are set to zero at the first point and survive from one point to the next.  At the
last point the mean and the variance are formed from the totals and stored into the two one-row
outputs; only that point's stores are written back.

The file is organised around the totals.  `sums` says, by recursion on the point, what the two scratch
rows hold after each point.  The region invariant pins the scratch rows to `sums` of the point before.
One Hoare triple per kind of point (first, middle, last) says that the body moves the scratch rows one
step along `sums`; the body obligation is those three triples, chosen by the grid coordinate.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Stats1

/-! ## Loads and stores over a whole buffer -/

/-- The offsets `![0, 0]` are the zero offsets. -/
theorem zero2 : (![0, 0] : Fin 2 → ℕ) = fun _ => 0 := by funext a; fin_cases a <;> rfl

/-- Whatever was stored before, once a value has been stored over the whole buffer the buffer reads as that value. -/
theorem read_after_whole_store {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (r : S.Idx → Elt F e)
    (L : List (View.Piece (Elt F) S e)) :
    v.read (Elt F) (v.writes (Elt F) f (⟨Rect.unit off S.size inb, r⟩ :: L)) = r := by
  rw [View.read_writes_eq_canon _ _ _ (fun y => ⟨_, List.mem_cons_self .., View.mem_set_unit_zero h inb y⟩),
    View.canon_cons_unit_zero h inb]

/-- A load of the whole of a whole memref that nothing has stored into reads what the memref holds. -/
theorem load_untouched {S : Shape} {e : EltTy} (m : Memref sig .tc .vmem S e) (hm : m.IsWhole) {off : Fin S.rank → ℕ} (h : off = fun _ => 0)
    (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's two conditions -/

/-- The body resets the totals when this holds of the grid coordinate: it is 0. -/
abbrev resetCond (i : grid0.Coords) : Prop := (Scalar.cmpi .ne (Scalar.extui (Scalar.cmpi .eq (BitVec.ofNat 32 (i 0).val) 0#32)) 0#32) = 1#1
/-- The body forms the outputs when this holds of the grid coordinate: it is 63. -/
abbrev finalCond (i : grid0.Coords) : Prop := k0_cond2 i = 1#1

/-! ## The body on whole memrefs, one triple per kind of point

Each triple is proved by running the body's memory operations symbolically.  What is left afterwards is to read the
final contents of each buffer: a buffer the body never stored into reads what it held; a buffer whose last store
covered it reads that store's value; and each loaded operand inside a stored value is in turn one of these two. -/

set_option maxHeartbeats 1000000 in
/-- The FIRST point (reset, no outputs).  Whatever the scratch rows held, they leave holding the zero rows with the tile
    added; inputs and outputs are handed back as found. -/
theorem first_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : resetCond i) (hf : ¬finalCond i)
    (x : Vec F S4096x128 .f32) (w : Vec F S128x128 .f32) (b : Vec F S1x128 .f32) (y3 y4 : Vec F S1x128 .f32) (E : Set ℕ) (K : PUnit → sProp 𝕄) :
    iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4 ∗ (∃ d, owns (c : Thread nD τ) a6 fullShare d) ∗ (∃ d, owns (c : Thread nD τ) a7 fullShare d)
      ∗ (iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4
          ∗ owns (c : Thread nD τ) a6 fullShare (k0_pay4 x w b k0_pay1) ∗ owns (c : Thread nD τ) a7 fullShare (k0_pay5 x w b k0_pay2)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  obtain rfl := w1.eq_unread h1; obtain rfl := w2.eq_unread h2; obtain rfl := w3.eq_unread h3
  obtain rfl := w4.eq_unread h4; obtain rfl := w5.eq_unread h5
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    · ipureintro; exact h4
    · iexact H4
  isplitl [H5]
  · iexists _; isplitr
    · ipureintro; exact h5
    · iexact H5
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, View.readCov_unit_zero _ zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, View.readCov_unit_zero _ zero2 inb_S1x128_S1x128_0_0]

set_option maxHeartbeats 1000000 in
/-- A MIDDLE point (no reset, no outputs).  The scratch rows enter at totals `s0`, `s1` and leave with the tile
    added; inputs and outputs are handed back as found. -/
theorem middle_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : ¬resetCond i) (hf : ¬finalCond i)
    (x : Vec F S4096x128 .f32) (w : Vec F S128x128 .f32) (b : Vec F S1x128 .f32) (y3 y4 s0 s1 : Vec F S1x128 .f32) (E : Set ℕ) (K : PUnit → sProp 𝕄) :
    iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4 ∗ owns (c : Thread nD τ) a6 fullShare s0 ∗ owns (c : Thread nD τ) a7 fullShare s1
      ∗ (iprop(owns (c : Thread nD τ) a1 fullShare x ∗ owns (c : Thread nD τ) a2 fullShare w ∗ owns (c : Thread nD τ) a3 fullShare b ∗ owns (c : Thread nD τ) a4 fullShare y3 ∗ owns (c : Thread nD τ) a5 fullShare y4
          ∗ owns (c : Thread nD τ) a6 fullShare (k0_pay4 x w b s0) ∗ owns (c : Thread nD τ) a7 fullShare (k0_pay5 x w b s1)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, Hk⟩
  obtain rfl := w1.eq_unread h1; obtain rfl := w2.eq_unread h2; obtain rfl := w3.eq_unread h3
  obtain rfl := w4.eq_unread h4; obtain rfl := w5.eq_unread h5
  obtain rfl := w6.eq_unread h6; obtain rfl := w7.eq_unread h7
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    · ipureintro; exact h4
    · iexact H4
  isplitl [H5]
  · iexists _; isplitr
    · ipureintro; exact h5
    · iexact H5
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a7 w7 zero2 inb_S1x128_S1x128_0_0]

set_option maxHeartbeats 1000000 in
/-- The LAST point (no reset, outputs formed).  The scratch rows move as at a middle point; then the two outputs,
    whatever they held, receive the mean row and the variance row of the NEW totals. -/
theorem last_point (c : Dev nD) (i : grid0.Coords) (a1 : Memref sig .tc .vmem S4096x128 .f32) (w1 : a1.IsWhole) (a2 : Memref sig .tc .vmem S128x128 .f32) (w2 : a2.IsWhole) (a3 : Memref sig .tc .vmem S1x128 .f32) (w3 : a3.IsWhole) (a4 : Memref sig .tc .vmem S1x128 .f32) (w4 : a4.IsWhole) (a5 : Memref sig .tc .vmem S1x128 .f32) (w5 : a5.IsWhole) (a6 : Memref sig .tc .vmem S1x128 .f32) (w6 : a6.IsWhole) (a7 : Memref sig .tc .vmem S1x128 .f32) (w7 : a7.IsWhole) (hr : ¬resetCond i) (hf : finalCond i)
    (x : Vec F S4096x128 .f32) (w : Vec F S128x128 .f32) (b : Vec F S1x128 .f32) (s0 s1 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d) ∗ (∃ d, owns (c : Thread nD τ) a5 fullShare d) ∗ owns (c : Thread nD τ) a6 fullShare s0 ∗ owns (c : Thread nD τ) a7 fullShare s1
      ∗ (iprop(owns (c : Thread nD τ) a1 fullShare x ∗ owns (c : Thread nD τ) a2 fullShare w ∗ owns (c : Thread nD τ) a3 fullShare b
          ∗ owns (c : Thread nD τ) a4 fullShare (k0_pay6 (k0_pay4 x w b s0)) ∗ owns (c : Thread nD τ) a5 fullShare (k0_pay7 (k0_pay4 x w b s0) (k0_pay5 x w b s1))
          ∗ owns (c : Thread nD τ) a6 fullShare (k0_pay4 x w b s0) ∗ owns (c : Thread nD τ) a7 fullShare (k0_pay5 x w b s1)) -∗ K ⟨⟩))
      ⊢ wp frame (wpE (defs₀ (F := F)) Variants.none c none) E (cc0__stats1_kernel i a1 w1 a2 w2 a3 w3 a4 w4 a5 w5 a6 w6 a7 w7) K := by
  simp only [cc0__stats1_kernel_eq_skeleton]; unfold cc0__stats1_kernel_skel
  unfold owns
  iintro ⟨⟨%f1, %h1, H1⟩, ⟨%f2, %h2, H2⟩, ⟨%f3, %h3, H3⟩, ⟨%d4, %f4, -, H4⟩, ⟨%d5, %f5, -, H5⟩, ⟨%f6, %h6, H6⟩, ⟨%f7, %h7, H7⟩, Hk⟩
  obtain rfl := w1.eq_unread h1; obtain rfl := w2.eq_unread h2; obtain rfl := w3.eq_unread h3
  obtain rfl := w6.eq_unread h6; obtain rfl := w7.eq_unread h7
  sl_exec (disch := first | exact hr | exact hf)
  sl_step
  iapply Hk
  isplitl [H1]
  · iexists _; isplitr
    · ipureintro; exact h1
    · iexact H1
  isplitl [H2]
  · iexists _; isplitr
    · ipureintro; exact h2
    · iexact H2
  isplitl [H3]
  · iexists _; isplitr
    · ipureintro; exact h3
    · iexact H3
  isplitl [H4]
  · iexists _; isplitr
    swap
    · iexact H4
    · ipureintro
      sl_unfold_run_names
      rw [read_after_whole_store (S := S1x128) _ _ zero2 inb_S1x128_S1x128_0_0, View.readCov_unit_zero _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  isplitl [H5]
  · iexists _; isplitr
    swap
    · iexact H5
    · ipureintro
      sl_unfold_run_names
      rw [read_after_whole_store (S := S1x128) _ _ zero2 inb_S1x128_S1x128_0_0, View.readCov_unit_zero _ zero2 inb_S1x128_S1x128_0_0, View.readCov_unit_zero _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0, load_untouched a7 w7 zero2 inb_S1x128_S1x128_0_0]
  isplitl [H6]
  · iexists _; isplitr
    swap
    · iexact H6
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a6 w6 zero2 inb_S1x128_S1x128_0_0]
  · iexists _; isplitr
    swap
    · iexact H7
    · ipureintro
      sl_unfold_run_names
      rw [read_after_whole_store (S := S1x128) _ _ zero2 inb_S1x128_S1x128_0_0, load_untouched a1 w1 zero2 inb_S4096x128_S4096x128_0_0, load_untouched a2 w2 zero2 inb_S128x128_S128x128_0_0, load_untouched a3 w3 zero2 inb_S1x128_S1x128_0_0, load_untouched a7 w7 zero2 inb_S1x128_S1x128_0_0]

/-! ## What a point sees of the three inputs -/

/-- The tile of 4096 input rows that point `t` works on. -/
def xTile (c : Dev nD) (t : Fin cfg0.N) : Vec F S4096x128 .f32 :=
  ((cfg0.win 0).blk t).view.read (Elt F) (V c (Pipeline.arrRef spec0 0))

/-- The transposed weight as point `t` sees it (the same whole matrix at every point). -/
def wTile (c : Dev nD) (t : Fin cfg0.N) : Vec F S128x128 .f32 :=
  ((cfg0.win 1).blk t).view.read (Elt F) (V c (Pipeline.arrRef spec0 1))

/-- The bias row as point `t` sees it (the same row at every point). -/
def bTile (c : Dev nD) (t : Fin cfg0.N) : Vec F S1x128 .f32 :=
  ((cfg0.win 2).blk t).view.read (Elt F) (V c (Pipeline.arrRef spec0 2))

/-! ## The running totals -/

/-- One point's work on the pair of totals: the tile's column sums are added to the first row, its column sums
    of squares to the second. -/
def addTile (x : Vec F S4096x128 .f32) (w : Vec F S128x128 .f32) (b : Vec F S1x128 .f32)
    (a : Vec F S1x128 .f32 × Vec F S1x128 .f32) : Vec F S1x128 .f32 × Vec F S1x128 .f32 :=
  (k0_pay4 x w b a.1, k0_pay5 x w b a.2)

/-- The pair of zero rows the first point starts from. -/
def zeroRows : Vec F S1x128 .f32 × Vec F S1x128 .f32 := (k0_pay1, k0_pay2)

/-- What the two scratch rows hold after the body has run at point `n`: the zero rows with the tiles of points
    `0, …, n` added one after the other. -/
def sums (c : Dev nD) : (n : ℕ) → n < cfg0.N → Vec F S1x128 .f32 × Vec F S1x128 .f32
  | 0, h => addTile (xTile V c ⟨0, h⟩) (wTile V c ⟨0, h⟩) (bTile V c ⟨0, h⟩) zeroRows
  | n + 1, h => addTile (xTile V c ⟨n + 1, h⟩) (wTile V c ⟨n + 1, h⟩) (bTile V c ⟨n + 1, h⟩) (sums c n (Nat.lt_of_succ_lt h))

/-- The mean row formed from a pair of totals. -/
def meanRow (a : Vec F S1x128 .f32 × Vec F S1x128 .f32) : Vec F S1x128 .f32 := k0_pay6 a.1
/-- The variance row formed from a pair of totals. -/
def varRow (a : Vec F S1x128 .f32 × Vec F S1x128 .f32) : Vec F S1x128 .f32 := k0_pay7 a.1 a.2

/-! ## The scratch rows and the invariant that carries them -/

/-- The two scratch rows, as whole memrefs. -/
abbrev tot0 : Memref sig .tc .vmem S1x128 .f32 := Memref.whole cc0_scratch0
abbrev tot1 : Memref sig .tc .vmem S1x128 .f32 := Memref.whole cc0_scratch1

/-- Everything else the region may use and need not describe: the core's other scoped buffers at some contents and
    the generator register at some state. -/
abbrev others (c : Dev nD) : sProp 𝕄 :=
  iprop(Pipeline.scopedRestBut (Ix := Unit) (Name := ℕ) (U := UR sig nD τ) (Lvl := ℕ) (Val := Elt F) spec0 c [cc0_scratch0, cc0_scratch1]
    ∗ (∃ r, prngReg c r))

/-- The region invariant before point `n`.  Before the first point the scratch rows hold anything (the launch's own
    invariant); before any later point they hold the totals the point before left. -/
def carried (c : Dev nD) : (n : ℕ) → n ≤ cfg0.N → sProp 𝕄
  | 0, _ => Pipeline.ΦA spec0 c
  | n + 1, h => iprop(owns (c : Thread nD τ) tot0 fullShare (sums V c n h).1 ∗ owns (c : Thread nD τ) tot1 fullShare (sums V c n h).2 ∗ others c)

end Stats1

open Stats1

/-! ## The proof data -/

/-- The region's proof data on core `c`.  The arrays are as the region finds them.  After the body an input's
    buffer still holds its tile; the two outputs hold the mean and variance rows of the totals so far — which is what
    the body stores at the last point, the only point where the outputs are live.  The invariant is `carried`. -/
def dat0 (c : Dev nD) : Dat τ (Elt F) Unit ℕ (UR sig nD τ) ℕ cfg0 c where
  A w := V c (Pipeline.arrRef spec0 w)
  after w t := match w with
    | ⟨0, _⟩ => xTile V c t
    | ⟨1, _⟩ => wTile V c t
    | ⟨2, _⟩ => bTile V c t
    | ⟨3, _⟩ => meanRow (sums V c t.val t.isLt)
    | ⟨4, _⟩ => varRow (sums V c t.val t.isLt)
  Φ t := carried V c t.val (Nat.le_of_lt_succ t.isLt)
  q _ := fullShare
  owed _ := 0

theorem A_eq0 (c : Dev nD) (w : Fin cfg0.W) : (dat0 V c).A w = V c (Pipeline.arrRef spec0 w) := rfl

namespace Stats1

/-! ## Which kind of point a grid point is -/

/-- The reset happens at the first point and nowhere else. -/
theorem reset_iff : ∀ t : Fin cfg0.N, resetCond (grid0.coords t) ↔ t.val = 0 :=
  (by decide +kernel : ∀ t : Fin grid0.N, resetCond (grid0.coords t) ↔ t.val = 0)

/-- The outputs are formed at the last point and nowhere else. -/
theorem final_iff : ∀ t : Fin cfg0.N, finalCond (grid0.coords t) ↔ t.val = 63 :=
  (by decide +kernel : ∀ t : Fin grid0.N, finalCond (grid0.coords t) ↔ t.val = 63)

/-- Before the last point the two outputs are idle: the body stores nothing into them. -/
theorem outputs_idle : ∀ t : Fin cfg0.N, t.val ≠ 63 →
    cfg0.idle 3 (grid0.coords t) = true ∧ cfg0.idle 4 (grid0.coords t) = true :=
  (by decide +kernel : ∀ t : Fin grid0.N, t.val ≠ 63 → cfg0.idle 3 (grid0.coords t) = true ∧ cfg0.idle 4 (grid0.coords t) = true)

/-- At the last point they are live. -/
theorem outputs_live : ∀ t : Fin cfg0.N, t.val = 63 →
    cfg0.idle 3 (grid0.coords t) = false ∧ cfg0.idle 4 (grid0.coords t) = false :=
  (by decide +kernel : ∀ t : Fin grid0.N, t.val = 63 → cfg0.idle 3 (grid0.coords t) = false ∧ cfg0.idle 4 (grid0.coords t) = false)

/-- Before the last point neither output is written back. -/
theorem outputs_kept (t : Fin cfg0.N) (h : t.val ≠ 63) : (cfg0.win 3).flush t = false ∧ (cfg0.win 4).flush t = false := by
  have hN : t.val < 64 := lt_of_lt_of_eq t.isLt (show cfg0.N = 64 from N_0)
  constructor
  · exact Bool.eq_false_iff.mpr fun e => h (by have := (flush0_3 t).mp e; omega)
  · exact Bool.eq_false_iff.mpr fun e => h (by have := (flush0_4 t).mp e; omega)

/-! ## The totals and the invariant, point by point -/

/-- At the first point the totals are the zero rows with that point's tile added. -/
theorem sums_first (c : Dev nD) (t : Fin cfg0.N) (h : t.val = 0) :
    sums V c t.val t.isLt = addTile (xTile V c t) (wTile V c t) (bTile V c t) zeroRows := by
  obtain ⟨n, hn⟩ := t
  cases n with
  | zero => rfl
  | succ n => exact absurd h (Nat.succ_ne_zero n)

/-- At any later point they are the totals of the point before with this point's tile added. -/
theorem sums_later (c : Dev nD) (t : Fin cfg0.N) (h : t.val ≠ 0) :
    sums V c t.val t.isLt
      = addTile (xTile V c t) (wTile V c t) (bTile V c t) (sums V c (t.val - 1) (Nat.lt_of_le_of_lt (Nat.sub_le _ _) t.isLt)) := by
  obtain ⟨n, hn⟩ := t
  cases n with
  | zero => exact absurd rfl h
  | succ n => rfl

/-- Before the first point the invariant is the launch's. -/
theorem carried_first (c : Dev nD) (n : ℕ) (h : n ≤ cfg0.N) (hz : n = 0) : carried V c n h = Pipeline.ΦA spec0 c := by
  subst hz; rfl

/-- Before a later point it pins the scratch rows to the totals of the point before. -/
theorem carried_later (c : Dev nD) (n : ℕ) (h : n ≤ cfg0.N) (hz : n ≠ 0) :
    carried V c n h
      = iprop(owns (c : Thread nD τ) tot0 fullShare (sums V c (n - 1) (by omega)).1 ∗ owns (c : Thread nD τ) tot1 fullShare (sums V c (n - 1) (by omega)).2 ∗ others c) := by
  cases n with
  | zero => exact absurd rfl hz
  | succ n => rfl

/-- The launch's invariant hands over the two scratch rows, each at some contents, and the rest. -/
theorem entry_open (c : Dev nD) :
    (Pipeline.ΦA spec0 c : sProp 𝕄)
      ⊢ iprop((∃ d, owns (c : Thread nD τ) tot0 fullShare d) ∗ (∃ d, owns (c : Thread nD τ) tot1 fullShare d) ∗ others c) := by
  unfold Pipeline.ΦA; rw [scopedRest0_split]; simp only [tot0, tot1, owns_whole]
  iintro ⟨⟨⟨T0, T1⟩, R⟩, G⟩
  isplitl [T0]; · iexact T0
  isplitl [T1]; · iexact T1
  isplitl [R]; · iexact R
  iexact G

/-- And takes them back at any contents. -/
theorem entry_close (c : Dev nD) :
    iprop((∃ d, owns (c : Thread nD τ) tot0 fullShare d) ∗ (∃ d, owns (c : Thread nD τ) tot1 fullShare d) ∗ others c)
      ⊢ (Pipeline.ΦA spec0 c : sProp 𝕄) := by
  unfold Pipeline.ΦA; rw [scopedRest0_split]; simp only [tot0, tot1, owns_whole]
  iintro ⟨T0, T1, R, G⟩
  isplitr [G]
  · isplitr [R]
    · isplitl [T0]; · iexact T0
      iexact T1
    · iexact R
  · iexact G

/-! ## The inputs' buffers -/

/-- Each input's current buffer holds the point's tile, whether the pipeline fetched it at this point or left it from
    the point before (the weight and the bias are fetched once: their block index never moves). -/
theorem found_x (c : Dev nD) (t : Fin cfg0.N) (d) : (dat0 V c).before 0 t d = xTile V c t :=
  ((dat0 V c).before_in_eq_fetched 0 rfl (fun _ => rfl) (fun _ _ _ => rfl) (fun _ => rfl) t d).trans rfl
theorem found_w (c : Dev nD) (t : Fin cfg0.N) (d) : (dat0 V c).before 1 t d = wTile V c t :=
  ((dat0 V c).before_in_eq_fetched 1 rfl (fun _ => rfl) (fun _ _ _ => rfl) (fun _ => rfl) t d).trans rfl
theorem found_b (c : Dev nD) (t : Fin cfg0.N) (d) : (dat0 V c).before 2 t d = bTile V c t :=
  ((dat0 V c).before_in_eq_fetched 2 rfl (fun _ => rfl) (fun _ _ _ => rfl) (fun _ => rfl) t d).trans rfl

/-! ## The body at a grid point -/

set_option maxHeartbeats 4000000 in
/-- The body run at point `t` on what the pipeline hands it takes the invariant before `t` to the invariant after `t`.
    The grid coordinate says which of the three triples applies.  At the first point the launch's invariant supplies the
    scratch rows at arbitrary contents; afterwards the invariant supplies them at the totals of the point before.  Away
    from the last point the outputs' buffers pass through unchanged; at the last point they receive the mean and
    variance rows of the new totals, which is what the proof data says they hold. -/
theorem point_step (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t
            ∗ (dat0 V c).leavesExact 3 t ∗ (dat0 V c).leavesExact 4 t)) := by
  have hN : t.val < 64 := lt_of_lt_of_eq t.isLt (show cfg0.N = 64 from N_0)
  simp only [found_x, found_w, found_b]
  rw [show (dat0 V c).owesAt () t.succ = (dat0 V c).owesAt () t.castSucc from rfl,
    show (dat0 V c).Φ t.succ
      = iprop(owns (c : Thread nD τ) tot0 fullShare (sums V c t.val t.isLt).1 ∗ owns (c : Thread nD τ) tot1 fullShare (sums V c t.val t.isLt).2 ∗ others c) from rfl,
    show (dat0 V c).Φ t.castSucc = carried V c t.val (Nat.le_of_lt t.isLt) from rfl,
    show (dat0 V c).leavesExact 0 t = owns (c : Thread nD τ) (st0_0 t) fullShare (xTile V c t) from rfl,
    show (dat0 V c).leavesExact 1 t = owns (c : Thread nD τ) (st0_1 t) fullShare (wTile V c t) from rfl,
    show (dat0 V c).leavesExact 2 t = owns (c : Thread nD τ) (st0_2 t) fullShare (bTile V c t) from rfl]
  unfold bodyAt0
  by_cases h0 : t.val = 0
  · have hL : t.val ≠ 63 := by omega
    rw [Dat.leavesExact_idle _ 3 t (outputs_idle t hL).1 (outputs_kept t hL).1,
      Dat.leavesExact_idle _ 4 t (outputs_idle t hL).2 (outputs_kept t hL).2,
      carried_first V c _ _ h0, sums_first V c t h0]
    refine (sep_mono (entry_open c) .rfl).trans ?_
    iintro ⟨⟨T0, T1, R⟩, Ho, ⟨%d0, X⟩, ⟨%d1, W⟩, ⟨%d2, B⟩, ⟨%d3, Y3⟩, ⟨%d4, Y4⟩⟩
    iapply first_point c (grid0.coords t) _ _ _ _ _ _ _ _ _ _ _ _ _ _ ((reset_iff t).mpr h0) (fun h => hL ((final_iff t).mp h))
      (xTile V c t) (wTile V c t) (bTile V c t) _ _ Set.univ _
    isplitl [X]; · iexact X
    isplitl [W]; · iexact W
    isplitl [B]; · iexact B
    isplitl [Y3]; · iexact Y3
    isplitl [Y4]; · iexact Y4
    isplitl [T0]; · iexact T0
    isplitl [T1]; · iexact T1
    iintro ⟨X, W, B, Y3, Y4, T0, T1⟩
    isplitl [T0 T1 R]
    · isplitl [T0]; · iexact T0
      isplitl [T1]; · iexact T1
      iexact R
    isplitl [Ho]; · iexact Ho
    isplitl [X]; · iexact X
    isplitl [W]; · iexact W
    isplitl [B]; · iexact B
    isplitl [Y3]; · iexists _; iexact Y3
    iexists _; iexact Y4
  · by_cases hL : t.val = 63
    · rw [show (dat0 V c).leavesExact 3 t = owns (c : Thread nD τ) (st0_3 t) fullShare (meanRow (sums V c t.val t.isLt)) from by
          unfold Dat.leavesExact; rw [(outputs_live t hL).1]; rfl,
        show (dat0 V c).leavesExact 4 t = owns (c : Thread nD τ) (st0_4 t) fullShare (varRow (sums V c t.val t.isLt)) from by
          unfold Dat.leavesExact; rw [(outputs_live t hL).2]; rfl,
        carried_later V c _ _ h0, sums_later V c t h0]
      iintro ⟨⟨T0, T1, R⟩, Ho, ⟨%d0, X⟩, ⟨%d1, W⟩, ⟨%d2, B⟩, ⟨%d3, Y3⟩, ⟨%d4, Y4⟩⟩
      iapply last_point c (grid0.coords t) _ _ _ _ _ _ _ _ _ _ _ _ _ _ (fun h => h0 ((reset_iff t).mp h)) ((final_iff t).mpr hL)
        (xTile V c t) (wTile V c t) (bTile V c t) _ _ Set.univ _
      isplitl [X]; · iexact X
      isplitl [W]; · iexact W
      isplitl [B]; · iexact B
      isplitl [Y3]; · iexists _; iexact Y3
      isplitl [Y4]; · iexists _; iexact Y4
      isplitl [T0]; · iexact T0
      isplitl [T1]; · iexact T1
      iintro ⟨X, W, B, Y3, Y4, T0, T1⟩
      isplitl [T0 T1 R]
      · isplitl [T0]; · iexact T0
        isplitl [T1]; · iexact T1
        iexact R
      isplitl [Ho]; · iexact Ho
      isplitl [X]; · iexact X
      isplitl [W]; · iexact W
      isplitl [B]; · iexact B
      isplitl [Y3]; · iexact Y3
      iexact Y4
    · rw [Dat.leavesExact_idle _ 3 t (outputs_idle t hL).1 (outputs_kept t hL).1,
        Dat.leavesExact_idle _ 4 t (outputs_idle t hL).2 (outputs_kept t hL).2,
        carried_later V c _ _ h0, sums_later V c t h0]
      iintro ⟨⟨T0, T1, R⟩, Ho, ⟨%d0, X⟩, ⟨%d1, W⟩, ⟨%d2, B⟩, ⟨%d3, Y3⟩, ⟨%d4, Y4⟩⟩
      iapply middle_point c (grid0.coords t) _ _ _ _ _ _ _ _ _ _ _ _ _ _ (fun h => h0 ((reset_iff t).mp h)) (fun h => hL ((final_iff t).mp h))
        (xTile V c t) (wTile V c t) (bTile V c t) _ _ _ _ Set.univ _
      isplitl [X]; · iexact X
      isplitl [W]; · iexact W
      isplitl [B]; · iexact B
      isplitl [Y3]; · iexact Y3
      isplitl [Y4]; · iexact Y4
      isplitl [T0]; · iexact T0
      isplitl [T1]; · iexact T1
      iintro ⟨X, W, B, Y3, Y4, T0, T1⟩
      isplitl [T0 T1 R]
      · isplitl [T0]; · iexact T0
        isplitl [T1]; · iexact T1
        iexact R
      isplitl [Ho]; · iexact Ho
      isplitl [X]; · iexact X
      isplitl [W]; · iexact W
      isplitl [B]; · iexact B
      isplitl [Y3]; · iexists _; iexact Y3
      iexists _; iexact Y4

end Stats1

/-- The region's body obligation: `point_step` at every point, the five windows written out one by one. -/
theorem body_obligation0 (c : Dev nD) : Pipeline.BodyObligation (dat0 (F := F) V c) (defs₀ (F := F)) Variants.none () Set.univ := fun t => by
  rw [bigSep_W0, bigSep_W0]
  exact Stats1.point_step V c t

/-! ## The two ends of the region -/

/-- Entering the region: the invariant before the first point is the launch's. -/
theorem hin0 (c : Dev nD) : Pipeline.ΦA spec0 c ⊢ (dat0 V c).Φ 0 := Entails.rfl

/-- Leaving it: after the last point the totals' values are forgotten and the launch's invariant is restored. -/
theorem hout0 (c : Dev nD) : (dat0 V c).Φ (Fin.last cfg0.N) ⊢ Pipeline.ΦA spec0 c := by
  rw [show (dat0 V c).Φ (Fin.last cfg0.N) = carried V c (Fin.last cfg0.N).val (Nat.le_of_lt_succ (Fin.last cfg0.N).isLt) from rfl,
    carried_later V c _ _ (by rw [Fin.val_last]; have : cfg0.N = 64 := N_0; omega)]
  refine BIBase.Entails.trans ?_ (entry_close c)
  iintro ⟨T0, T1, R⟩
  isplitl [T0]; · iexists _; iexact T0
  isplitl [T1]; · iexists _; iexact T1
  iexact R

end Cert.KernelIdeal.Hand

end
-- ==== Proof.Stats2Runs.lean ====
/-
  The body of the second statistics pass, run once in each of its three control cases.

  The body has two conditionals on the grid coordinate: at the first point it zeroes the two one-row scratch
  buffers; at the last it forms the mean and the clamped variance from them and stores these into the two one-row
  outputs.  Between the two, at every point, it adds the block's column sums of the second layer's pre-activations,
  and of their squares, to the scratch buffers.  Each triple below is over ANY whole memrefs, the operands' at their
  contents; what the scratch and the outputs end at is stated as a value of the body's own arithmetic.
-/
import proofs.«159717_j8890582303003_2_alg».proof.Proof.Gen.KernelIdeal.Launch
import proofs.«159717_j8890582303003_2_alg».proof.Proof.Gen.KernelIdeal.Skeleton
import proofs.«159717_j8890582303003_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand.Stats2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer stores and loads

Every load and store of this body moves a whole buffer: the rectangle at zero offsets of the buffer's own extents. -/

/-- The zero offsets as the body spells them. -/
theorem zeroOff2 : (![0, 0] : Fin 2 → ℕ) = fun _ => 0 := by
  funext a; fin_cases a <;> rfl

section Whole

variable {sg : RefSig} {κ : Kind} {sp : Space} {S : Shape} {e : EltTy} {Val : EltTy → Type} [∀ e, Nonempty (Val e)]

/-- After a store of the whole buffer, made last, the buffer reads as the stored value, whatever was stored before
    (the offsets are zero, however spelt). -/
theorem read_writes_whole_last_of (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hcov : ∀ y : S.Idx, ∃ p ∈ ((⟨Rect.unit off S.size inb, w⟩ : View.Piece Val S e) :: L), y ∈ p.1.set :=
    fun y => ⟨_, List.mem_cons_self, View.mem_set_unit_zero h inb y⟩
  rw [View.read_writes_eq_canon v f _ hcov, View.canon_cons_unit_zero h]

/-- A load of the whole buffer from a whole memref held at the contents that read `X` reads `X`. -/
theorem readAt_whole_unread_of {m : Memref sg κ sp S e} (hm : m.IsWhole) (X : S.Idx → Val e) {off : Fin S.rank → ℕ}
    (h : off = fun _ => 0) (inb : ∀ a, off a + S.size a ≤ S.size a) :
    m.view.readAt Val (Rect.unit off S.size inb).toLoadRect (hm.unread X) = X := by
  rw [View.readAt_eq_ld, hm.read_unread, View.ld_unit_zero h]

end Whole

section Whole2

variable {sg : RefSig} {κ : Kind} {sp : Space} {sz : Fin 2 → ℕ} {e : EltTy} {Val : EltTy → Type} [∀ e, Nonempty (Val e)]

/-- The same three facts for a two-axis buffer with the zero offsets as the body spells them. -/
theorem read_writes_whole_last (v : View sg κ sp ⟨2, sz⟩ e) (f : v.ty.Contents Val)
    (inb : ∀ a, (![0, 0] : Fin 2 → ℕ) a + sz a ≤ sz a) (w : (⟨2, sz⟩ : Shape).Idx → Val e)
    (L : List (View.Piece Val ⟨2, sz⟩ e)) :
    v.read Val (v.writes Val f ((⟨Rect.unit (s := ⟨2, sz⟩) ![0, 0] sz inb, w⟩ : View.Piece Val ⟨2, sz⟩ e) :: L)) = w :=
  read_writes_whole_last_of (S := ⟨2, sz⟩) v f zeroOff2 inb w L

theorem readAt_whole_unread {m : Memref sg κ sp ⟨2, sz⟩ e} (hm : m.IsWhole) (X : (⟨2, sz⟩ : Shape).Idx → Val e)
    (inb : ∀ a, (![0, 0] : Fin 2 → ℕ) a + sz a ≤ sz a) :
    m.view.readAt Val (Rect.unit (s := ⟨2, sz⟩) ![0, 0] sz inb).toLoadRect (hm.unread X) = X :=
  readAt_whole_unread_of (S := ⟨2, sz⟩) hm X zeroOff2 inb

theorem readCov_whole_store (v : View sg κ sp ⟨2, sz⟩ e) (inb : ∀ a, (![0, 0] : Fin 2 → ℕ) a + sz a ≤ sz a)
    (w : (⟨2, sz⟩ : Shape).Idx → Val e) :
    v.readCov [(⟨Rect.unit (s := ⟨2, sz⟩) ![0, 0] sz inb, w⟩ : View.Piece Val ⟨2, sz⟩ e)]
      (Rect.unit (s := ⟨2, sz⟩) ![0, 0] sz inb).toLoadRect = w :=
  View.readCov_unit_zero (S := ⟨2, sz⟩) v zeroOff2 inb w

end Whole2

/-! ## The two conditions, and the arithmetic of one grid point -/

/-- The first conditional's test as the body computes it: the grid coordinate is 0. -/
abbrev atFirst (i : grid1.Coords) : Prop :=
  Scalar.cmpi .ne (Scalar.extui (Scalar.cmpi .eq (BitVec.ofNat 32 (i 0).val) 0#32)) 0#32 = 1#1

/-- The second conditional's test: the grid coordinate is 63. -/
abbrev atLast (i : grid1.Coords) : Prop := k1_cond2 i = 1#1

/-- The running column sums after a block: the sums so far (`s`) plus the block's column sums of the second layer's
    pre-activations, computed from the nine staged operands (the batch block, the first layer's weight, bias, mean,
    variance, scale and shift, the second layer's weight and bias). -/
def addSums (x0 : Vec F S4096x128 .f32) (x1 : Vec F S128x128 .f32) (x2 x3 x4 x5 x6 : Vec F S1x128 .f32)
    (x7 : Vec F S128x128 .f32) (x8 : Vec F S1x128 .f32) (s : Vec F S1x128 .f32) : Vec F S1x128 .f32 :=
  k1_pay2 (k1_pay8 x0 x1 x2 x4 x3 x5 x6) (k1_pay9 x7) x8 s

/-- The running column sums of squares after a block. -/
def addSquares (x0 : Vec F S4096x128 .f32) (x1 : Vec F S128x128 .f32) (x2 x3 x4 x5 x6 : Vec F S1x128 .f32)
    (x7 : Vec F S128x128 .f32) (x8 : Vec F S1x128 .f32) (s : Vec F S1x128 .f32) : Vec F S1x128 .f32 :=
  k1_pay3 (k1_pay8 x0 x1 x2 x4 x3 x5 x6) (k1_pay9 x7) x8 s

/-! ## The body's three triples -/

set_option maxHeartbeats 1000000 in
/-- The body at the first point: the first conditional zeroes the two scratch rows, whatever they held, and they end at
    the first block's sums; the operands and the two output rows are left as found. -/
theorem body_first (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : atFirst i) (hc1 : ¬atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (y9 y10 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare (addSums x0 x1 x2 x3 x4 x5 x6 x7 x8 (k1_pay6 (F := F))) ∗ owns (c : Thread nD τ) arg13 fullShare (addSquares x0 x1 x2 x3 x4 x5 x6 x7 x8 (k1_pay7 (F := F)))) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [HS0]
  · iexists _; isplitr
    swap; · iexact HS0
    ipureintro
    sl_unfold_run_names
    rw [read_writes_whole_last]
    simp only [readAt_whole_unread, readCov_whole_store]

    rfl
  · iexists _; isplitr
    swap; · iexact HS1
    ipureintro
    sl_unfold_run_names
    rw [read_writes_whole_last]
    simp only [readAt_whole_unread, readCov_whole_store]
    rfl

set_option maxHeartbeats 1000000 in
/-- The body at a point that is neither the first nor the last: neither conditional fires; the two scratch rows, held at
    the sums so far, end at the sums with this block added; the operands and the two output rows are left as found. -/
theorem body_between (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬atFirst i) (hc1 : ¬atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (y9 y10 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare (addSums x0 x1 x2 x3 x4 x5 x6 x7 x8 s0) ∗ owns (c : Thread nD τ) arg13 fullShare (addSquares x0 x1 x2 x3 x4 x5 x6 x7 x8 s1)) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  obtain rfl := harg12.eq_unread hfs0; obtain rfl := harg13.eq_unread hfs1
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [HS0]
  · iexists _; isplitr
    swap; · iexact HS0
    ipureintro
    sl_unfold_run_names
    rw [read_writes_whole_last]
    simp only [readAt_whole_unread]

    rfl
  · iexists _; isplitr
    swap; · iexact HS1
    ipureintro
    sl_unfold_run_names
    rw [read_writes_whole_last]
    simp only [readAt_whole_unread]
    rfl

set_option maxHeartbeats 1000000 in
/-- The body at the last point: the scratch rows end at the sums with the last block added, and the second conditional
    stores the mean and the clamped variance formed from them into the two output rows, whatever those held. -/
theorem body_last (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬atFirst i) (hc1 : atLast i)
    (x0 : Vec F S4096x128 .f32) (x1 : Vec F S128x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) (s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k1_pay4 (addSums x0 x1 x2 x3 x4 x5 x6 x7 x8 s0)) ∗ owns (c : Thread nD τ) arg11 fullShare (k1_pay5 (addSums x0 x1 x2 x3 x4 x5 x6 x7 x8 s0) (addSquares x0 x1 x2 x3 x4 x5 x6 x7 x8 s1)) ∗ owns (c : Thread nD τ) arg12 fullShare (addSums x0 x1 x2 x3 x4 x5 x6 x7 x8 s0) ∗ owns (c : Thread nD τ) arg13 fullShare (addSquares x0 x1 x2 x3 x4 x5 x6 x7 x8 s1)) -∗ K ⟨⟩))
      ⊢ wp frame (wpE (defs₀ (F := F)) Variants.none c none) E (cc1__stats2_kernel i arg1 harg1 arg2 harg2 arg3 harg3 arg4 harg4 arg5 harg5 arg6 harg6 arg7 harg7 arg8 harg8 arg9 harg9 arg10 harg10 arg11 harg11 arg12 harg12 arg13 harg13) K := by
  simp only [cc1__stats2_kernel_eq_skeleton]; unfold cc1__stats2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg12.eq_unread hfs0; obtain rfl := harg13.eq_unread hfs1
  sl_exec (disch := first | exact hc0 | exact hc1)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    swap; · iexact H9
    ipureintro
    sl_unfold_run_names
    rw [read_writes_whole_last]
    simp only [readAt_whole_unread, readCov_whole_store]
    rfl
  isplitl [H10]
  · iexists _; isplitr
    swap; · iexact H10
    ipureintro
    sl_unfold_run_names
    rw [read_writes_whole_last]
    simp only [readAt_whole_unread, readCov_whole_store]
    rfl
  isplitl [HS0]
  · iexists _; isplitr
    swap; · iexact HS0
    ipureintro
    sl_unfold_run_names
    rw [read_writes_whole_last]
    simp only [readAt_whole_unread, readCov_whole_store]
    rfl
  · iexists _; isplitr
    swap; · iexact HS1
    ipureintro
    sl_unfold_run_names
    rw [read_writes_whole_last]
    simp only [readAt_whole_unread, readCov_whole_store]
    rfl

end Cert.KernelIdeal.Hand.Stats2

end
-- ==== Proof.Stats2Region.lean ====
/-
  The second statistics pass as one region of the program.

  The pass visits the batch in 64 blocks of 4096 rows.  Two one-row scratch buffers carry, from one grid point to the
  next, the column sums and the column sums of squares of the second layer's pre-activations over the blocks seen so
  far: the first point zeroes them before adding its block, every point adds its block, and the last point forms the
  mean and the clamped variance from them and stores these into the two one-row outputs, which the pipeline writes
  back once, after that point.  Below: the running sums as a recursion over the points, the invariant that holds the
  scratch at them, the region's proof data, and the body obligation from the body's three triples.
-/
import proofs.«159717_j8890582303003_2_alg».proof.Proof.Stats2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Stats2

/-! ## The operands at a grid point, and the running sums -/

/-- Window `w`'s block at point `t`, read off its array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- One grid point's work on the pair of running sums: the block at `t` added to each. -/
def stepSums (c : Dev nD) (t : Fin cfg1.N) (s : Vec F S1x128 .f32 × Vec F S1x128 .f32) :
    Vec F S1x128 .f32 × Vec F S1x128 .f32 :=
  (addSums (blockAt V c 0 t) (blockAt V c 1 t) (blockAt V c 2 t) (blockAt V c 3 t) (blockAt V c 4 t) (blockAt V c 5 t) (blockAt V c 6 t) (blockAt V c 7 t) (blockAt V c 8 t) s.1,
   addSquares (blockAt V c 0 t) (blockAt V c 1 t) (blockAt V c 2 t) (blockAt V c 3 t) (blockAt V c 4 t) (blockAt V c 5 t) (blockAt V c 6 t) (blockAt V c 7 t) (blockAt V c 8 t) s.2)

/-- The pair of running sums after point `n`: from the zero rows at the first point, from the pair the point before
    left afterwards. -/
def sumsAt (c : Dev nD) : (n : ℕ) → n < cfg1.N → Vec F S1x128 .f32 × Vec F S1x128 .f32
  | 0, h => stepSums V c ⟨0, h⟩ (k1_pay6, k1_pay7)
  | n + 1, h => stepSums V c ⟨n + 1, h⟩ (sumsAt c n (Nat.lt_of_succ_lt h))

theorem sumsAt_first (c : Dev nD) (t : Fin cfg1.N) (hz : t.val = 0) :
    sumsAt V c t.val t.isLt = stepSums V c t (k1_pay6, k1_pay7) := by
  obtain ⟨n, hn⟩ := t
  cases n with
  | zero => rfl
  | succ n => exact absurd hz (Nat.succ_ne_zero n)

theorem sumsAt_later (c : Dev nD) (t : Fin cfg1.N) (hz : t.val ≠ 0) :
    sumsAt V c t.val t.isLt
      = stepSums V c t (sumsAt V c (t.val - 1) (Nat.lt_of_le_of_lt (Nat.sub_le _ _) t.isLt)) := by
  obtain ⟨n, hn⟩ := t
  cases n with
  | zero => exact absurd rfl hz
  | succ n => rfl

/-! ## The invariant: the scratch rows at the running sums -/

/-- The two scratch rows as memrefs. -/
abbrev sumRow : Memref sig .tc .vmem S1x128 .f32 := Memref.whole cc1_scratch0
abbrev squareRow : Memref sig .tc .vmem S1x128 .f32 := Memref.whole cc1_scratch1

/-- What holds between grid points: before the first, what the launch hands over (the scratch rows at anything);
    before point `n + 1`, the scratch rows at the running sums after point `n`; in both, the other scoped buffers and
    the generator register as the launch hands them over. -/
def carried (c : Dev nD) : (n : ℕ) → n ≤ cfg1.N → sProp 𝕄
  | 0, _ => Pipeline.ΦA spec1 c
  | n + 1, h =>
    iprop(iprop(iprop(owns (c : Thread nD τ) sumRow fullShare (sumsAt V c n h).1
          ∗ owns (c : Thread nD τ) squareRow fullShare (sumsAt V c n h).2)
        ∗ Pipeline.scopedRestBut (Ix := Unit) (Name := ℕ) (U := UR sig nD τ) (Lvl := ℕ) (Val := Elt F) spec1 c [cc1_scratch0, cc1_scratch1])
      ∗ (∃ r, prngReg c r))

theorem carried_zero (c : Dev nD) (n : ℕ) (h : n ≤ cfg1.N) (hz : n = 0) : carried V c n h = Pipeline.ΦA spec1 c := by
  subst hz; rfl

theorem carried_pos (c : Dev nD) (n : ℕ) (h : n ≤ cfg1.N) (hz : n ≠ 0) :
    carried V c n h
      = iprop(iprop(iprop(owns (c : Thread nD τ) sumRow fullShare (sumsAt V c (n - 1) (by omega)).1
            ∗ owns (c : Thread nD τ) squareRow fullShare (sumsAt V c (n - 1) (by omega)).2)
          ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-- What the launch hands the region, with the two scratch rows named. -/
theorem handed_eq (c : Dev nD) :
    (Pipeline.ΦA spec1 c : sProp 𝕄)
      = iprop(iprop(iprop((∃ d, owns (c : Thread nD τ) sumRow fullShare d) ∗ (∃ d, owns (c : Thread nD τ) squareRow fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [owns_whole]; rfl

end Stats2

open Stats2

/-! ## The region's proof data -/

/-- The proof data of this region on core `c`: the arrays as the region finds them; after the body at point `t` each
    operand's buffer still at its block, the two output rows at the mean and the clamped variance formed from the running
    sums after `t` (read only after the last point, where the pipeline writes them back); between points the invariant
    above; full shares, nothing owed. -/
def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => k1_pay4 (sumsAt V c t.val t.isLt).1
    | ⟨10, _⟩ => k1_pay5 (sumsAt V c t.val t.isLt).1 (sumsAt V c t.val t.isLt).2
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

namespace Stats2

theorem after_operand0 (c : Dev nD) (t : Fin cfg1.N) : (dat1 V c).after 0 t = blockAt V c 0 t := by dsimp only [dat1]
theorem after_operand1 (c : Dev nD) (t : Fin cfg1.N) : (dat1 V c).after 1 t = blockAt V c 1 t := by dsimp only [dat1]
theorem after_operand2 (c : Dev nD) (t : Fin cfg1.N) : (dat1 V c).after 2 t = blockAt V c 2 t := by dsimp only [dat1]
theorem after_operand3 (c : Dev nD) (t : Fin cfg1.N) : (dat1 V c).after 3 t = blockAt V c 3 t := by dsimp only [dat1]
theorem after_operand4 (c : Dev nD) (t : Fin cfg1.N) : (dat1 V c).after 4 t = blockAt V c 4 t := by dsimp only [dat1]
theorem after_operand5 (c : Dev nD) (t : Fin cfg1.N) : (dat1 V c).after 5 t = blockAt V c 5 t := by dsimp only [dat1]
theorem after_operand6 (c : Dev nD) (t : Fin cfg1.N) : (dat1 V c).after 6 t = blockAt V c 6 t := by dsimp only [dat1]
theorem after_operand7 (c : Dev nD) (t : Fin cfg1.N) : (dat1 V c).after 7 t = blockAt V c 7 t := by dsimp only [dat1]
theorem after_operand8 (c : Dev nD) (t : Fin cfg1.N) : (dat1 V c).after 8 t = blockAt V c 8 t := by dsimp only [dat1]
theorem after_mean (c : Dev nD) (t : Fin cfg1.N) : (dat1 V c).after 9 t = k1_pay4 (sumsAt V c t.val t.isLt).1 := by dsimp only [dat1]
theorem after_var (c : Dev nD) (t : Fin cfg1.N) :
    (dat1 V c).after 10 t = k1_pay5 (sumsAt V c t.val t.isLt).1 (sumsAt V c t.val t.isLt).2 := by dsimp only [dat1]

theorem inv_before (c : Dev nD) (t : Fin cfg1.N) :
    (dat1 V c).Φ t.castSucc = carried V c t.val (Nat.le_of_lt t.isLt) := by
  dsimp only [dat1]; simp only [Fin.coe_castSucc]

theorem inv_after (c : Dev nD) (t : Fin cfg1.N) :
    (dat1 V c).Φ t.succ
      = iprop(iprop(iprop(owns (c : Thread nD τ) sumRow fullShare (sumsAt V c t.val t.isLt).1
            ∗ owns (c : Thread nD τ) squareRow fullShare (sumsAt V c t.val t.isLt).2)
          ∗ Pipeline.scopedRestBut (Ix := Unit) (Name := ℕ) (U := UR sig nD τ) (Lvl := ℕ) (Val := Elt F) spec1 c [cc1_scratch0, cc1_scratch1])
        ∗ (∃ r, prngReg c r)) := rfl

/-! Each operand's current staging buffer holds its block at every point, fetched there or not: the first is fetched at
    every point, the others at the first point only and their block never moves. -/

theorem found_operand0 (c : Dev nD) (t : Fin cfg1.N) (d) : (dat1 V c).before 0 t d = blockAt V c 0 t :=
  ((dat1 V c).before_in_eq_fetched 0 rfl (fun _ => rfl) (fun _ _ _ => rfl)
    (fun t => by rw [after_operand0]; unfold Dat.blockOf blockAt; rw [A_eq1]; try rfl) t d).trans
    (by unfold Dat.fetched Dat.blockOf blockAt; rw [A_eq1]; try rfl)
theorem found_operand1 (c : Dev nD) (t : Fin cfg1.N) (d) : (dat1 V c).before 1 t d = blockAt V c 1 t :=
  ((dat1 V c).before_in_eq_fetched 1 rfl (fun _ => rfl) (fun _ _ _ => rfl)
    (fun t => by rw [after_operand1]; unfold Dat.blockOf blockAt; rw [A_eq1]; try rfl) t d).trans
    (by unfold Dat.fetched Dat.blockOf blockAt; rw [A_eq1]; try rfl)
theorem found_operand2 (c : Dev nD) (t : Fin cfg1.N) (d) : (dat1 V c).before 2 t d = blockAt V c 2 t :=
  ((dat1 V c).before_in_eq_fetched 2 rfl (fun _ => rfl) (fun _ _ _ => rfl)
    (fun t => by rw [after_operand2]; unfold Dat.blockOf blockAt; rw [A_eq1]; try rfl) t d).trans
    (by unfold Dat.fetched Dat.blockOf blockAt; rw [A_eq1]; try rfl)
theorem found_operand3 (c : Dev nD) (t : Fin cfg1.N) (d) : (dat1 V c).before 3 t d = blockAt V c 3 t :=
  ((dat1 V c).before_in_eq_fetched 3 rfl (fun _ => rfl) (fun _ _ _ => rfl)
    (fun t => by rw [after_operand3]; unfold Dat.blockOf blockAt; rw [A_eq1]; try rfl) t d).trans
    (by unfold Dat.fetched Dat.blockOf blockAt; rw [A_eq1]; try rfl)
theorem found_operand4 (c : Dev nD) (t : Fin cfg1.N) (d) : (dat1 V c).before 4 t d = blockAt V c 4 t :=
  ((dat1 V c).before_in_eq_fetched 4 rfl (fun _ => rfl) (fun _ _ _ => rfl)
    (fun t => by rw [after_operand4]; unfold Dat.blockOf blockAt; rw [A_eq1]; try rfl) t d).trans
    (by unfold Dat.fetched Dat.blockOf blockAt; rw [A_eq1]; try rfl)
theorem found_operand5 (c : Dev nD) (t : Fin cfg1.N) (d) : (dat1 V c).before 5 t d = blockAt V c 5 t :=
  ((dat1 V c).before_in_eq_fetched 5 rfl (fun _ => rfl) (fun _ _ _ => rfl)
    (fun t => by rw [after_operand5]; unfold Dat.blockOf blockAt; rw [A_eq1]; try rfl) t d).trans
    (by unfold Dat.fetched Dat.blockOf blockAt; rw [A_eq1]; try rfl)
theorem found_operand6 (c : Dev nD) (t : Fin cfg1.N) (d) : (dat1 V c).before 6 t d = blockAt V c 6 t :=
  ((dat1 V c).before_in_eq_fetched 6 rfl (fun _ => rfl) (fun _ _ _ => rfl)
    (fun t => by rw [after_operand6]; unfold Dat.blockOf blockAt; rw [A_eq1]; try rfl) t d).trans
    (by unfold Dat.fetched Dat.blockOf blockAt; rw [A_eq1]; try rfl)
theorem found_operand7 (c : Dev nD) (t : Fin cfg1.N) (d) : (dat1 V c).before 7 t d = blockAt V c 7 t :=
  ((dat1 V c).before_in_eq_fetched 7 rfl (fun _ => rfl) (fun _ _ _ => rfl)
    (fun t => by rw [after_operand7]; unfold Dat.blockOf blockAt; rw [A_eq1]; try rfl) t d).trans
    (by unfold Dat.fetched Dat.blockOf blockAt; rw [A_eq1]; try rfl)
theorem found_operand8 (c : Dev nD) (t : Fin cfg1.N) (d) : (dat1 V c).before 8 t d = blockAt V c 8 t :=
  ((dat1 V c).before_in_eq_fetched 8 rfl (fun _ => rfl) (fun _ _ _ => rfl)
    (fun t => by rw [after_operand8]; unfold Dat.blockOf blockAt; rw [A_eq1]; try rfl) t d).trans
    (by unfold Dat.fetched Dat.blockOf blockAt; rw [A_eq1]; try rfl)

/-! ## Which points fire which conditional, and where the outputs are idle -/

theorem atFirst_iff : ∀ t : Fin cfg1.N, atFirst (grid1.coords t) ↔ t.val = 0 :=
  (by decide +kernel : ∀ t : Fin grid1.N, atFirst (grid1.coords t) ↔ t.val = 0)

theorem atLast_iff : ∀ t : Fin cfg1.N, atLast (grid1.coords t) ↔ t.val = 63 :=
  (by decide +kernel : ∀ t : Fin grid1.N, atLast (grid1.coords t) ↔ t.val = 63)

theorem point_lt (t : Fin cfg1.N) : t.val < 64 := lt_of_lt_of_eq t.isLt (show cfg1.N = 64 from N_1)

/-- Output 9 is idle wherever the second conditional does not fire, -/
theorem idle_out9 (t : Fin cfg1.N) (h : ¬atLast (grid1.coords t)) : cfg1.idle 9 (grid1.coords t) = true := by
  show (!(k1_cond2 (grid1.coords t) == 1#1)) = true
  rw [Bool.not_eq_true', beq_eq_false_iff_ne]; exact h
/-- live where it does, -/
theorem live_out9 (t : Fin cfg1.N) (h : atLast (grid1.coords t)) : cfg1.idle 9 (grid1.coords t) = false := by
  show (!(k1_cond2 (grid1.coords t) == 1#1)) = false
  rw [Bool.not_eq_false', beq_iff_eq]; exact h
/-- and not written back before the last point. -/
theorem unflushed_out9 (t : Fin cfg1.N) (h : t.val ≠ 63) : (cfg1.win 9).flush t = false := by
  have hN := point_lt t
  cases hf : (cfg1.win 9).flush t
  · rfl
  · exact absurd ((flush1_9 t).mp hf) (by omega)
/-- Output 10 is idle wherever the second conditional does not fire, -/
theorem idle_out10 (t : Fin cfg1.N) (h : ¬atLast (grid1.coords t)) : cfg1.idle 10 (grid1.coords t) = true := by
  show (!(k1_cond2 (grid1.coords t) == 1#1)) = true
  rw [Bool.not_eq_true', beq_eq_false_iff_ne]; exact h
/-- live where it does, -/
theorem live_out10 (t : Fin cfg1.N) (h : atLast (grid1.coords t)) : cfg1.idle 10 (grid1.coords t) = false := by
  show (!(k1_cond2 (grid1.coords t) == 1#1)) = false
  rw [Bool.not_eq_false', beq_iff_eq]; exact h
/-- and not written back before the last point. -/
theorem unflushed_out10 (t : Fin cfg1.N) (h : t.val ≠ 63) : (cfg1.win 10).flush t = false := by
  have hN := point_lt t
  cases hf : (cfg1.win 10).flush t
  · rfl
  · exact absurd ((flush1_10 t).mp hf) (by omega)

/-! ## The body obligation -/

set_option maxHeartbeats 4000000 in
/-- The body at any point, on what the pipeline hands it: the operands' buffers hold their blocks; the point is the
    first, the last or neither, and the body's triple for that case applies — the invariant hands it the scratch rows
    (at anything before the first point, at the running sums afterwards) and takes them back at this point's sums. -/
theorem at_point (c : Dev nD) (t : Fin cfg1.N) :
    iprop((dat1 V c).Φ t.castSucc ∗ (dat1 V c).owesAt () t.castSucc
        ∗ (∃ d, owns (c : Thread nD τ) ((cfg1.win 0).stage (cfg1.slots t 0)) fullShare ((dat1 V c).before 0 t d))
        ∗ (∃ d, owns (c : Thread nD τ) ((cfg1.win 1).stage (cfg1.slots t 1)) fullShare ((dat1 V c).before 1 t d))
        ∗ (∃ d, owns (c : Thread nD τ) ((cfg1.win 2).stage (cfg1.slots t 2)) fullShare ((dat1 V c).before 2 t d))
        ∗ (∃ d, owns (c : Thread nD τ) ((cfg1.win 3).stage (cfg1.slots t 3)) fullShare ((dat1 V c).before 3 t d))
        ∗ (∃ d, owns (c : Thread nD τ) ((cfg1.win 4).stage (cfg1.slots t 4)) fullShare ((dat1 V c).before 4 t d))
        ∗ (∃ d, owns (c : Thread nD τ) ((cfg1.win 5).stage (cfg1.slots t 5)) fullShare ((dat1 V c).before 5 t d))
        ∗ (∃ d, owns (c : Thread nD τ) ((cfg1.win 6).stage (cfg1.slots t 6)) fullShare ((dat1 V c).before 6 t d))
        ∗ (∃ d, owns (c : Thread nD τ) ((cfg1.win 7).stage (cfg1.slots t 7)) fullShare ((dat1 V c).before 7 t d))
        ∗ (∃ d, owns (c : Thread nD τ) ((cfg1.win 8).stage (cfg1.slots t 8)) fullShare ((dat1 V c).before 8 t d))
        ∗ (∃ d, owns (c : Thread nD τ) ((cfg1.win 9).stage (cfg1.slots t 9)) fullShare ((dat1 V c).before 9 t d))
        ∗ (∃ d, owns (c : Thread nD τ) ((cfg1.win 10).stage (cfg1.slots t 10)) fullShare ((dat1 V c).before 10 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t)) := by
  simp only [found_operand0, found_operand1, found_operand2, found_operand3, found_operand4, found_operand5, found_operand6, found_operand7, found_operand8]
  rw [show (dat1 V c).owesAt () t.succ = (dat1 V c).owesAt () t.castSucc from rfl, inv_after, inv_before]
  rw [show (dat1 V c).leavesExact 0 t = owns (c : Thread nD τ) ((cfg1.win 0).stage (cfg1.slots t 0)) fullShare (blockAt V c 0 t) from by
    rw [← after_operand0]]
  rw [show (dat1 V c).leavesExact 1 t = owns (c : Thread nD τ) ((cfg1.win 1).stage (cfg1.slots t 1)) fullShare (blockAt V c 1 t) from by
    rw [← after_operand1]]
  rw [show (dat1 V c).leavesExact 2 t = owns (c : Thread nD τ) ((cfg1.win 2).stage (cfg1.slots t 2)) fullShare (blockAt V c 2 t) from by
    rw [← after_operand2]]
  rw [show (dat1 V c).leavesExact 3 t = owns (c : Thread nD τ) ((cfg1.win 3).stage (cfg1.slots t 3)) fullShare (blockAt V c 3 t) from by
    rw [← after_operand3]]
  rw [show (dat1 V c).leavesExact 4 t = owns (c : Thread nD τ) ((cfg1.win 4).stage (cfg1.slots t 4)) fullShare (blockAt V c 4 t) from by
    rw [← after_operand4]]
  rw [show (dat1 V c).leavesExact 5 t = owns (c : Thread nD τ) ((cfg1.win 5).stage (cfg1.slots t 5)) fullShare (blockAt V c 5 t) from by
    rw [← after_operand5]]
  rw [show (dat1 V c).leavesExact 6 t = owns (c : Thread nD τ) ((cfg1.win 6).stage (cfg1.slots t 6)) fullShare (blockAt V c 6 t) from by
    rw [← after_operand6]]
  rw [show (dat1 V c).leavesExact 7 t = owns (c : Thread nD τ) ((cfg1.win 7).stage (cfg1.slots t 7)) fullShare (blockAt V c 7 t) from by
    rw [← after_operand7]]
  rw [show (dat1 V c).leavesExact 8 t = owns (c : Thread nD τ) ((cfg1.win 8).stage (cfg1.slots t 8)) fullShare (blockAt V c 8 t) from by
    rw [← after_operand8]]
  have hN := point_lt t
  by_cases hz : t.val = 0
  · -- the first point
    have h0 : atFirst (grid1.coords t) := (atFirst_iff t).mpr hz
    have h1 : ¬atLast (grid1.coords t) := fun h => by have := (atLast_iff t).mp h; omega
    rw [Dat.leavesExact_idle (dat1 V c) 9 t (idle_out9 t h1) (unflushed_out9 t (by omega)),
      Dat.leavesExact_idle (dat1 V c) 10 t (idle_out10 t h1) (unflushed_out10 t (by omega))]
    rw [carried_zero V c _ _ hz, handed_eq, sumsAt_first V c t hz]
    dsimp only [stepSums]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
      ((dat1 V c).before 9 t d9) ((dat1 V c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hrest Hg]
    · isplitl [HS0 HS1 Hrest]
      · isplitl [HS0 HS1]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases hl : t.val = 63
    · -- the last point
      have h0 : ¬atFirst (grid1.coords t) := fun h => hz ((atFirst_iff t).mp h)
      have h1 : atLast (grid1.coords t) := (atLast_iff t).mpr hl
      rw [show (dat1 V c).leavesExact 9 t = owns (c : Thread nD τ) ((cfg1.win 9).stage (cfg1.slots t 9)) fullShare ((dat1 V c).after 9 t) from by
        unfold Dat.leavesExact; rw [live_out9 t h1], after_mean]
      rw [show (dat1 V c).leavesExact 10 t = owns (c : Thread nD τ) ((cfg1.win 10).stage (cfg1.slots t 10)) fullShare ((dat1 V c).after 10 t) from by
        unfold Dat.leavesExact; rw [live_out10 t h1], after_var]
      rw [carried_pos V c _ _ hz, sumsAt_later V c t hz]
      dsimp only [stepSums]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_last c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
        _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a point in between
      have h0 : ¬atFirst (grid1.coords t) := fun h => hz ((atFirst_iff t).mp h)
      have h1 : ¬atLast (grid1.coords t) := fun h => hl ((atLast_iff t).mp h)
      rw [Dat.leavesExact_idle (dat1 V c) 9 t (idle_out9 t h1) (unflushed_out9 t hl),
        Dat.leavesExact_idle (dat1 V c) 10 t (idle_out10 t h1) (unflushed_out10 t hl)]
      rw [carried_pos V c _ _ hz, sumsAt_later V c t hz]
      dsimp only [stepSums]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_between c (grid1.coords t) _ _ _ _ _ _ _ _ _ _ _ _ _ _ _ _ _ _ _ _ _ _ _ _ _ _ h0 h1 (blockAt V c 0 t) (blockAt V c 1 t) (blockAt V c 2 t) (blockAt V c 3 t) (blockAt V c 4 t) (blockAt V c 5 t) (blockAt V c 6 t) (blockAt V c 7 t) (blockAt V c 8 t)
        ((dat1 V c).before 9 t d9) ((dat1 V c).before 10 t d10) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

end Stats2

/-- The library's body obligation for this region, at every point. -/
theorem body_obligation1 (c : Dev nD) :
    BodyObligation (dat1 (F := F) V c) (defs₀ (F := F)) Variants.none () Set.univ := fun t => by
  rw [bigSep_W1, bigSep_W1]
  exact at_point V c t

/-- What the launch hands the region is the invariant before the first point. -/
theorem hin1 (c : Dev nD) : Pipeline.ΦA spec1 c ⊢ (dat1 V c).Φ 0 := by
  have e : (dat1 V c).Φ 0 = Pipeline.ΦA spec1 c := rfl
  rw [e]

/-- After the last point the invariant gives back what the launch handed over: the sums in the scratch rows are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = carried V c (Fin.last cfg1.N).val (Nat.le_of_lt_succ (Fin.last cfg1.N).isLt) from rfl,
    carried_pos V c _ _ hne, handed_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.KernelIdeal.Hand

end
-- ==== Proof.FinalRegion.lean ====
import proofs.«159717_j8890582303003_2_alg».proof.Proof.Gen.KernelIdeal.Launch
import proofs.«159717_j8890582303003_2_alg».proof.Proof.Gen.KernelIdeal.Skeleton
import proofs.«159717_j8890582303003_2_alg».proof.Proof.Gen.KernelIdeal.Points
import Idealize.ShloMosaic.Lib.Pipeline.FrameBody
import Idealize.ShloMosaic.Lib.Pipeline.Value
import Idealize.ShloMosaic.Lib.Tactic

/-!
# The closing call of the residual block, one grid point at a time

The third kernel call walks 64 grid points. At point `t` its body sees thirteen staged operands:
rows `4096·t … 4096·t + 4095` of the activation matrix `x`, and twelve small operands that do not move
with `t` — two transposed weight matrices `W₁`, `W₂`, and ten single rows (biases `b`, column means `μ`,
column variances `v`, scales `γ`, shifts `β`, one set per layer). It overwrites the whole staged output
tile with

  `relu(((relu(((x·W₁ + b₁ − μ₁)·rsqrt(v₁ + ε))·γ₁ + β₁)·W₂ + b₂ − μ₂)·rsqrt(v₂ + ε))·γ₂ + β₂) + x`,

and carries nothing over to the next point. So the call is described by ONE pure function of thirteen tiles,
`Final.finalBlock`. This file proves that the body computes it (`Final.final_kernel_spec`), that every operand's tile is in
place at every point whether or not a transfer just brought it (`Final.present_0` … `Final.present_12`), and packages both as the
per-point data `dat2` and obligation `body_obligation2` which the pipeline rule consumes. Everything is
generic in the float instance and in the buffer contents `V` found when the call starts.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Final

/-! ## Tiles -/

/-- The tile of operand `w` at grid point `t`: the part of the operand's array, with the contents the call
    found, that the operand's index map selects at `t`. -/
def tile (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The body as a pure function -/

/-- What the body writes, from the thirteen tiles it reads. The inner term is the second layer's product
    `relu(norm₁(x·W₁ + b₁))·W₂`; the outer one adds `b₂`, normalises with the second set of moments, clamps
    at zero and adds `x` back. (The two terms take variance before mean: that is the order in which the body
    loads them.) -/
def finalBlock (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) : Vec F S4096x128 .f32 :=
  k2_pay1 x (k2_pay2 x W₁ b₁ v₁ μ₁ γ₁ β₁ W₂) b₂ v₂ μ₂ γ₂ β₂

/-- A two-axis offset of zeros, in the two spellings that occur. -/
theorem zero_offsets : (![0, 0] : Fin 2 → Nat) = fun _ => 0 := funext fun a => by fin_cases a <;> rfl

/-- A store over a whole 4096 × 128 buffer leaves no cell of it unwritten. -/
theorem whole_store_covers (p0 : Vec F S4096x128 .f32) (y : S4096x128.Idx) :
    ∃ pc ∈ ([⟨Rect.unit (s := S4096x128) ![0, 0] S4096x128.size inb_S4096x128_S4096x128_0_0, p0⟩] :
      List (View.Piece (Elt F) S4096x128 .f32)), y ∈ pc.1.set :=
  ⟨_, List.mem_singleton_self _, View.mem_set_unit_zero zero_offsets inb_S4096x128_S4096x128_0_0 y⟩

/-! ## The body's triple -/

/-- The thirteen operands' staging buffers, each held whole at given contents. -/
def operandsHeld (c : Dev nD) (a0 : Memref sig .tc .vmem S4096x128 .f32) (a1 : Memref sig .tc .vmem S128x128 .f32) (a2 : Memref sig .tc .vmem S1x128 .f32) (a3 : Memref sig .tc .vmem S1x128 .f32) (a4 : Memref sig .tc .vmem S1x128 .f32) (a5 : Memref sig .tc .vmem S1x128 .f32) (a6 : Memref sig .tc .vmem S1x128 .f32) (a7 : Memref sig .tc .vmem S128x128 .f32) (a8 : Memref sig .tc .vmem S1x128 .f32) (a9 : Memref sig .tc .vmem S1x128 .f32) (a10 : Memref sig .tc .vmem S1x128 .f32) (a11 : Memref sig .tc .vmem S1x128 .f32) (a12 : Memref sig .tc .vmem S1x128 .f32) (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) : sProp 𝕄 :=
  iprop(owns (c : Thread nD τ) a0 fullShare x ∗ owns (c : Thread nD τ) a1 fullShare W₁ ∗ owns (c : Thread nD τ) a2 fullShare b₁ ∗ owns (c : Thread nD τ) a3 fullShare μ₁ ∗ owns (c : Thread nD τ) a4 fullShare v₁ ∗ owns (c : Thread nD τ) a5 fullShare γ₁ ∗ owns (c : Thread nD τ) a6 fullShare β₁ ∗ owns (c : Thread nD τ) a7 fullShare W₂ ∗ owns (c : Thread nD τ) a8 fullShare b₂ ∗ owns (c : Thread nD τ) a9 fullShare μ₂ ∗ owns (c : Thread nD τ) a10 fullShare v₂ ∗ owns (c : Thread nD τ) a11 fullShare γ₂ ∗ owns (c : Thread nD τ) a12 fullShare β₂)

/-- A buffer held at contents `f` is held at contents that read as `f` reads. -/
local macro "hand_back " h:ident f:ident : tactic =>
  `(tactic| (iexists $f:ident; isplitr; (· ipureintro; rfl); iexact $h:ident))

set_option maxHeartbeats 4000000 in
/-- Started with the operands' buffers at `x, W₁, …, β₂` and the output buffer at anything, the body ends with the
    operands' buffers as they were and the output buffer at `finalBlock` of them. Each load reads a whole buffer,
    so it reads the contents themselves; the one store overwrites the whole output buffer, so afterwards the buffer
    reads as the stored value, whatever it held. -/
theorem final_kernel_spec (c : Dev nD) (E : Set ℕ) (i : grid2.Coords) (a0 : Memref sig .tc .vmem S4096x128 .f32) (h0 : a0.IsWhole) (a1 : Memref sig .tc .vmem S128x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S1x128 .f32) (h12 : a12.IsWhole) (a13 : Memref sig .tc .vmem S4096x128 .f32) (h13 : a13.IsWhole)
    (x : Vec F S4096x128 .f32) (W₁ : Vec F S128x128 .f32) (b₁ : Vec F S1x128 .f32) (μ₁ : Vec F S1x128 .f32) (v₁ : Vec F S1x128 .f32) (γ₁ : Vec F S1x128 .f32) (β₁ : Vec F S1x128 .f32) (W₂ : Vec F S128x128 .f32) (b₂ : Vec F S1x128 .f32) (μ₂ : Vec F S1x128 .f32) (v₂ : Vec F S1x128 .f32) (γ₂ : Vec F S1x128 .f32) (β₂ : Vec F S1x128 .f32) (K : PUnit → sProp 𝕄) :
    iprop(operandsHeld c a0 a1 a2 a3 a4 a5 a6 a7 a8 a9 a10 a11 a12 x W₁ b₁ μ₁ v₁ γ₁ β₁ W₂ b₂ μ₂ v₂ γ₂ β₂ ∗ (∃ d, owns (c : Thread nD τ) a13 fullShare d)
        ∗ (iprop(operandsHeld c a0 a1 a2 a3 a4 a5 a6 a7 a8 a9 a10 a11 a12 x W₁ b₁ μ₁ v₁ γ₁ β₁ W₂ b₂ μ₂ v₂ γ₂ β₂ ∗ owns (c : Thread nD τ) a13 fullShare (finalBlock x W₁ b₁ μ₁ v₁ γ₁ β₁ W₂ b₂ μ₂ v₂ γ₂ β₂)) -∗ K ⟨⟩))
      ⊢ wp frame (wpE (defs₀ (F := F)) Variants.none c none) E (cc2__final_kernel i a0 h0 a1 h1 a2 h2 a3 h3 a4 h4 a5 h5 a6 h6 a7 h7 a8 h8 a9 h9 a10 h10 a11 h11 a12 h12 a13 h13) K := by
  simp only [cc2__final_kernel_eq_skeleton]; unfold cc2__final_kernel_skel
  simp only [k2_part1_eq_skeleton]; unfold k2_part1_skel
  unfold operandsHeld owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d, %g, -, Hout⟩, Hk⟩
  subst_vars
  sl_exec
  sl_step
  iapply Hk
  isplitr [Hout]
  · -- the operands come back as they were
    isplitl [H0]
    · hand_back H0 f0
    isplitl [H1]
    · hand_back H1 f1
    isplitl [H2]
    · hand_back H2 f2
    isplitl [H3]
    · hand_back H3 f3
    isplitl [H4]
    · hand_back H4 f4
    isplitl [H5]
    · hand_back H5 f5
    isplitl [H6]
    · hand_back H6 f6
    isplitl [H7]
    · hand_back H7 f7
    isplitl [H8]
    · hand_back H8 f8
    isplitl [H9]
    · hand_back H9 f9
    isplitl [H10]
    · hand_back H10 f10
    isplitl [H11]
    · hand_back H11 f11
    hand_back H12 f12
  -- the output buffer reads as the stored value
  iexists _; isplitr; swap; · iexact Hout
  ipureintro
  refine (View.read_writes_eq_canon _ _ _ (whole_store_covers _)).trans ?_
  rw [View.canon_unit_zero zero_offsets]
  dsimp only
  simp only [View.readAt_eq_ld, View.ld_unit_zero (S := S4096x128) zero_offsets,
    View.ld_unit_zero (S := S128x128) zero_offsets, View.ld_unit_zero (S := S1x128) zero_offsets]
  rfl

end Final

open Final

/-! ## The per-point data -/

/-- The data of the pipeline rule on core `c`: the arrays as found; after the body at point `t` every operand's buffer
    still at its tile and the output buffer at `finalBlock` of the tiles; the invariant that nothing else is touched;
    full shares; no debts to other cores. -/
def dat2 (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => tile V c 8 t
    | ⟨9, _⟩ => tile V c 9 t
    | ⟨10, _⟩ => tile V c 10 t
    | ⟨11, _⟩ => tile V c 11 t
    | ⟨12, _⟩ => tile V c 12 t
    | ⟨13, _⟩ => finalBlock (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t)
  Φ _ := Pipeline.ΦA spec2 c
  q _ := fullShare
  owed _ := 0

theorem A_eq2 (c : Dev nD) (w : Fin cfg2.W) : (dat2 V c).A w = V c (Pipeline.arrRef spec2 w) := by
  dsimp only [dat2]

namespace Final

/-- The body leaves every operand's buffer at its tile (the data's definition, projected window by window: the tile's
    type depends on the window, so there is one statement per window). -/
theorem kept_0 (c : Dev nD) (t : Fin cfg2.N) : (dat2 V c).after 0 t = tile V c 0 t := by dsimp only [dat2]
theorem kept_1 (c : Dev nD) (t : Fin cfg2.N) : (dat2 V c).after 1 t = tile V c 1 t := by dsimp only [dat2]
theorem kept_2 (c : Dev nD) (t : Fin cfg2.N) : (dat2 V c).after 2 t = tile V c 2 t := by dsimp only [dat2]
theorem kept_3 (c : Dev nD) (t : Fin cfg2.N) : (dat2 V c).after 3 t = tile V c 3 t := by dsimp only [dat2]
theorem kept_4 (c : Dev nD) (t : Fin cfg2.N) : (dat2 V c).after 4 t = tile V c 4 t := by dsimp only [dat2]
theorem kept_5 (c : Dev nD) (t : Fin cfg2.N) : (dat2 V c).after 5 t = tile V c 5 t := by dsimp only [dat2]
theorem kept_6 (c : Dev nD) (t : Fin cfg2.N) : (dat2 V c).after 6 t = tile V c 6 t := by dsimp only [dat2]
theorem kept_7 (c : Dev nD) (t : Fin cfg2.N) : (dat2 V c).after 7 t = tile V c 7 t := by dsimp only [dat2]
theorem kept_8 (c : Dev nD) (t : Fin cfg2.N) : (dat2 V c).after 8 t = tile V c 8 t := by dsimp only [dat2]
theorem kept_9 (c : Dev nD) (t : Fin cfg2.N) : (dat2 V c).after 9 t = tile V c 9 t := by dsimp only [dat2]
theorem kept_10 (c : Dev nD) (t : Fin cfg2.N) : (dat2 V c).after 10 t = tile V c 10 t := by dsimp only [dat2]
theorem kept_11 (c : Dev nD) (t : Fin cfg2.N) : (dat2 V c).after 11 t = tile V c 11 t := by dsimp only [dat2]
theorem kept_12 (c : Dev nD) (t : Fin cfg2.N) : (dat2 V c).after 12 t = tile V c 12 t := by dsimp only [dat2]

/-- The body leaves the output buffer at `finalBlock` of the tiles. -/
theorem output_left (c : Dev nD) (t : Fin cfg2.N) :
    (dat2 V c).after 13 t = finalBlock (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t) := by
  dsimp only [dat2]

set_option hygiene false in
/-- An operand's tile is in its staging buffer at EVERY point. Where a transfer has just landed this is what the
    transfer brought. Where none has — operands 1 to 12 are brought once, at the first point — the index map has
    not moved since the previous point, the body left the buffer alone there (`hk`), and the previous point's tile is
    this point's. The windows are not cut, so a tile fills its buffer. -/
local macro "tile_in_place " hk:ident : tactic => `(tactic|
  exact ((dat2 V c).before_in_eq_fetched _ rfl (fun _ => rfl) (fun _ _ _ => rfl)
      (fun s => by rw [$hk:ident]; unfold Dat.blockOf tile; rw [A_eq2]) t d).trans
    (by unfold Dat.fetched Dat.blockOf tile; rw [A_eq2]; try rfl))

theorem present_0 (c : Dev nD) (t : Fin cfg2.N) (d) : (dat2 V c).before 0 t d = tile V c 0 t := by tile_in_place kept_0
theorem present_1 (c : Dev nD) (t : Fin cfg2.N) (d) : (dat2 V c).before 1 t d = tile V c 1 t := by tile_in_place kept_1
theorem present_2 (c : Dev nD) (t : Fin cfg2.N) (d) : (dat2 V c).before 2 t d = tile V c 2 t := by tile_in_place kept_2
theorem present_3 (c : Dev nD) (t : Fin cfg2.N) (d) : (dat2 V c).before 3 t d = tile V c 3 t := by tile_in_place kept_3
theorem present_4 (c : Dev nD) (t : Fin cfg2.N) (d) : (dat2 V c).before 4 t d = tile V c 4 t := by tile_in_place kept_4
theorem present_5 (c : Dev nD) (t : Fin cfg2.N) (d) : (dat2 V c).before 5 t d = tile V c 5 t := by tile_in_place kept_5
theorem present_6 (c : Dev nD) (t : Fin cfg2.N) (d) : (dat2 V c).before 6 t d = tile V c 6 t := by tile_in_place kept_6
theorem present_7 (c : Dev nD) (t : Fin cfg2.N) (d) : (dat2 V c).before 7 t d = tile V c 7 t := by tile_in_place kept_7
theorem present_8 (c : Dev nD) (t : Fin cfg2.N) (d) : (dat2 V c).before 8 t d = tile V c 8 t := by tile_in_place kept_8
theorem present_9 (c : Dev nD) (t : Fin cfg2.N) (d) : (dat2 V c).before 9 t d = tile V c 9 t := by tile_in_place kept_9
theorem present_10 (c : Dev nD) (t : Fin cfg2.N) (d) : (dat2 V c).before 10 t d = tile V c 10 t := by tile_in_place kept_10
theorem present_11 (c : Dev nD) (t : Fin cfg2.N) (d) : (dat2 V c).before 11 t d = tile V c 11 t := by tile_in_place kept_11
theorem present_12 (c : Dev nD) (t : Fin cfg2.N) (d) : (dat2 V c).before 12 t d = tile V c 12 t := by tile_in_place kept_12

/-- The invariant does not change from point to point, -/
theorem inv_eq (c : Dev nD) (n : Fin (cfg2.N + 1)) : (dat2 V c).Φ n = Pipeline.ΦA spec2 c := by dsimp only [dat2]

/-- nor do the debts: there are none. -/
theorem debts_eq (c : Dev nD) (n n' : Fin (cfg2.N + 1)) : (dat2 V c).owesAt () n = (dat2 V c).owesAt () n' := rfl

/-! ## The obligation -/

set_option maxHeartbeats 1000000 in
/-- One point of the pipeline: handed every window's current staging buffer as the pipeline left it, the body hands
    them back as `dat2` says, the invariant and the debts untouched. -/
theorem point_step (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d))
      ∗ (∃ d, owns (c : Thread nD τ) (st2_9 t) fullShare ((dat2 V c).before 9 t d))
      ∗ (∃ d, owns (c : Thread nD τ) (st2_10 t) fullShare ((dat2 V c).before 10 t d))
      ∗ (∃ d, owns (c : Thread nD τ) (st2_11 t) fullShare ((dat2 V c).before 11 t d))
      ∗ (∃ d, owns (c : Thread nD τ) (st2_12 t) fullShare ((dat2 V c).before 12 t d))
      ∗ (∃ d, owns (c : Thread nD τ) (st2_13 t) fullShare ((dat2 V c).before 13 t d)))
    ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t)
        ∗ owns (c : Thread nD τ) (st2_7 t) fullShare ((dat2 V c).after 7 t)
        ∗ owns (c : Thread nD τ) (st2_8 t) fullShare ((dat2 V c).after 8 t)
        ∗ owns (c : Thread nD τ) (st2_9 t) fullShare ((dat2 V c).after 9 t)
        ∗ owns (c : Thread nD τ) (st2_10 t) fullShare ((dat2 V c).after 10 t)
        ∗ owns (c : Thread nD τ) (st2_11 t) fullShare ((dat2 V c).after 11 t)
        ∗ owns (c : Thread nD τ) (st2_12 t) fullShare ((dat2 V c).after 12 t)
        ∗ owns (c : Thread nD τ) (st2_13 t) fullShare ((dat2 V c).after 13 t)) := by
  unfold bodyAt2
  rw [debts_eq V c t.succ t.castSucc]
  simp only [inv_eq, present_0, present_1, present_2, present_3, present_4, present_5, present_6, present_7, present_8, present_9, present_10, present_11, present_12, kept_0, kept_1, kept_2, kept_3, kept_4, kept_5, kept_6, kept_7, kept_8, kept_9, kept_10, kept_11, kept_12, output_left]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (final_kernel_spec c Set.univ (grid2.coords t) _ _ _ _ _ _ _ _ _ _ _ _ _ _ _ _ _ _ _ _ _ _ _ _ _ _ _ _ (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t) _)
  unfold operandsHeld
  isplitl [H0 H1 H2 H3 H4 H5 H6 H7 H8 H9 H10 H11 H12]
  · iframe
  isplitl [H13]; · iexists _; iexact H13
  iintro ⟨⟨H0, H1, H2, H3, H4, H5, H6, H7, H8, H9, H10, H11, H12⟩, H13⟩
  isplitl [HΦ]; · iexact HΦ
  isplitl [Ho]; · iexact Ho
  iframe

end Final

theorem body_obligation2 (c : Dev nD) :
    BodyObligation (dat2 (F := F) V c) (defs₀ (F := F)) Variants.none () Set.univ := fun t => by
  rw [bigSep_W2, bigSep_W2]
  exact point_step V c t

/-- Before the first point the invariant is the plain one, -/
theorem hin2 (c : Dev nD) : (Pipeline.ΦA spec2 c : sProp 𝕄) ⊢ (dat2 V c).Φ 0 := .rfl

/-- and so it is after the last. -/
theorem hout2 (c : Dev nD) : (dat2 V c).Φ (Fin.last cfg2.N) ⊢ (Pipeline.ΦA spec2 c : sProp 𝕄) := .rfl

end Cert.KernelIdeal.Hand

end
-- ==== Proof.KernelRun.lean ====
/-
  The run of the kernel program: eight host operations (two weight transposes, six vectors laid out as
  one-row matrices), then three passes over the 64 row tiles — the first layer's column moments, the
  second layer's column moments, the block itself.

  Between two items of the program a core's unscoped buffers hold named contents `B0 … B4`: the launch
  memory, then the host operations applied, then after each pass that pass's arrays at what it leaves
  (an input array as entered, an output array its write-backs folded) and every other buffer untouched.
  One definition turns the facts of any pass — its arrays at the contents before it, its body obligation,
  how its invariant is entered and left, what its arrays hold afterwards — into the pass's segment of the run;
  it is used three times.  The run then ends with every unscoped buffer, the arguments and the result among
  them, read off `B4`.
-/
import proofs.«159717_j8890582303003_2_alg».proof.Proof.Stats1Region
import proofs.«159717_j8890582303003_2_alg».proof.Proof.Stats2Region
import proofs.«159717_j8890582303003_2_alg».proof.Proof.FinalRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What every segment shares -/

/-- No pass has a prefetched table. -/
abbrev adm : (p : Fin 3) → (pcfgs (F := F) p).Adm := fun p => (cfgs p).toPCfg_adm
abbrev noVariants : Variants := Variants.none
/-- No core owes another anything, so no level is assigned. -/
abbrev noLevels : GSem nD τ sig → Finset Unit := fun _ => ∅
abbrev levelZero : GSem nD τ sig → Unit → ℕ := fun _ _ => 0
/-- What travels beside the buffers: the generator register at some state, and the core owing nothing. -/
abbrev Beside (c : Dev nD) : sProp 𝕄 :=
  iprop((∃ r, prngReg c r) ∗ ∃ W, owes (c : Thread nD τ) (0 : CellTallies nD τ sig Unit) W)
/-- Every unscoped buffer of core `c` at the contents `B`. -/
abbrev Held (B : Valuation τ sig (Elt F)) (c : Dev nD) : sProp 𝕄 :=
  StableHlo.held (c : Thread nD τ) (Pipeline.ucRefs τ sig) B

/-- The generator register regrouped with the buffers, the dues last. -/
theorem regroup (B : Valuation τ sig (Elt F)) (c : Dev nD) :
    iprop(Held B c ∗ Beside c) ⊢ (iprop((Held B c ∗ ∃ r, prngReg c r) ∗ ∃ W, owes (c : Thread nD τ) (0 : CellTallies nD τ sig Unit) W) : sProp 𝕄) := by
  iintro ⟨Hbufs, Hreg, Hdues⟩
  isplitl [Hbufs Hreg]
  · isplitl [Hbufs]; · iexact Hbufs
    iexact Hreg
  iexact Hdues

/-! ## One pass as a segment -/

section Pass

variable (pd : (p : Fin 3) → (c : Dev nD) → Dat τ (Elt F) Unit ℕ (UR sig nD τ) ℕ (Pipeline.pin (pcfgs (F := F)) adm p) c)
  (p : Fin 3) (lf : Pipeline.LaunchFacts (nD := nD) (τ := τ) cfgs p)
  (Bin Bout : Dev nD → Valuation τ sig (Elt F))

set_option backward.isDefEq.respectTransparency.types false in
/-- A pass entered with the unscoped buffers at `Bin` and left with them at `Bout`.  On entry the pass's arrays
    are taken out of the unscoped buffers (they hold `Bin`, which is what the proof data start from), the
    generator register and the scoped buffers make the invariant's first state; on exit the invariant's last
    state gives both back and the arrays, now at what the pass leaves, rejoin the untouched buffers as `Bout`. -/
def passSeg
    (harr : ∀ c w, (pd p c).A w = Bin c (Proc.devRef .tc (Pipeline.arrRef (cfgs p).spec w)))
    (hshare : ∀ c w, (pd p c).q w = fullShare)
    (howed : ∀ c t, (pd p c).owed t = 0)
    (hrec : ∀ c t, (pd p c).recorded t = Set.univ)
    (hbody : ∀ c, Pipeline.BodyObligationLoose (pd p c) (defs₀ (F := F)) noVariants () Set.univ)
    (henter : ∀ c, (Pipeline.ΦA (cfgs p).spec c : sProp 𝕄) ⊢ (pd p c).Φ 0)
    (hleave : ∀ c, (pd p c).Φ (Fin.last (cfgs p).N) ⊢ (Pipeline.ΦA (cfgs p).spec c : sProp 𝕄))
    (hwrote : ∀ c w, (pd p c).arrAt w (cfgs p).N = Bout c (Proc.devRef .tc (Pipeline.arrRef (cfgs p).spec w)))
    (hkept : ∀ c (b : Ref sig .tc), b ∉ Finset.univ.image (Pipeline.arrRef (cfgs p).spec) →
      Bout c (Proc.devRef .tc b) = Bin c (Proc.devRef .tc b)) :
    Pipeline.RegionSeg (pcfgs (F := F)) adm pd () defs₀ noVariants noLevels levelZero p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ noLevels levelZero p howed
  pre c := iprop(Held (Bin c) c ∗ Beside c)
  post c := iprop(Held (Bout c) c ∗ Beside c)
  X c := iprop(∃ r, prngReg c r)
  Y c := iprop(∃ r, prngReg c r)
  Z c := Pipeline.unscopedRest (Ix := Unit) (Name := ℕ) (U := UR sig nD τ) (Lvl := ℕ) (cfgs p).spec c (fun b => Bin c b)
  hentry c := by
    rw [Pipeline.ownSems0_none]
    have take := Pipeline.arrays_of_unscopedBufs (p := p) (pcfgs (F := F)) adm pd lf.win lf.arr_whole c
      ((pd p c).share_full (hshare c)) (fun b => Bin c b) (harr c)
    rw [Pipeline.unscopedBufs_held] at take
    iintro ⟨⟨Hbufs, Hreg, Hdues⟩, -, -⟩
    ihave Hsplit := take $$ Hbufs
    icases Hsplit with ⟨Harrs, Hrest⟩
    imodintro
    isplitl [Harrs]; · iexact Harrs
    isplitr; · unfold Pipeline.prefHeld; rw [show (Finset.univ : Finset (Fin 0)) = ∅ from rfl, BI.bigSep_empty]; iempintro
    isplitl [Hdues]
    · unfold Pipeline.Dat.owesAt Pipeline.owesWithin Pipeline.Dat.bound
      rw [howed c 0, hrec c 0]
      icases Hdues with ⟨%W, Hdues⟩; iexists W; isplitr; · ipureintro; exact fun _ _ => Or.inl trivial
      iexact Hdues
    isplitl [Hreg]; · iexact Hreg
    iexact Hrest
  hin c := by
    have enter := henter c
    unfold Pipeline.ΦA at enter
    iintro ⟨Hreg, -, Hscoped⟩
    iapply enter
    isplitl [Hscoped]; · iexact Hscoped
    iexact Hreg
  hout c := by
    rw [Pipeline.ownSems0_none]
    have leave := hleave c
    unfold Pipeline.ΦA at leave
    iintro HΦ
    ihave Hback := leave $$ HΦ
    icases Hback with ⟨Hscoped, Hreg⟩
    isplitl [Hreg]; · iexact Hreg
    isplitr; · iempintro
    iexact Hscoped
  hexit c := by
    have join := Pipeline.unscopedBufs_of_arrays (p := p) (pcfgs (F := F)) adm (Ix := Unit) (Name := ℕ) (U := UR sig nD τ) (Lvl := ℕ)
      lf.win lf.arr_whole c pd ((pd p c).share_full (hshare c))
      (fun b => Bin c b) (fun b => Bout c b) ((pd p c).arrAt · (cfgs p).N) (hwrote c) (hkept c)
    rw [Pipeline.unscopedBufs_held] at join
    iintro ⟨Harrs, Hdues, Hreg, Hrest⟩
    imodintro
    isplitl [Harrs Hrest]
    · iapply join; isplitl [Harrs] <;> iassumption
    isplitl [Hreg]; · iexact Hreg
    unfold Pipeline.Dat.owesAt Pipeline.owesWithin
    rw [howed c (Fin.last (cfgs p).N)]
    icases Hdues with ⟨%W, -, Hdues⟩; iexists W; iexact Hdues

end Pass

variable (m : (ℓ : Loc nD τ sig) → Buf (Elt F) ℓ) (ρ : Dev nD → PrngReg)

/-! ## The buffer contents between the items -/

/-- At launch. -/
abbrev B0 : Dev nD → Valuation τ sig (Elt F) := fun c b => (s₀ m ρ).mem ((c : Dev nD), b)
/-- After the host operations. -/
abbrev B1 : Dev nD → Valuation τ sig (Elt F) := fun c => StableHlo.after hostOps0 (B0 m ρ c)
abbrev V1 : (c : Dev nD) → (b : Ref sig .tc) → Buf (Elt F) ((c : Thread nD τ).loc b) := fun c b => B1 m ρ c b

/-- After pass 1. -/
def B2 (c : Dev nD) : Valuation τ sig (Elt F) :=
  Pipeline.withArrays spec0 c (B1 m ρ c) fun w => (dat0 (V1 m ρ) c).arrAt w cfg0.N
abbrev V2 : (c : Dev nD) → (b : Ref sig .tc) → Buf (Elt F) ((c : Thread nD τ).loc b) := fun c b => B2 m ρ c b
theorem B2_arr (c : Dev nD) (w : Fin cfg0.W) :
    B2 m ρ c (Proc.devRef .tc (Pipeline.arrRef spec0 w)) = (dat0 (V1 m ρ) c).arrAt w cfg0.N :=
  Pipeline.withArrays_arr spec0 launch0.win.arr_inj c _ _ w
theorem B2_off (c : Dev nD) (b : Ref sig .tc) (hb : ∀ w, Pipeline.arrRef spec0 w ≠ b) :
    B2 m ρ c (Proc.devRef .tc b) = B1 m ρ c (Proc.devRef .tc b) :=
  Pipeline.withArrays_of_ne spec0 c _ _ b hb

/-- After pass 2. -/
def B3 (c : Dev nD) : Valuation τ sig (Elt F) :=
  Pipeline.withArrays spec1 c (B2 m ρ c) fun w => (dat1 (V2 m ρ) c).arrAt w cfg1.N
abbrev V3 : (c : Dev nD) → (b : Ref sig .tc) → Buf (Elt F) ((c : Thread nD τ).loc b) := fun c b => B3 m ρ c b
theorem B3_arr (c : Dev nD) (w : Fin cfg1.W) :
    B3 m ρ c (Proc.devRef .tc (Pipeline.arrRef spec1 w)) = (dat1 (V2 m ρ) c).arrAt w cfg1.N :=
  Pipeline.withArrays_arr spec1 launch1.win.arr_inj c _ _ w
theorem B3_off (c : Dev nD) (b : Ref sig .tc) (hb : ∀ w, Pipeline.arrRef spec1 w ≠ b) :
    B3 m ρ c (Proc.devRef .tc b) = B2 m ρ c (Proc.devRef .tc b) :=
  Pipeline.withArrays_of_ne spec1 c _ _ b hb

/-- After pass 3. -/
def B4 (c : Dev nD) : Valuation τ sig (Elt F) :=
  Pipeline.withArrays spec2 c (B3 m ρ c) fun w => (dat2 (V3 m ρ) c).arrAt w cfg2.N
abbrev V4 : (c : Dev nD) → (b : Ref sig .tc) → Buf (Elt F) ((c : Thread nD τ).loc b) := fun c b => B4 m ρ c b
theorem B4_arr (c : Dev nD) (w : Fin cfg2.W) :
    B4 m ρ c (Proc.devRef .tc (Pipeline.arrRef spec2 w)) = (dat2 (V3 m ρ) c).arrAt w cfg2.N :=
  Pipeline.withArrays_arr spec2 launch2.win.arr_inj c _ _ w
theorem B4_off (c : Dev nD) (b : Ref sig .tc) (hb : ∀ w, Pipeline.arrRef spec2 w ≠ b) :
    B4 m ρ c (Proc.devRef .tc b) = B3 m ρ c (Proc.devRef .tc b) :=
  Pipeline.withArrays_of_ne spec2 c _ _ b hb

/-! ## What no item changes -/

/-- A buffer none of the eight host operations writes holds its launch contents after them. -/
theorem host_keeps (c : Dev nD) (b : Ref sig .tc)
    (hb : b ∉ ([main_v0, main_v1, main_v2, main_v3, main_v4, main_v5, main_v6, main_v7] : List (Ref sig .tc))) :
    B1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.unary_writes, StableHlo.reshape_writes, Finset.mem_singleton]
  simp only [List.mem_cons, List.not_mem_nil, or_false, not_or] at hb
  obtain ⟨h0, h1, h2, h3, h4, h5, h6, h7⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7⟩

/-- A buffer that is no window's array of any pass holds after the three passes what it held before them. -/
theorem passes_keep (c : Dev nD) (b : Ref sig .tc) (h0 : ∀ w, Pipeline.arrRef spec0 w ≠ b) (h1 : ∀ w, Pipeline.arrRef spec1 w ≠ b)
    (h2 : ∀ w, Pipeline.arrRef spec2 w ≠ b) : B4 m ρ c (Proc.devRef .tc b) = B1 m ρ c (Proc.devRef .tc b) :=
  (B4_off m ρ c b h2).trans ((B3_off m ρ c b h1).trans (B2_off m ρ c b h0))

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat2 (V3 m ρ) c).arrAt_in 0 rfl _).trans (A_eq2 (V3 m ρ) c 0))
    _ = B2 m ρ c (Proc.devRef .tc main_arg0) := (B3_arr m ρ c 0).trans (((dat1 (V2 m ρ) c).arrAt_in 0 rfl _).trans (A_eq1 (V2 m ρ) c 0))
    _ = B1 m ρ c (Proc.devRef .tc main_arg0) := (B2_arr m ρ c 0).trans (((dat0 (V1 m ρ) c).arrAt_in 0 rfl _).trans (A_eq0 (V1 m ρ) c 0))
    _ = m ((c : Thread nD τ).loc main_arg0) := host_keeps m ρ c main_arg0 (by decide)

theorem B4_main_arg1 (c : Dev nD) : B4 m ρ c (Proc.devRef .tc main_arg1) = m ((c : Thread nD τ).loc main_arg1) :=
  (passes_keep m ρ c main_arg1 (by decide) (by decide) (by decide)).trans (host_keeps m ρ c main_arg1 (by decide))

theorem B4_main_arg2 (c : Dev nD) : B4 m ρ c (Proc.devRef .tc main_arg2) = m ((c : Thread nD τ).loc main_arg2) :=
  (passes_keep m ρ c main_arg2 (by decide) (by decide) (by decide)).trans (host_keeps m ρ c main_arg2 (by decide))

theorem B4_main_arg3 (c : Dev nD) : B4 m ρ c (Proc.devRef .tc main_arg3) = m ((c : Thread nD τ).loc main_arg3) :=
  (passes_keep m ρ c main_arg3 (by decide) (by decide) (by decide)).trans (host_keeps m ρ c main_arg3 (by decide))

theorem B4_main_arg4 (c : Dev nD) : B4 m ρ c (Proc.devRef .tc main_arg4) = m ((c : Thread nD τ).loc main_arg4) :=
  (passes_keep m ρ c main_arg4 (by decide) (by decide) (by decide)).trans (host_keeps m ρ c main_arg4 (by decide))

theorem B4_main_arg5 (c : Dev nD) : B4 m ρ c (Proc.devRef .tc main_arg5) = m ((c : Thread nD τ).loc main_arg5) :=
  (passes_keep m ρ c main_arg5 (by decide) (by decide) (by decide)).trans (host_keeps m ρ c main_arg5 (by decide))

theorem B4_main_arg6 (c : Dev nD) : B4 m ρ c (Proc.devRef .tc main_arg6) = m ((c : Thread nD τ).loc main_arg6) :=
  (passes_keep m ρ c main_arg6 (by decide) (by decide) (by decide)).trans (host_keeps m ρ c main_arg6 (by decide))

theorem B4_main_arg7 (c : Dev nD) : B4 m ρ c (Proc.devRef .tc main_arg7) = m ((c : Thread nD τ).loc main_arg7) :=
  (passes_keep m ρ c main_arg7 (by decide) (by decide) (by decide)).trans (host_keeps m ρ c main_arg7 (by decide))

theorem B4_main_arg8 (c : Dev nD) : B4 m ρ c (Proc.devRef .tc main_arg8) = m ((c : Thread nD τ).loc main_arg8) :=
  (passes_keep m ρ c main_arg8 (by decide) (by decide) (by decide)).trans (host_keeps m ρ c main_arg8 (by decide))

/-- The result's array at the end is what the third pass's write-backs leave. -/
theorem B4_main_v10 (c : Dev nD) : B4 m ρ c (Proc.devRef .tc main_v10) = (dat2 (V3 m ρ) c).arrAt 13 cfg2.N :=
  B4_arr m ρ c 13

/-! ## The three passes and the host stretch as the program's segments -/

/-- Every pass's proof data, each from the contents it is entered with (a literal match on the pass, so that the
    configuration at a numeral is the printed one). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

/-- Pass 1 as a segment, between the contents before it and after it. -/
def seg0 : Pipeline.RegionSeg (pcfgs (F := F)) adm (pdats m ρ) () defs₀ noVariants noLevels levelZero 0 :=
  passSeg (pdats m ρ) 0 launch0 (B1 m ρ) (B2 m ρ)
    (fun c w => A_eq0 (V1 m ρ) c w) (fun _ _ => rfl) (fun _ _ => rfl) (fun _ _ => rfl)
    (fun c => (body_obligation0 (V1 m ρ) c).loose)
    (fun c => hin0 (V1 m ρ) c) (fun c => hout0 (V1 m ρ) c)
    (fun c w => (B2_arr m ρ c w).symm)
    (fun c b hb => B2_off m ρ c b fun w e => hb (Finset.mem_image.mpr ⟨w, Finset.mem_univ _, e⟩))

/-- Pass 2 as a segment, between the contents before it and after it. -/
def seg1 : Pipeline.RegionSeg (pcfgs (F := F)) adm (pdats m ρ) () defs₀ noVariants noLevels levelZero 1 :=
  passSeg (pdats m ρ) 1 launch1 (B2 m ρ) (B3 m ρ)
    (fun c w => A_eq1 (V2 m ρ) c w) (fun _ _ => rfl) (fun _ _ => rfl) (fun _ _ => rfl)
    (fun c => (body_obligation1 (V2 m ρ) c).loose)
    (fun c => hin1 (V2 m ρ) c) (fun c => hout1 (V2 m ρ) c)
    (fun c w => (B3_arr m ρ c w).symm)
    (fun c b hb => B3_off m ρ c b fun w e => hb (Finset.mem_image.mpr ⟨w, Finset.mem_univ _, e⟩))

/-- Pass 3 as a segment, between the contents before it and after it. -/
def seg2 : Pipeline.RegionSeg (pcfgs (F := F)) adm (pdats m ρ) () defs₀ noVariants noLevels levelZero 2 :=
  passSeg (pdats m ρ) 2 launch2 (B3 m ρ) (B4 m ρ)
    (fun c w => A_eq2 (V3 m ρ) c w) (fun _ _ => rfl) (fun _ _ => rfl) (fun _ _ => rfl)
    (fun c => (body_obligation2 (V3 m ρ) c).loose)
    (fun c => hin2 (V3 m ρ) c) (fun c => hout2 (V3 m ρ) c)
    (fun c w => (B4_arr m ρ c w).symm)
    (fun c b hb => B4_off m ρ c b fun w e => hb (Finset.mem_image.mpr ⟨w, Finset.mem_univ _, e⟩))

/-- No host operation allocates a buffer. -/
theorem hostOps0_noFresh : (hostOps0 : List (HloOp τ sig (Elt F))).Forall fun op => op.fresh = ∅ := by
  simp only [List.Forall]; repeat' constructor

/-- The host stretch as a segment from the launch contents. -/
abbrev hostSeg : Pipeline.HostSeg (Name := ℕ) (U := UR sig nD τ) (pcfgs (F := F)) defs₀ noVariants noLevels levelZero :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_noFresh) op h) (B0 m ρ) Beside

/-- The program's four segments in order. -/
abbrev segs : List (Pipeline.Seg (pcfgs (F := F)) adm (pdats m ρ) () defs₀ noVariants noLevels levelZero) :=
  [.host (hostSeg m ρ), .region (seg0 m ρ), .region (seg1 m ρ), .region (seg2 m ρ)]

/-- The program is the run of its segments. -/
theorem main_is_segs (c : Dev nD) : main (F := F) c = Pipeline.Seg.run (segs m ρ) := (main_chain c).trans (by chain_rfl)

set_option backward.isDefEq.respectTransparency.types false in
/-- THE RUN.  From any memory with zero counters every weakly fair execution of the program on the TensorCores
    terminates, nothing faulting, and in every final state each unscoped buffer holds `B4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVariants noLevels levelZero m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (B0 m ρ c) c ∗ Beside c))
    (Tₙ := fun c => iprop(Held (B4 m ρ c) c ∗ ∃ r, prngReg c r))
    (hch := ⟨fun _ => .rfl, fun _ => .rfl, fun _ => .rfl, fun _ => .rfl, fun c => regroup (B4 m ρ c) c⟩)
    (hinit := by
      refine Pipeline.initEach noLevels levelZero fun c => ?_
      rw [show unscopedBufs c (fun b => m ((c : Thread nD τ).loc b)) = Held (B0 m ρ c) c
        from Pipeline.unscopedBufs_held c (B0 m ρ c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = B4 m ρ c b)
    (hfin := fun c s' => by
      iintro ⟨⟨Hbufs, -⟩, Hstate⟩
      unfold Held StableHlo.held
      imodintro
      iapply (pointsTo_read_all (Pipeline.ucRefs τ sig) (fun b => (((c : Thread nD τ)).1, b)) (B4 m ρ c) s')
      isplitl [Hbufs] <;> iassumption)
    (hQ := fun s h c => h c)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Spec.lean ====
/-
  The mathematics of the residual block, with no program in sight.

  A dense layer is `out(p,q) = ∑ₖ h(p,k)·W(q,k) + b(q)`.  Over the N rows of a column q the kernel forms
  the raw moments `s = ∑ₚ out`, `s₂ = ∑ₚ out²`, then `mean = s·N⁻¹`, `var = max (s₂·N⁻¹ − mean²) 0`, and
  normalises `max (((out − mean)·rsqrt(var + ε))·γ + β) 0`.  The reference first centres the column,
  `cen = out − (∑ₚ out)/N`, then applies a batch normalisation that subtracts the mean of `cen` once more
  and divides by the centred variance of `cen`.  For real entries the second mean is zero and the two
  variances agree (`s₂/N − (s/N)² = (1/N)·∑ (out − s/N)²`, which is never negative), so the two
  normalisations are one function; applied twice, with the input added back, they give the block.
-/
import Idealize.ShloMosaic.PureOps.Ideal

noncomputable section

namespace Cert.Spec

open Idealize.ShloMosaic
open scoped BigOperators

variable {n c : ℕ}

/-- A dense layer: row `p` of `h` against row `q` of `W`, plus the bias. -/
def lin (h : Fin n → Fin c → EReal) (W : Fin c → Fin c → EReal) (b : Fin c → EReal) : Fin n → Fin c → EReal :=
  fun p q => (∑ k, h p k * W q k) + b q

/-! ## The kernel's form: raw moments scaled by the reciprocal of the row count -/

/-- The column mean as the kernel forms it: the column sum times `iN`. -/
def kerMean (iN : EReal) (o : Fin n → Fin c → EReal) (q : Fin c) : EReal := (∑ p, o p q) * iN

/-- The column variance as the kernel forms it: the scaled sum of squares less the squared mean, clamped at 0. -/
def kerVar (iN : EReal) (o : Fin n → Fin c → EReal) (q : Fin c) : EReal :=
  max ((∑ p, o p q * o p q) * iN - kerMean iN o q * kerMean iN o q) 0

/-- Normalise, scale, shift, clamp at 0 — with the kernel's moments. -/
def kerNorm (iN eps : EReal) (o : Fin n → Fin c → EReal) (g be : Fin c → EReal) : Fin n → Fin c → EReal :=
  fun p q => max (((o p q - kerMean iN o q) * Ideal.rsqrt (kerVar iN o q + eps)) * g q + be q) 0

/-- The whole block as the kernel computes it. -/
def kerOut (iN eps : EReal) (x : Fin n → Fin c → EReal) (W1 : Fin c → Fin c → EReal) (b1 g1 be1 : Fin c → EReal)
    (W2 : Fin c → Fin c → EReal) (b2 g2 be2 : Fin c → EReal) : Fin n → Fin c → EReal :=
  fun p q => kerNorm iN eps (lin (kerNorm iN eps (lin x W1 b1) g1 be1) W2 b2) g2 be2 p q + x p q

/-! ## The reference's form: centre, then batch-normalise the centred column -/

/-- The column mean as the reference forms it: the column sum divided by `N`. -/
def refMean (N : EReal) (o : Fin n → Fin c → EReal) (q : Fin c) : EReal := Ideal.div (∑ p, o p q) N

/-- The centred column. -/
def refCen (N : EReal) (o : Fin n → Fin c → EReal) : Fin n → Fin c → EReal := fun p q => o p q - refMean N o q

/-- The centred (biased) variance of a column: the mean of the squared deviations from the column's mean. -/
def refVar (N : EReal) (o : Fin n → Fin c → EReal) (q : Fin c) : EReal :=
  Ideal.div (∑ p, (o p q - refMean N o q) * (o p q - refMean N o q)) N

/-- Centre the column, then subtract the centred column's mean, divide by the root of its variance plus ε,
    scale, shift, clamp at 0. -/
def refNorm (N eps : EReal) (o : Fin n → Fin c → EReal) (g be : Fin c → EReal) : Fin n → Fin c → EReal :=
  fun p q => max (((refCen N o p q - refMean N (refCen N o) q) * Ideal.rsqrt (refVar N (refCen N o) q + eps)) * g q + be q) 0

/-- The whole block as the reference computes it. -/
def refOut (N eps : EReal) (x : Fin n → Fin c → EReal) (W1 : Fin c → Fin c → EReal) (b1 g1 be1 : Fin c → EReal)
    (W2 : Fin c → Fin c → EReal) (b2 g2 be2 : Fin c → EReal) : Fin n → Fin c → EReal :=
  fun p q => refNorm N eps (lin (refNorm N eps (lin x W1 b1) g1 be1) W2 b2) g2 be2 p q + x p q

/-- An extended real that is a real number. -/
def IsReal (a : EReal) : Prop := ∃ r : ℝ, a = (r : EReal)

end Cert.Spec

end
-- ==== Proof.KerSpec.lean ====
/-
  The kernel's three passes in the specification's vocabulary.

  The kernel hands each pass the weights already transposed (`Wt(k,q) = W(q,k)`), the vectors as one-row
  matrices, and the moments of earlier passes as one-row matrices.  `linT` is the dense layer over a
  transposed weight, `normWith` the normalisation with the moments GIVEN; with the kernel's own moments of
  the same matrix it is the specification's `kerNorm`.
-/
import proofs.«159717_j8890582303003_2_alg».proof.Proof.Spec
import Idealize.ShloMosaic.Lib.ValueIdx

noncomputable section

namespace Cert.Spec

open Idealize.ShloMosaic
open scoped BigOperators

variable {n c : ℕ}

/-- A dense layer over an already transposed weight: `out(p,q) = ∑ₖ h(p,k)·Wt(k,q) + b(q)`. -/
def linT (h : Fin n → Fin c → EReal) (Wt : Fin c → Fin c → EReal) (b : Fin c → EReal) : Fin n → Fin c → EReal :=
  fun p q => (∑ k, h p k * Wt k q) + b q

/-- The dense layer over the transposed weight is the dense layer. -/
theorem linT_transpose (h : Fin n → Fin c → EReal) (W : Fin c → Fin c → EReal) (b : Fin c → EReal) :
    linT h (fun k q => W q k) b = lin h W b := rfl

/-- Normalise, scale, shift, clamp at 0 — with a column mean and a column variance given. -/
def normWith (mean var : Fin c → EReal) (eps : EReal) (o : Fin n → Fin c → EReal) (g be : Fin c → EReal) :
    Fin n → Fin c → EReal :=
  fun p q => max (((o p q - mean q) * Ideal.rsqrt (var q + eps)) * g q + be q) 0

/-- With the kernel's own moments of the matrix, `normWith` is `kerNorm`. -/
theorem normWith_ker (iN eps : EReal) (o : Fin n → Fin c → EReal) (g be : Fin c → EReal) :
    normWith (kerMean iN o) (kerVar iN o) eps o g be = kerNorm iN eps o g be := rfl

/-! ## Arrays of the kernel's shapes read as curried matrices -/

/-- An `[a, b]` array as a matrix of its entries. -/
def mat {a b : ℕ} (v : (⟨2, ![a, b]⟩ : Shape).Idx → EReal) : Fin a → Fin b → EReal := fun p q => v (ValueIdx.ix2 p q)

/-- A one-row `[1, b]` array as the vector of its entries. -/
def row {b : ℕ} (v : (⟨2, ![1, b]⟩ : Shape).Idx → EReal) : Fin b → EReal := fun q => v (ValueIdx.ix2 0 q)

/-- A `[b]` array as the vector of its entries. -/
def vec {b : ℕ} (v : (⟨1, ![b]⟩ : Shape).Idx → EReal) : Fin b → EReal := fun q => v (ValueIdx.ix1 q)

end Cert.Spec

end
-- ==== Proof.KernelReads.lean ====
/-
  What the kernel program's result holds, in the specification's vocabulary.

  The host operations hand the passes the two weights transposed and the six vectors as one-row matrices; a
  pass leaves every array it only reads as it found it; the first two passes leave the column moments of the
  first and of the second layer; the third pass leaves the block.  Put together, the result's entry (p, q) is
  the specification's kernel form of the block, of the nine argument arrays.
-/
import proofs.«159717_j8890582303003_2_alg».proof.Proof.KernelRun
import proofs.«159717_j8890582303003_2_alg».proof.Proof.KerSpec
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The arguments -/

/-- An argument array on core `c`, at launch. -/
abbrev arg (c : Dev nD) (b : Ref sig .tc) : Buf (Elt Ideal) ((c : Thread nD τ).loc b) := m ((c : Thread nD τ).loc b)

/-! ## What the host operations leave -/

/-- The first weight, transposed. -/
theorem host_v0 (c : Dev nD) : (V1 m ρ c main_v0 : S128x128.Idx → EReal)
    = transpose S128x128 [1, 0] (arg m c main_arg1 : S128x128.Idx → EReal) transposes_S128x128_S128x128_1_0 := by
  show StableHlo.after hostOps0 (B0 m ρ c) (Proc.devRef .tc main_v0) = _
  after_results
/-- The second weight, transposed. -/
theorem host_v1 (c : Dev nD) : (V1 m ρ c main_v1 : S128x128.Idx → EReal)
    = transpose S128x128 [1, 0] (arg m c main_arg5 : S128x128.Idx → EReal) transposes_S128x128_S128x128_1_0 := by
  show StableHlo.after hostOps0 (B0 m ρ c) (Proc.devRef .tc main_v1) = _
  after_results
/-- The vector `arg2` as a one-row matrix. -/
theorem host_v2 (c : Dev nD) : (V1 m ρ c main_v2 : S1x128.Idx → EReal)
    = shapeCast S1x128 (arg m c main_arg2 : S128.Idx → EReal) shapeCasts_S128_S1x128 := by
  show StableHlo.after hostOps0 (B0 m ρ c) (Proc.devRef .tc main_v2) = _
  after_results; rfl
/-- The vector `arg3` as a one-row matrix. -/
theorem host_v3 (c : Dev nD) : (V1 m ρ c main_v3 : S1x128.Idx → EReal)
    = shapeCast S1x128 (arg m c main_arg3 : S128.Idx → EReal) shapeCasts_S128_S1x128 := by
  show StableHlo.after hostOps0 (B0 m ρ c) (Proc.devRef .tc main_v3) = _
  after_results; rfl
/-- The vector `arg4` as a one-row matrix. -/
theorem host_v4 (c : Dev nD) : (V1 m ρ c main_v4 : S1x128.Idx → EReal)
    = shapeCast S1x128 (arg m c main_arg4 : S128.Idx → EReal) shapeCasts_S128_S1x128 := by
  show StableHlo.after hostOps0 (B0 m ρ c) (Proc.devRef .tc main_v4) = _
  after_results; rfl
/-- The vector `arg6` as a one-row matrix. -/
theorem host_v5 (c : Dev nD) : (V1 m ρ c main_v5 : S1x128.Idx → EReal)
    = shapeCast S1x128 (arg m c main_arg6 : S128.Idx → EReal) shapeCasts_S128_S1x128 := by
  show StableHlo.after hostOps0 (B0 m ρ c) (Proc.devRef .tc main_v5) = _
  after_results; rfl
/-- The vector `arg7` as a one-row matrix. -/
theorem host_v6 (c : Dev nD) : (V1 m ρ c main_v6 : S1x128.Idx → EReal)
    = shapeCast S1x128 (arg m c main_arg7 : S128.Idx → EReal) shapeCasts_S128_S1x128 := by
  show StableHlo.after hostOps0 (B0 m ρ c) (Proc.devRef .tc main_v6) = _
  after_results; rfl
/-- The vector `arg8` as a one-row matrix. -/
theorem host_v7 (c : Dev nD) : (V1 m ρ c main_v7 : S1x128.Idx → EReal)
    = shapeCast S1x128 (arg m c main_arg8 : S128.Idx → EReal) shapeCasts_S128_S1x128 := by
  show StableHlo.after hostOps0 (B0 m ρ c) (Proc.devRef .tc main_v7) = _
  after_results; rfl

/-- A transposed weight read as a matrix: entry (k, q) is the weight's entry (q, k). -/
theorem mat_transpose (W : S128x128.Idx → EReal) :
    Spec.mat (transpose S128x128 [1, 0] W transposes_S128x128_S128x128_1_0) = fun k q => Spec.mat W q k := by
  funext k q
  exact transpose_ix2_apply W transposes_S128x128_S128x128_1_0 k q

/-- A vector laid out as a one-row matrix, read as a row, is the vector. -/
theorem row_reshape (b : S128.Idx → EReal) : Spec.row (shapeCast S1x128 b shapeCasts_S128_S1x128) = Spec.vec b := by
  funext q
  show shapeCast S1x128 b shapeCasts_S128_S1x128 (ix2 0 q) = b (ix1 q)
  rw [shapeCast_addUnit_apply ![128] b shapeCasts_S128_S1x128 (ix2 0 q)]
  exact congrArg b (funext fun a => by match a with | ⟨0, _⟩ => rfl)

/-! ## A pass keeps the arrays it only reads -/

theorem pass1_reads (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (V1 m ρ) c).arrAt_in w hw _).trans (A_eq0 (V1 m ρ) c w))
theorem pass2_reads (c : Dev nD) (w : Fin cfg1.W) (hw : (cfg1.win w).isOut = false) :
    B3 m ρ c (Proc.devRef .tc (Pipeline.arrRef spec1 w)) = B2 m ρ c (Proc.devRef .tc (Pipeline.arrRef spec1 w)) :=
  (B3_arr m ρ c w).trans (((dat1 (V2 m ρ) c).arrAt_in w hw _).trans (A_eq1 (V2 m ρ) c w))

/-- The input matrix reaches every pass as launched. -/
theorem V1_arg0 (c : Dev nD) : V1 m ρ c main_arg0 = arg m c main_arg0 := host_keeps m ρ c main_arg0 (by decide)
theorem V2_arg0 (c : Dev nD) : V2 m ρ c main_arg0 = arg m c main_arg0 := (pass1_reads m ρ c 0 rfl).trans (V1_arg0 m ρ c)
theorem V3_arg0 (c : Dev nD) : V3 m ρ c main_arg0 = arg m c main_arg0 := (pass2_reads m ρ c 0 rfl).trans (V2_arg0 m ρ c)
/-- The first transposed weight and the first bias row reach the second and third pass as the host left them. -/
theorem V2_v0 (c : Dev nD) : V2 m ρ c main_v0 = V1 m ρ c main_v0 := pass1_reads m ρ c 1 rfl
theorem V3_v0 (c : Dev nD) : V3 m ρ c main_v0 = V1 m ρ c main_v0 := (pass2_reads m ρ c 1 rfl).trans (V2_v0 m ρ c)
theorem V2_v2 (c : Dev nD) : V2 m ρ c main_v2 = V1 m ρ c main_v2 := pass1_reads m ρ c 2 rfl
theorem V3_v2 (c : Dev nD) : V3 m ρ c main_v2 = V1 m ρ c main_v2 := (pass2_reads m ρ c 2 rfl).trans (V2_v2 m ρ c)
/-- The arrays the first pass does not touch. -/
theorem V2_v3 (c : Dev nD) : V2 m ρ c main_v3 = V1 m ρ c main_v3 := B2_off m ρ c main_v3 (by decide)
theorem V2_v4 (c : Dev nD) : V2 m ρ c main_v4 = V1 m ρ c main_v4 := B2_off m ρ c main_v4 (by decide)
theorem V2_v1 (c : Dev nD) : V2 m ρ c main_v1 = V1 m ρ c main_v1 := B2_off m ρ c main_v1 (by decide)
theorem V2_v5 (c : Dev nD) : V2 m ρ c main_v5 = V1 m ρ c main_v5 := B2_off m ρ c main_v5 (by decide)
theorem V2_v6 (c : Dev nD) : V2 m ρ c main_v6 = V1 m ρ c main_v6 := B2_off m ρ c main_v6 (by decide)
theorem V2_v7 (c : Dev nD) : V2 m ρ c main_v7 = V1 m ρ c main_v7 := B2_off m ρ c main_v7 (by decide)
/-- The second pass reads these, -/
theorem V3_v3 (c : Dev nD) : V3 m ρ c main_v3 = V1 m ρ c main_v3 := (pass2_reads m ρ c 5 rfl).trans (V2_v3 m ρ c)
theorem V3_v4 (c : Dev nD) : V3 m ρ c main_v4 = V1 m ρ c main_v4 := (pass2_reads m ρ c 6 rfl).trans (V2_v4 m ρ c)
theorem V3_v1 (c : Dev nD) : V3 m ρ c main_v1 = V1 m ρ c main_v1 := (pass2_reads m ρ c 7 rfl).trans (V2_v1 m ρ c)
theorem V3_v5 (c : Dev nD) : V3 m ρ c main_v5 = V1 m ρ c main_v5 := (pass2_reads m ρ c 8 rfl).trans (V2_v5 m ρ c)
/-- and does not touch these. -/
theorem V3_v6 (c : Dev nD) : V3 m ρ c main_v6 = V1 m ρ c main_v6 := (B3_off m ρ c main_v6 (by decide)).trans (V2_v6 m ρ c)
theorem V3_v7 (c : Dev nD) : V3 m ρ c main_v7 = V1 m ρ c main_v7 := (B3_off m ρ c main_v7 (by decide)).trans (V2_v7 m ρ c)
/-- The first layer's moments reach the third pass as the first pass left them. -/
theorem V3_v8_0 (c : Dev nD) : V3 m ρ c main_v8_0 = V2 m ρ c main_v8_0 := pass2_reads m ρ c 3 rfl
theorem V3_v8_1 (c : Dev nD) : V3 m ρ c main_v8_1 = V2 m ρ c main_v8_1 := pass2_reads m ρ c 4 rfl
/-- What the first and the second pass leave in their outputs. -/
theorem V2_v8_0 (c : Dev nD) : V2 m ρ c main_v8_0 = (dat0 (V1 m ρ) c).arrAt 3 cfg0.N := B2_arr m ρ c 3
theorem V2_v8_1 (c : Dev nD) : V2 m ρ c main_v8_1 = (dat0 (V1 m ρ) c).arrAt 4 cfg0.N := B2_arr m ρ c 4
theorem V3_v9_0 (c : Dev nD) : V3 m ρ c main_v9_0 = (dat1 (V2 m ρ) c).arrAt 9 cfg1.N := B3_arr m ρ c 9
theorem V3_v9_1 (c : Dev nD) : V3 m ρ c main_v9_1 = (dat1 (V2 m ρ) c).arrAt 10 cfg1.N := B3_arr m ρ c 10

end Cert.KernelIdeal.Hand

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«159717_j8890582303003_2_alg».proof.Proof.LibPlainDot
import proofs.«159717_j8890582303003_2_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.Stats1Value.lean ====
import proofs.«159717_j8890582303003_2_alg».proof.Proof.Stats1Region
import proofs.«159717_j8890582303003_2_alg».proof.Proof.KerSpec
import proofs.«159717_j8890582303003_2_alg».proof.Proof.LibTiles
import proofs.«159717_j8890582303003_2_alg».proof.Proof.LibVecIx2
import proofs.«159717_j8890582303003_2_alg».proof.Proof.LibDenseBias
import Idealize.ShloMosaic.Lib.ValueIdx
import Idealize.ShloMosaic.Lib.ValueLayout
import Idealize.ShloMosaic.Lib.Pipeline.Value
import Idealize.ShloMosaic.PureOps.Ideal.Laws

/-!
# The first statistics pass: what its two outputs are

On the extended reals the running totals of the first pass are plain sums: after point `n` the first scratch row holds,
in column `q`, the sum of the dense layer's outputs over the rows of tiles `0, …, n`, and the second the sum of their
squares.  Sixty-four tiles of 4096 rows are all 262144 rows, so after the last point the rows hold the column sums of
the whole layer output, and the two stored rows are the kernel's column mean and column variance of it.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators
open Stats1

/-- The reciprocal of the row count as the body spells it: the word of 2⁻¹⁸. -/
abbrev stats1_iN : EReal := Ideal.ofBits .f32 0x36800000#32

namespace Stats1

/-! ## The body's arithmetic, entry by entry -/

/-- The zero word is zero. -/
theorem zero_word : Ideal.ofBits .f32 0x00000000#32 = (0 : EReal) := by
  simp [Ideal.ofBits, Ideal.ieee]

/-- Both rows the first point starts from are zero. -/
theorem zero_row1 (q : Fin 128) : (k0_pay1 (F := Ideal)) (ix2 (0 : Fin 1) q) = 0 := zero_word
theorem zero_row2 (q : Fin 128) : (k0_pay2 (F := Ideal)) (ix2 (0 : Fin 1) q) = 0 := zero_word

/-- The dense layer on a tile: row `r` of the tile against column `q` of the transposed weight, plus the bias. -/
theorem layer_entry (x : Vec Ideal S4096x128 .f32) (w : Vec Ideal S128x128 .f32) (b : Vec Ideal S1x128 .f32)
    (r : Fin 4096) (q : Fin 128) :
    k0_pay3 x w b (ix2 r q) = (∑ k : Fin 128, x (ix2 r k) * w (ix2 k q)) + b (ix2 (0 : Fin 1) q) := by
  unfold k0_pay3
  simp only [shapeCast_self]
  refine congrArg₂ (· + ·) ?_ ?_
  · exact Cert.Lib.DenseBias.dense_block_entry bitsLt_bf16_f32 x w r q
  · exact Cert.Lib.DenseBias.row_down_entry b broadcasts_S1x128_S4096x128 r q

/-- The first total after a tile: what it held plus the tile's column sum. -/
theorem total1_entry (x : Vec Ideal S4096x128 .f32) (w : Vec Ideal S128x128 .f32) (b : Vec Ideal S1x128 .f32)
    (a : Vec Ideal S1x128 .f32) (q : Fin 128) :
    k0_pay4 x w b a (ix2 (0 : Fin 1) q) = a (ix2 (0 : Fin 1) q) + ∑ r : Fin 4096, k0_pay3 x w b (ix2 r q) := by
  unfold k0_pay4
  simp only [shapeCast_self]
  refine congrArg₂ (· + ·) rfl ?_
  refine (shapeCast_a_1a_apply _ shapeCasts_S128_S1x128 (0 : Fin 1) q).trans ?_
  exact Cert.Lib.VecIx2.reduce_rows' (k0_pay3 x w b) reduces_S4096x128_S128 (.inl rfl) rfl q

/-- The second total after a tile: what it held plus the tile's column sum of squares. -/
theorem total2_entry (x : Vec Ideal S4096x128 .f32) (w : Vec Ideal S128x128 .f32) (b : Vec Ideal S1x128 .f32)
    (a : Vec Ideal S1x128 .f32) (q : Fin 128) :
    k0_pay5 x w b a (ix2 (0 : Fin 1) q)
      = a (ix2 (0 : Fin 1) q) + ∑ r : Fin 4096, k0_pay3 x w b (ix2 r q) * k0_pay3 x w b (ix2 r q) := by
  unfold k0_pay5
  simp only [shapeCast_self]
  refine congrArg₂ (· + ·) rfl ?_
  refine (shapeCast_a_1a_apply _ shapeCasts_S128_S1x128 (0 : Fin 1) q).trans ?_
  exact Cert.Lib.VecIx2.reduce_rows' (mulf (k0_pay3 x w b) (k0_pay3 x w b)) reduces_S4096x128_S128 (.inl rfl) rfl q

/-- The mean row: the first total scaled by the reciprocal of the row count. -/
theorem mean_entry (a : Vec Ideal S1x128 .f32 × Vec Ideal S1x128 .f32) (q : Fin 128) :
    meanRow a (ix2 (0 : Fin 1) q) = a.1 (ix2 (0 : Fin 1) q) * stats1_iN := rfl

/-- The variance row: the scaled second total less the squared mean, clamped at zero. -/
theorem var_entry (a : Vec Ideal S1x128 .f32 × Vec Ideal S1x128 .f32) (q : Fin 128) :
    varRow a (ix2 (0 : Fin 1) q)
      = max (a.2 (ix2 (0 : Fin 1) q) * stats1_iN - (a.1 (ix2 (0 : Fin 1) q) * stats1_iN) * (a.1 (ix2 (0 : Fin 1) q) * stats1_iN)) 0 := by
  show max _ (Ideal.ofBits .f32 0x00000000#32) = _
  rw [zero_word]; rfl

/-! ## Tiles of the arrays -/

variable (V : (c : Dev nD) → (b : Ref sig .tc) → Buf (Elt Ideal) ((c : Thread nD τ).loc b))

/-- Where each window's block sits at point `t`: the input's tile moves down with the point, everything else stays at
    the origin. -/
theorem block_origin : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The dense layer's output on the whole input, in the specification's words. -/
abbrev layer (c : Dev nD) : Fin 262144 → Fin 128 → EReal :=
  Spec.linT (Spec.mat (V c main_arg0 : S262144x128.Idx → EReal)) (Spec.mat (V c main_v0 : S128x128.Idx → EReal))
    (Spec.row (V c main_v2 : S1x128.Idx → EReal))

/-- The same with the row given as a natural number (zero past the last row), so that tiles can be added up without
    carrying bounds. -/
def layerAt (c : Dev nD) (p : ℕ) (q : Fin 128) : EReal := if h : p < 262144 then layer V c ⟨p, h⟩ q else 0

theorem layerAt_lt (c : Dev nD) (p : ℕ) (h : p < 262144) (q : Fin 128) : layerAt V c p q = layer V c ⟨p, h⟩ q := dif_pos h

/-- Row `r` of the tile of point `t` is row `t·4096 + r` of the input. -/
theorem xTile_entry (c : Dev nD) (t : Fin cfg0.N) (r : Fin 4096) (k : Fin 128) (h : t.val * 4096 + r.val < 262144) :
    xTile V c t (ix2 r k) = (V c main_arg0 : S262144x128.Idx → EReal) (ix2 ⟨t.val * 4096 + r.val, h⟩ k) := by
  obtain ⟨e0, e1, -⟩ := block_origin t
  show (V c main_arg0 : S262144x128.Idx → EReal) (((cfg0.win 0).blk t).view.emb (ix2 r k)) = _
  refine congrArg (V c main_arg0 : S262144x128.Idx → EReal) (funext fun a => Fin.ext ?_)
  match a with
  | ⟨0, _⟩ => show win0_0.index t (0 : Fin 2) * 4096 + 1 * r.val = t.val * 4096 + r.val; omega
  | ⟨1, _⟩ => show win0_0.index t (1 : Fin 2) * 128 + 1 * k.val = k.val; omega

/-- Every point sees the whole transposed weight. -/
theorem wTile_entry (c : Dev nD) (t : Fin cfg0.N) (k q : Fin 128) :
    wTile V c t (ix2 k q) = (V c main_v0 : S128x128.Idx → EReal) (ix2 k q) := by
  obtain ⟨-, -, e0, e1, -⟩ := block_origin t
  show (V c main_v0 : S128x128.Idx → EReal) (((cfg0.win 1).blk t).view.emb (ix2 k q)) = _
  refine congrArg (V c main_v0 : S128x128.Idx → EReal) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Every point sees the whole bias row. -/
theorem bTile_entry (c : Dev nD) (t : Fin cfg0.N) (q : Fin 128) :
    bTile V c t (ix2 (0 : Fin 1) q) = (V c main_v2 : S1x128.Idx → EReal) (ix2 (0 : Fin 1) q) := by
  obtain ⟨-, -, -, -, e0, e1, -⟩ := block_origin t
  show (V c main_v2 : S1x128.Idx → EReal) (((cfg0.win 2).blk t).view.emb (ix2 (0 : Fin 1) q)) = _
  refine congrArg (V c main_v2 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The body's dense layer on the tile of point `t` is the specification's layer on rows `t·4096, …, t·4096 + 4095`. -/
theorem tile_layer (c : Dev nD) (t : Fin cfg0.N) (r : Fin 4096) (q : Fin 128) :
    k0_pay3 (xTile V c t) (wTile V c t) (bTile V c t) (ix2 r q) = layerAt V c (t.val * 4096 + r.val) q := by
  have hN : t.val < 64 := lt_of_lt_of_eq t.isLt (show cfg0.N = 64 from N_0)
  have h : t.val * 4096 + r.val < 262144 := by have := r.isLt; omega
  rw [layerAt_lt V c _ h, layer_entry, bTile_entry]
  refine congrArg₂ (· + ·) (Finset.sum_congr rfl fun k _ => ?_) rfl
  rw [xTile_entry V c t r k h, wTile_entry]
  rfl

/-! ## The totals are sums over the tiles so far -/

/-- After point `n` the first total holds, in each column, the layer's outputs summed over the rows of tiles `0, …, n`,
    and the second the sum of their squares.  (On the extended reals adding to zero and reassociating are free.) -/
theorem sums_closed (c : Dev nD) : ∀ (n : ℕ) (h : n < cfg0.N) (q : Fin 128),
    (sums V c n h).1 (ix2 (0 : Fin 1) q) = ∑ k ∈ Finset.range (n + 1), ∑ r : Fin 4096, layerAt V c (k * 4096 + r.val) q
    ∧ (sums V c n h).2 (ix2 (0 : Fin 1) q)
        = ∑ k ∈ Finset.range (n + 1), ∑ r : Fin 4096, layerAt V c (k * 4096 + r.val) q * layerAt V c (k * 4096 + r.val) q
  | 0, h, q => by
    constructor
    · rw [Finset.sum_range_one]
      refine (total1_entry _ _ _ _ q).trans ?_
      rw [show (zeroRows (F := Ideal)).1 (ix2 (0 : Fin 1) q) = 0 from zero_row1 q, zero_add]
      exact Finset.sum_congr rfl fun r _ => tile_layer V c ⟨0, h⟩ r q
    · rw [Finset.sum_range_one]
      refine (total2_entry _ _ _ _ q).trans ?_
      rw [show (zeroRows (F := Ideal)).2 (ix2 (0 : Fin 1) q) = 0 from zero_row2 q, zero_add]
      exact Finset.sum_congr rfl fun r _ => by rw [tile_layer V c ⟨0, h⟩ r q]
  | n + 1, h, q => by
    obtain ⟨i1, i2⟩ := sums_closed c n (Nat.lt_of_succ_lt h) q
    constructor
    · rw [Finset.sum_range_succ, ← i1]
      refine (total1_entry _ _ _ _ q).trans ?_
      exact congrArg₂ (· + ·) rfl (Finset.sum_congr rfl fun r _ => tile_layer V c ⟨n + 1, h⟩ r q)
    · rw [Finset.sum_range_succ, ← i2]
      refine (total2_entry _ _ _ _ q).trans ?_
      exact congrArg₂ (· + ·) rfl (Finset.sum_congr rfl fun r _ => by rw [tile_layer V c ⟨n + 1, h⟩ r q])

/-- Sixty-four tiles of 4096 rows are all the rows. -/
theorem all_tiles (f : Fin 262144 → EReal) (g : ℕ → EReal) (hg : ∀ p : Fin 262144, g p.val = f p) :
    ∑ k ∈ Finset.range 64, ∑ r : Fin 4096, g (k * 4096 + r.val) = ∑ p : Fin 262144, f p := by
  rw [Finset.sum_range, Cert.Lib.Tiles.sum_tiles 64 4096 f]
  exact Finset.sum_congr rfl fun k _ => Finset.sum_congr rfl fun r _ =>
    hg ⟨k.val * 4096 + r.val, Cert.Lib.Tiles.tile_lt k r⟩

/-- After the last point the totals are the layer's column sums and column sums of squares over all rows. -/
theorem sums_last (c : Dev nD) (h : 63 < cfg0.N) (q : Fin 128) :
    (sums V c 63 h).1 (ix2 (0 : Fin 1) q) = ∑ p : Fin 262144, layer V c p q
    ∧ (sums V c 63 h).2 (ix2 (0 : Fin 1) q) = ∑ p : Fin 262144, layer V c p q * layer V c p q := by
  obtain ⟨i1, i2⟩ := sums_closed V c 63 h q
  exact ⟨i1.trans (all_tiles _ (fun p => layerAt V c p q) fun p => layerAt_lt V c p.val p.isLt q),
    i2.trans (all_tiles (fun p => layer V c p q * layer V c p q) (fun p => layerAt V c p q * layerAt V c p q)
      fun p => by rw [layerAt_lt V c p.val p.isLt q])⟩

/-! ## From the last point's stores to the output arrays -/

/-- Output 3's one block is the whole one-row array: reading the block of any function of the array gives it back. -/
theorem whole_block3 (t : Fin cfg0.N) (G : S1x128.Idx → EReal) :
    ((cfg0.win 3).blk t).view.read (Elt Ideal) G = G := by
  obtain ⟨-, -, -, -, -, -, e0, e1, -⟩ := block_origin t
  funext j
  show G (((cfg0.win 3).blk t).view.emb j) = G j
  refine congrArg G (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Every entry of output 3's array lies in the block the last point writes back. -/
theorem covered3 (i : S1x128.Idx) : ∃ t : Fin cfg0.N, (cfg0.win 3).flush t = true ∧ i ∈ ((cfg0.win 3).blk t).view.set := by
  have h63 : 63 < cfg0.N := by rw [show cfg0.N = 64 from N_0]; omega
  refine ⟨⟨63, h63⟩, (flush0_3 ⟨63, h63⟩).mpr rfl, ?_⟩
  obtain ⟨-, -, -, -, -, -, e0, e1, -⟩ := block_origin ⟨63, h63⟩
  show i ∈ ((View.whole main_v8_0).slice (win0_3.rect ⟨63, h63⟩)).set
  rw [View.set_slice_whole, Rect.mem_set_unit]
  intro a
  have hi0 : (i 0).val < 1 := (i 0).isLt
  have hi1 : (i 1).val < 128 := (i 1).isLt
  match a with
  | ⟨0, _⟩ => show win0_3.index ⟨63, h63⟩ (0 : Fin 2) * 1 ≤ (i 0).val ∧ (i 0).val < win0_3.index ⟨63, h63⟩ (0 : Fin 2) * 1 + 1; omega
  | ⟨1, _⟩ => show win0_3.index ⟨63, h63⟩ (1 : Fin 2) * 128 ≤ (i 1).val ∧ (i 1).val < win0_3.index ⟨63, h63⟩ (1 : Fin 2) * 128 + 128; omega

/-- After the run output 3's array is the mean row of the last totals: the only write-back is the last point's. -/
theorem final3 (c : Dev nD) (h : 63 < cfg0.N) : (dat0 V c).arrAt 3 cfg0.N = meanRow (sums V c 63 h) := by
  refine (dat0 V c).arrAt_eq_of_cover 3 (meanRow (sums V c 63 h)) (fun t ht => ?_) covered3
  have hN : t.val < 64 := lt_of_lt_of_eq t.isLt (show cfg0.N = 64 from N_0)
  have ht63 : t.val = 63 := by have := (flush0_3 t).mp ht; omega
  obtain ⟨n, hn⟩ := t
  obtain rfl : n = 63 := ht63
  rw [whole_block3]
  rfl

/-- Output 4's one block is the whole one-row array: reading the block of any function of the array gives it back. -/
theorem whole_block4 (t : Fin cfg0.N) (G : S1x128.Idx → EReal) :
    ((cfg0.win 4).blk t).view.read (Elt Ideal) G = G := by
  obtain ⟨-, -, -, -, -, -, -, -, e0, e1⟩ := block_origin t
  funext j
  show G (((cfg0.win 4).blk t).view.emb j) = G j
  refine congrArg G (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Every entry of output 4's array lies in the block the last point writes back. -/
theorem covered4 (i : S1x128.Idx) : ∃ t : Fin cfg0.N, (cfg0.win 4).flush t = true ∧ i ∈ ((cfg0.win 4).blk t).view.set := by
  have h63 : 63 < cfg0.N := by rw [show cfg0.N = 64 from N_0]; omega
  refine ⟨⟨63, h63⟩, (flush0_4 ⟨63, h63⟩).mpr rfl, ?_⟩
  obtain ⟨-, -, -, -, -, -, -, -, e0, e1⟩ := block_origin ⟨63, h63⟩
  show i ∈ ((View.whole main_v8_1).slice (win0_4.rect ⟨63, h63⟩)).set
  rw [View.set_slice_whole, Rect.mem_set_unit]
  intro a
  have hi0 : (i 0).val < 1 := (i 0).isLt
  have hi1 : (i 1).val < 128 := (i 1).isLt
  match a with
  | ⟨0, _⟩ => show win0_4.index ⟨63, h63⟩ (0 : Fin 2) * 1 ≤ (i 0).val ∧ (i 0).val < win0_4.index ⟨63, h63⟩ (0 : Fin 2) * 1 + 1; omega
  | ⟨1, _⟩ => show win0_4.index ⟨63, h63⟩ (1 : Fin 2) * 128 ≤ (i 1).val ∧ (i 1).val < win0_4.index ⟨63, h63⟩ (1 : Fin 2) * 128 + 128; omega

/-- After the run output 4's array is the variance row of the last totals: the only write-back is the last point's. -/
theorem final4 (c : Dev nD) (h : 63 < cfg0.N) : (dat0 V c).arrAt 4 cfg0.N = varRow (sums V c 63 h) := by
  refine (dat0 V c).arrAt_eq_of_cover 4 (varRow (sums V c 63 h)) (fun t ht => ?_) covered4
  have hN : t.val < 64 := lt_of_lt_of_eq t.isLt (show cfg0.N = 64 from N_0)
  have ht63 : t.val = 63 := by have := (flush0_4 t).mp ht; omega
  obtain ⟨n, hn⟩ := t
  obtain rfl : n = 63 := ht63
  rw [whole_block4]
  rfl

end Stats1

variable (V : (c : Dev nD) → (b : Ref sig .tc) → Buf (Elt Ideal) ((c : Thread nD τ).loc b))

/-- The first output after the run is the kernel's column mean of the dense layer's output on the whole input. -/
theorem mean1_eq (c : Dev nD) (q : Fin 128) :
    ((dat0 (F := Ideal) V c).arrAt 3 cfg0.N : S1x128.Idx → EReal) (ValueIdx.ix2 0 q)
      = Spec.kerMean stats1_iN (Spec.linT (Spec.mat (V c main_arg0 : S262144x128.Idx → EReal)) (Spec.mat (V c main_v0 : S128x128.Idx → EReal))
          (Spec.row (V c main_v2 : S1x128.Idx → EReal))) q := by
  have h63 : 63 < cfg0.N := by rw [show cfg0.N = 64 from N_0]; omega
  rw [final3 V c h63]
  refine (mean_entry _ q).trans ?_
  rw [(sums_last V c h63 q).1]
  rfl

/-- The second output after the run is the kernel's column variance of it. -/
theorem var1_eq (c : Dev nD) (q : Fin 128) :
    ((dat0 (F := Ideal) V c).arrAt 4 cfg0.N : S1x128.Idx → EReal) (ValueIdx.ix2 0 q)
      = Spec.kerVar stats1_iN (Spec.linT (Spec.mat (V c main_arg0 : S262144x128.Idx → EReal)) (Spec.mat (V c main_v0 : S128x128.Idx → EReal))
          (Spec.row (V c main_v2 : S1x128.Idx → EReal))) q := by
  have h63 : 63 < cfg0.N := by rw [show cfg0.N = 64 from N_0]; omega
  rw [final4 V c h63]
  refine (var_entry _ q).trans ?_
  rw [(sums_last V c h63 q).1, (sums_last V c h63 q).2]
  rfl

end Cert.KernelIdeal.Hand

end
-- ==== Proof.Stats2Pay.lean ====
/-
  The arithmetic of the second statistics pass read entry by entry on the extended reals: what one grid point adds to
  the two running rows, and what the last point makes of them, in the specification's vocabulary.
-/
import proofs.«159717_j8890582303003_2_alg».proof.Proof.Stats2Runs
import proofs.«159717_j8890582303003_2_alg».proof.Proof.KerSpec
import proofs.«159717_j8890582303003_2_alg».proof.Proof.LibDenseBias
import proofs.«159717_j8890582303003_2_alg».proof.Proof.LibVecIx2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Stats2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's arithmetic, entry by entry, on the extended reals -/

/-- The matrix products of the body are plain: rows against columns. -/
theorem dot_plain : dot_S4096x128_S128x128_S4096x128_1_0_0_1_n_n = DotDims.plain 4096 128 128 := rfl

/-- The reciprocal of the row count as the body spells it (the word of 2⁻¹⁸). -/
abbrev iNw : EReal := Ideal.ofBits .f32 0x36800000#32
/-- The variance offset as the body spells it. -/
abbrev epsw : EReal := Ideal.ofBits .f32 0x3727C5AC#32

/-- The zero rows the first point starts from. -/
theorem zeroRow_entry (q : Fin 128) : (k1_pay6 (F := Ideal)) (ix2 (0 : Fin 1) q) = 0 := by
  unfold k1_pay6
  simp only [shapeCast_self, broadcast_apply]
  exact Ideal.ofBits_zero_f32

theorem zeroRow'_entry (q : Fin 128) : (k1_pay7 (F := Ideal)) (ix2 (0 : Fin 1) q) = 0 := by
  unfold k1_pay7
  simp only [shapeCast_self, broadcast_apply]
  exact Ideal.ofBits_zero_f32

/-- The mean row: the column sums scaled. -/
theorem meanRow_entry (s : Vec Ideal S1x128 .f32) (q : Fin 128) :
    k1_pay4 s (ix2 (0 : Fin 1) q) = s (ix2 (0 : Fin 1) q) * iNw := by
  unfold k1_pay4
  simp only [mulf_apply, broadcast_apply]
  rfl

/-- The variance row: the scaled column sums of squares less the squared mean, clamped at zero. -/
theorem varRow_entry (s s2 : Vec Ideal S1x128 .f32) (q : Fin 128) :
    k1_pay5 s s2 (ix2 (0 : Fin 1) q)
      = max (s2 (ix2 (0 : Fin 1) q) * iNw - (s (ix2 (0 : Fin 1) q) * iNw) * (s (ix2 (0 : Fin 1) q) * iNw)) 0 := by
  unfold k1_pay5
  simp only [maximumf_apply, subf_apply, mulf_apply, broadcast_apply, meanRow_entry]
  rw [show Scalar.ofBits (F := Ideal) .f32 0x00000000#32 = (0 : EReal) from Ideal.ofBits_zero_f32]
  rfl

/-- The second layer on a block: entry (r, q) is row r of the hidden block against column q of the weight, plus the bias. -/
theorem layer2_entry (h : FVec Ideal S4096x128 .bf16) (w : FVec Ideal S128x128 .f32) (b : Vec Ideal S1x128 .f32)
    (r : Fin 4096) (q : Fin 128) :
    k1_pay1 h w b (ix2 r q) = (∑ k : Fin 128, h (ix2 r k) * w (ix2 k q)) + b (ix2 (0 : Fin 1) q) := by
  unfold k1_pay1
  simp only [addf_apply, shapeCast_self, Cert.Lib.DenseBias.row_down_entry, dot_plain]
  congr 1
  exact Cert.PlainDot.matmul_zero_plain_apply none h (truncf .bf16 w bitsLt_bf16_f32) r q

/-- The first layer with its normalisation on a block: entry (r, k). -/
theorem hidden_entry (x0 : Vec Ideal S4096x128 .f32) (x1 : Vec Ideal S128x128 .f32) (x2 x4 x3 x5 x6 : Vec Ideal S1x128 .f32)
    (r : Fin 4096) (k : Fin 128) :
    k1_pay8 x0 x1 x2 x4 x3 x5 x6 (ix2 r k)
      = max (((((∑ j : Fin 128, x0 (ix2 r j) * x1 (ix2 j k)) + x2 (ix2 (0 : Fin 1) k)) - x3 (ix2 (0 : Fin 1) k))
              * Ideal.rsqrt (x4 (ix2 (0 : Fin 1) k) + epsw)) * x5 (ix2 (0 : Fin 1) k) + x6 (ix2 (0 : Fin 1) k)) 0 := by
  unfold k1_pay8
  simp only [truncf_apply, maximumf_apply, addf_apply, mulf_apply, subf_apply, shapeCast_self, broadcast_apply,
    Cert.Lib.DenseBias.row_down_entry, dot_plain]
  rw [show Scalar.ofBits (F := Ideal) .f32 0x00000000#32 = (0 : EReal) from Ideal.ofBits_zero_f32]
  rw [Cert.Lib.DenseBias.dense_block_entry]
  rfl

/-- A block's column sums added to a row. -/
theorem addSums_entry (h : FVec Ideal S4096x128 .bf16) (w : FVec Ideal S128x128 .f32) (b s : Vec Ideal S1x128 .f32) (q : Fin 128) :
    k1_pay2 h w b s (ix2 (0 : Fin 1) q) = s (ix2 (0 : Fin 1) q) + ∑ r : Fin 4096, k1_pay1 h w b (ix2 r q) := by
  unfold k1_pay2
  simp only [shapeCast_self, addf_apply, shapeCast_a_1a_apply]
  rw [Cert.Lib.VecIx2.reduce_rows']

/-- A block's column sums of squares added to a row. -/
theorem addSquares_entry (h : FVec Ideal S4096x128 .bf16) (w : FVec Ideal S128x128 .f32) (b s : Vec Ideal S1x128 .f32) (q : Fin 128) :
    k1_pay3 h w b s (ix2 (0 : Fin 1) q)
      = s (ix2 (0 : Fin 1) q) + ∑ r : Fin 4096, k1_pay1 h w b (ix2 r q) * k1_pay1 h w b (ix2 r q) := by
  unfold k1_pay3
  simp only [shapeCast_self, addf_apply, shapeCast_a_1a_apply]
  rw [Cert.Lib.VecIx2.reduce_rows']
  rfl

/-! ## A block's contribution in the specification's words -/

/-- The second layer's pre-activations on a block of rows: the specification's two dense layers with the
    normalisation between them, over the block and the staged rows. -/
theorem tile_spec (x0 : Vec Ideal S4096x128 .f32) (x1 : Vec Ideal S128x128 .f32) (x2 x3 x4 x5 x6 : Vec Ideal S1x128 .f32) (x7 : Vec Ideal S128x128 .f32) (x8 : Vec Ideal S1x128 .f32) (r : Fin 4096) (q : Fin 128) :
    k1_pay1 (k1_pay8 x0 x1 x2 x4 x3 x5 x6) (k1_pay9 x7) x8 (ix2 r q)
      = Spec.linT (Spec.normWith (Spec.row x3) (Spec.row x4) epsw (Spec.linT (Spec.mat x0) (Spec.mat x1) (Spec.row x2)) (Spec.row x5) (Spec.row x6)) (Spec.mat x7) (Spec.row x8) r q := by
  rw [layer2_entry]
  simp only [hidden_entry, k1_pay9, shapeCast_self]
  rfl

/-- The running sums after a block: the block's column sums of the pre-activations added. -/
theorem addSums_spec (x0 : Vec Ideal S4096x128 .f32) (x1 : Vec Ideal S128x128 .f32) (x2 x3 x4 x5 x6 : Vec Ideal S1x128 .f32) (x7 : Vec Ideal S128x128 .f32) (x8 : Vec Ideal S1x128 .f32) (s : Vec Ideal S1x128 .f32) (q : Fin 128) :
    addSums x0 x1 x2 x3 x4 x5 x6 x7 x8 s (ix2 (0 : Fin 1) q)
      = s (ix2 (0 : Fin 1) q) + ∑ r : Fin 4096, Spec.linT (Spec.normWith (Spec.row x3) (Spec.row x4) epsw (Spec.linT (Spec.mat x0) (Spec.mat x1) (Spec.row x2)) (Spec.row x5) (Spec.row x6)) (Spec.mat x7) (Spec.row x8) r q := by
  unfold addSums
  rw [addSums_entry]
  congr 1
  exact Finset.sum_congr rfl fun r _ => tile_spec x0 x1 x2 x3 x4 x5 x6 x7 x8 r q

/-- The running sums of squares after a block. -/
theorem addSquares_spec (x0 : Vec Ideal S4096x128 .f32) (x1 : Vec Ideal S128x128 .f32) (x2 x3 x4 x5 x6 : Vec Ideal S1x128 .f32) (x7 : Vec Ideal S128x128 .f32) (x8 : Vec Ideal S1x128 .f32) (s : Vec Ideal S1x128 .f32) (q : Fin 128) :
    addSquares x0 x1 x2 x3 x4 x5 x6 x7 x8 s (ix2 (0 : Fin 1) q)
      = s (ix2 (0 : Fin 1) q) + ∑ r : Fin 4096, Spec.linT (Spec.normWith (Spec.row x3) (Spec.row x4) epsw (Spec.linT (Spec.mat x0) (Spec.mat x1) (Spec.row x2)) (Spec.row x5) (Spec.row x6)) (Spec.mat x7) (Spec.row x8) r q * Spec.linT (Spec.normWith (Spec.row x3) (Spec.row x4) epsw (Spec.linT (Spec.mat x0) (Spec.mat x1) (Spec.row x2)) (Spec.row x5) (Spec.row x6)) (Spec.mat x7) (Spec.row x8) r q := by
  unfold addSquares
  rw [addSquares_entry]
  congr 1
  exact Finset.sum_congr rfl fun r _ => by rw [tile_spec x0 x1 x2 x3 x4 x5 x6 x7 x8 r q]

/-- The pre-activations of a row depend on that row of the input only: two inputs that agree on a row (each its own row)
    give the same entries there. -/
theorem preact_row_congr {n n' : ℕ} (h : Fin n → Fin 128 → EReal) (h' : Fin n' → Fin 128 → EReal) (p : Fin n) (p' : Fin n')
    (hrow : ∀ j, h p j = h' p' j) (mean var : Fin 128 → EReal) (eps : EReal) (W1 : Fin 128 → Fin 128 → EReal)
    (b1 g be : Fin 128 → EReal) (W2 : Fin 128 → Fin 128 → EReal) (b2 : Fin 128 → EReal) (q : Fin 128) :
    Spec.linT (Spec.normWith mean var eps (Spec.linT h W1 b1) g be) W2 b2 p q
      = Spec.linT (Spec.normWith mean var eps (Spec.linT h' W1 b1) g be) W2 b2 p' q := by
  simp only [Spec.linT, Spec.normWith, hrow]

end Cert.KernelIdeal.Hand.Stats2

end
-- ==== Proof.Stats2Value.lean ====
/-
  What the second statistics pass leaves in its two outputs: the column mean and the clamped column variance of the
  second layer's pre-activations over the whole batch, in the specification's vocabulary.

  The scratch rows after point n hold the column sums (of the pre-activations, of their squares) over the first n + 1
  blocks of 4096 rows; after the last point that is the whole batch, 64 · 4096 rows.  The last point's two stores are
  the output blocks, and the one write-back after it puts them in the arrays.
-/
import proofs.«159717_j8890582303003_2_alg».proof.Proof.Stats2Region
import proofs.«159717_j8890582303003_2_alg».proof.Proof.Stats2Pay
import proofs.«159717_j8890582303003_2_alg».proof.Proof.LibTiles

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The reciprocal of the row count as the body spells it (the word of 2⁻¹⁸). -/
abbrev stats2_iN : EReal := Ideal.ofBits .f32 0x36800000#32
/-- The variance offset as the body spells it. -/
abbrev stats2_eps : EReal := Ideal.ofBits .f32 0x3727C5AC#32

/-- The second layer's pre-activations over the whole batch: the first layer, normalised with the first pass's
    moments, through the second dense layer. -/
def stats2_o2 (c : Dev nD) : Fin 262144 → Fin 128 → EReal :=
  Spec.linT
    (Spec.normWith (Spec.row (V c main_v8_0 : S1x128.Idx → EReal)) (Spec.row (V c main_v8_1 : S1x128.Idx → EReal)) stats2_eps
      (Spec.linT (Spec.mat (V c main_arg0 : S262144x128.Idx → EReal)) (Spec.mat (V c main_v0 : S128x128.Idx → EReal))
        (Spec.row (V c main_v2 : S1x128.Idx → EReal)))
      (Spec.row (V c main_v3 : S1x128.Idx → EReal)) (Spec.row (V c main_v4 : S1x128.Idx → EReal)))
    (Spec.mat (V c main_v1 : S128x128.Idx → EReal)) (Spec.row (V c main_v5 : S1x128.Idx → EReal))

namespace Stats2

/-! ## The operands' blocks as parts of their arrays -/

/-- The batch window's block index is the grid point, -/
theorem batchIndex : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- every other window's is zero. -/
theorem fixedIndex1 : ∀ (t : Fin cfg1.N) (a : Fin 2), win1_1.index t a = 0 :=
  (by decide +kernel : ∀ (t : Fin grid1.N) (a : Fin 2), win1_1.index t a = 0)
theorem fixedIndex2 : ∀ (t : Fin cfg1.N) (a : Fin 2), win1_2.index t a = 0 :=
  (by decide +kernel : ∀ (t : Fin grid1.N) (a : Fin 2), win1_2.index t a = 0)
theorem fixedIndex3 : ∀ (t : Fin cfg1.N) (a : Fin 2), win1_3.index t a = 0 :=
  (by decide +kernel : ∀ (t : Fin grid1.N) (a : Fin 2), win1_3.index t a = 0)
theorem fixedIndex4 : ∀ (t : Fin cfg1.N) (a : Fin 2), win1_4.index t a = 0 :=
  (by decide +kernel : ∀ (t : Fin grid1.N) (a : Fin 2), win1_4.index t a = 0)
theorem fixedIndex5 : ∀ (t : Fin cfg1.N) (a : Fin 2), win1_5.index t a = 0 :=
  (by decide +kernel : ∀ (t : Fin grid1.N) (a : Fin 2), win1_5.index t a = 0)
theorem fixedIndex6 : ∀ (t : Fin cfg1.N) (a : Fin 2), win1_6.index t a = 0 :=
  (by decide +kernel : ∀ (t : Fin grid1.N) (a : Fin 2), win1_6.index t a = 0)
theorem fixedIndex7 : ∀ (t : Fin cfg1.N) (a : Fin 2), win1_7.index t a = 0 :=
  (by decide +kernel : ∀ (t : Fin grid1.N) (a : Fin 2), win1_7.index t a = 0)
theorem fixedIndex8 : ∀ (t : Fin cfg1.N) (a : Fin 2), win1_8.index t a = 0 :=
  (by decide +kernel : ∀ (t : Fin grid1.N) (a : Fin 2), win1_8.index t a = 0)
theorem fixedIndex9 : ∀ (t : Fin cfg1.N) (a : Fin 2), win1_9.index t a = 0 :=
  (by decide +kernel : ∀ (t : Fin grid1.N) (a : Fin 2), win1_9.index t a = 0)
theorem fixedIndex10 : ∀ (t : Fin cfg1.N) (a : Fin 2), win1_10.index t a = 0 :=
  (by decide +kernel : ∀ (t : Fin grid1.N) (a : Fin 2), win1_10.index t a = 0)

theorem row_lt (t : Fin cfg1.N) (r : Fin 4096) : t.val * 4096 + r.val < 262144 := by
  have := point_lt t; have := r.isLt; omega

/-- Row r of the batch block at point t is row 4096·t + r of the batch. -/
theorem batchBlock_entry (c : Dev nD) (t : Fin cfg1.N) (r : Fin 4096) (j : Fin 128) :
    (blockAt V c 0 t : Vec Ideal S4096x128 .f32) (ix2 r j)
      = (V c main_arg0 : S262144x128.Idx → EReal) (ix2 ⟨t.val * 4096 + r.val, row_lt t r⟩ j) := by
  obtain ⟨e0, e1⟩ := batchIndex t
  unfold blockAt
  rw [View.read_apply]
  show (V c main_arg0 : S262144x128.Idx → EReal) _ = (V c main_arg0 : S262144x128.Idx → EReal) _
  congr 1
  funext a
  apply Fin.ext
  match a with
  | ⟨0, _⟩ => show win1_0.index t 0 * 4096 + 1 * r.val = t.val * 4096 + r.val; rw [e0]; omega
  | ⟨1, _⟩ => show win1_0.index t 1 * 128 + 1 * j.val = j.val; rw [e1]; omega

/-- The other operands' blocks are their whole arrays. -/
theorem operandBlock1 (c : Dev nD) (t : Fin cfg1.N) :
    (blockAt V c 1 t : Vec Ideal S128x128 .f32) = (V c main_v0 : S128x128.Idx → EReal) := by
  have hz : (fun a => win1_1.index t a * main_v0.ty.shape.size a) = fun _ => 0 :=
    funext fun a => by rw [fixedIndex1 t a]; exact Nat.zero_mul _
  exact Memref.read_access_unit_zero (Elt Ideal) main_v0 hz (fun a => by rw [congrFun hz a]; simp) (V c main_v0)
theorem operandBlock2 (c : Dev nD) (t : Fin cfg1.N) :
    (blockAt V c 2 t : Vec Ideal S1x128 .f32) = (V c main_v2 : S1x128.Idx → EReal) := by
  have hz : (fun a => win1_2.index t a * main_v2.ty.shape.size a) = fun _ => 0 :=
    funext fun a => by rw [fixedIndex2 t a]; exact Nat.zero_mul _
  exact Memref.read_access_unit_zero (Elt Ideal) main_v2 hz (fun a => by rw [congrFun hz a]; simp) (V c main_v2)
theorem operandBlock3 (c : Dev nD) (t : Fin cfg1.N) :
    (blockAt V c 3 t : Vec Ideal S1x128 .f32) = (V c main_v8_0 : S1x128.Idx → EReal) := by
  have hz : (fun a => win1_3.index t a * main_v8_0.ty.shape.size a) = fun _ => 0 :=
    funext fun a => by rw [fixedIndex3 t a]; exact Nat.zero_mul _
  exact Memref.read_access_unit_zero (Elt Ideal) main_v8_0 hz (fun a => by rw [congrFun hz a]; simp) (V c main_v8_0)
theorem operandBlock4 (c : Dev nD) (t : Fin cfg1.N) :
    (blockAt V c 4 t : Vec Ideal S1x128 .f32) = (V c main_v8_1 : S1x128.Idx → EReal) := by
  have hz : (fun a => win1_4.index t a * main_v8_1.ty.shape.size a) = fun _ => 0 :=
    funext fun a => by rw [fixedIndex4 t a]; exact Nat.zero_mul _
  exact Memref.read_access_unit_zero (Elt Ideal) main_v8_1 hz (fun a => by rw [congrFun hz a]; simp) (V c main_v8_1)
theorem operandBlock5 (c : Dev nD) (t : Fin cfg1.N) :
    (blockAt V c 5 t : Vec Ideal S1x128 .f32) = (V c main_v3 : S1x128.Idx → EReal) := by
  have hz : (fun a => win1_5.index t a * main_v3.ty.shape.size a) = fun _ => 0 :=
    funext fun a => by rw [fixedIndex5 t a]; exact Nat.zero_mul _
  exact Memref.read_access_unit_zero (Elt Ideal) main_v3 hz (fun a => by rw [congrFun hz a]; simp) (V c main_v3)
theorem operandBlock6 (c : Dev nD) (t : Fin cfg1.N) :
    (blockAt V c 6 t : Vec Ideal S1x128 .f32) = (V c main_v4 : S1x128.Idx → EReal) := by
  have hz : (fun a => win1_6.index t a * main_v4.ty.shape.size a) = fun _ => 0 :=
    funext fun a => by rw [fixedIndex6 t a]; exact Nat.zero_mul _
  exact Memref.read_access_unit_zero (Elt Ideal) main_v4 hz (fun a => by rw [congrFun hz a]; simp) (V c main_v4)
theorem operandBlock7 (c : Dev nD) (t : Fin cfg1.N) :
    (blockAt V c 7 t : Vec Ideal S128x128 .f32) = (V c main_v1 : S128x128.Idx → EReal) := by
  have hz : (fun a => win1_7.index t a * main_v1.ty.shape.size a) = fun _ => 0 :=
    funext fun a => by rw [fixedIndex7 t a]; exact Nat.zero_mul _
  exact Memref.read_access_unit_zero (Elt Ideal) main_v1 hz (fun a => by rw [congrFun hz a]; simp) (V c main_v1)
theorem operandBlock8 (c : Dev nD) (t : Fin cfg1.N) :
    (blockAt V c 8 t : Vec Ideal S1x128 .f32) = (V c main_v5 : S1x128.Idx → EReal) := by
  have hz : (fun a => win1_8.index t a * main_v5.ty.shape.size a) = fun _ => 0 :=
    funext fun a => by rw [fixedIndex8 t a]; exact Nat.zero_mul _
  exact Memref.read_access_unit_zero (Elt Ideal) main_v5 hz (fun a => by rw [congrFun hz a]; simp) (V c main_v5)

/-! ## One grid point's work in the specification's words -/

theorem stepSums_fst (c : Dev nD) (t : Fin cfg1.N) (s : Vec Ideal S1x128 .f32 × Vec Ideal S1x128 .f32) (q : Fin 128) :
    (stepSums V c t s).1 (ix2 (0 : Fin 1) q)
      = s.1 (ix2 (0 : Fin 1) q) + ∑ r : Fin 4096, stats2_o2 V c ⟨t.val * 4096 + r.val, row_lt t r⟩ q := by
  show addSums (blockAt V c 0 t) (blockAt V c 1 t) (blockAt V c 2 t) (blockAt V c 3 t) (blockAt V c 4 t) (blockAt V c 5 t) (blockAt V c 6 t) (blockAt V c 7 t) (blockAt V c 8 t) s.1 (ix2 (0 : Fin 1) q) = _
  rw [operandBlock1 V c t, operandBlock2 V c t, operandBlock3 V c t, operandBlock4 V c t, operandBlock5 V c t, operandBlock6 V c t, operandBlock7 V c t, operandBlock8 V c t]
  refine (addSums_spec (blockAt V c 0 t) (V c main_v0) (V c main_v2) (V c main_v8_0) (V c main_v8_1) (V c main_v3) (V c main_v4) (V c main_v1) (V c main_v5) s.1 q).trans ?_
  refine congrArg (fun z => s.1 (ix2 (0 : Fin 1) q) + z) ?_
  refine Finset.sum_congr rfl fun r _ => ?_
  have e : Spec.linT (Spec.normWith (Spec.row (V c main_v8_0 : S1x128.Idx → EReal)) (Spec.row (V c main_v8_1 : S1x128.Idx → EReal)) epsw
        (Spec.linT (Spec.mat (a := 4096) (b := 128) (blockAt V c 0 t)) (Spec.mat (V c main_v0 : S128x128.Idx → EReal)) (Spec.row (V c main_v2 : S1x128.Idx → EReal)))
        (Spec.row (V c main_v3 : S1x128.Idx → EReal)) (Spec.row (V c main_v4 : S1x128.Idx → EReal)))
        (Spec.mat (V c main_v1 : S128x128.Idx → EReal)) (Spec.row (V c main_v5 : S1x128.Idx → EReal)) r q
      = stats2_o2 V c ⟨t.val * 4096 + r.val, row_lt t r⟩ q :=
    preact_row_congr _ _ r _ (fun j => batchBlock_entry V c t r j) _ _ _ _ _ _ _ _ _ q
  exact e

theorem stepSums_snd (c : Dev nD) (t : Fin cfg1.N) (s : Vec Ideal S1x128 .f32 × Vec Ideal S1x128 .f32) (q : Fin 128) :
    (stepSums V c t s).2 (ix2 (0 : Fin 1) q)
      = s.2 (ix2 (0 : Fin 1) q)
        + ∑ r : Fin 4096, stats2_o2 V c ⟨t.val * 4096 + r.val, row_lt t r⟩ q * stats2_o2 V c ⟨t.val * 4096 + r.val, row_lt t r⟩ q := by
  show addSquares (blockAt V c 0 t) (blockAt V c 1 t) (blockAt V c 2 t) (blockAt V c 3 t) (blockAt V c 4 t) (blockAt V c 5 t) (blockAt V c 6 t) (blockAt V c 7 t) (blockAt V c 8 t) s.2 (ix2 (0 : Fin 1) q) = _
  rw [operandBlock1 V c t, operandBlock2 V c t, operandBlock3 V c t, operandBlock4 V c t, operandBlock5 V c t, operandBlock6 V c t, operandBlock7 V c t, operandBlock8 V c t]
  refine (addSquares_spec (blockAt V c 0 t) (V c main_v0) (V c main_v2) (V c main_v8_0) (V c main_v8_1) (V c main_v3) (V c main_v4) (V c main_v1) (V c main_v5) s.2 q).trans ?_
  refine congrArg (fun z => s.2 (ix2 (0 : Fin 1) q) + z) ?_
  refine Finset.sum_congr rfl fun r _ => ?_
  have e : Spec.linT (Spec.normWith (Spec.row (V c main_v8_0 : S1x128.Idx → EReal)) (Spec.row (V c main_v8_1 : S1x128.Idx → EReal)) epsw
        (Spec.linT (Spec.mat (a := 4096) (b := 128) (blockAt V c 0 t)) (Spec.mat (V c main_v0 : S128x128.Idx → EReal)) (Spec.row (V c main_v2 : S1x128.Idx → EReal)))
        (Spec.row (V c main_v3 : S1x128.Idx → EReal)) (Spec.row (V c main_v4 : S1x128.Idx → EReal)))
        (Spec.mat (V c main_v1 : S128x128.Idx → EReal)) (Spec.row (V c main_v5 : S1x128.Idx → EReal)) r q
      = stats2_o2 V c ⟨t.val * 4096 + r.val, row_lt t r⟩ q :=
    preact_row_congr _ _ r _ (fun j => batchBlock_entry V c t r j) _ _ _ _ _ _ _ _ _ q
  rw [e]

/-! ## The running sums over the grid -/

/-- What block k contributes to column q of a sum of `f` over the batch's rows. -/
def tileTerm (f : Fin 262144 → EReal) (k : ℕ) : EReal :=
  if h : k < 64 then ∑ r : Fin 4096, f ⟨k * 4096 + r.val, by have := r.isLt; omega⟩ else 0

/-- The 64 blocks' contributions are the sum over the whole batch. -/
theorem sum_tileTerm (f : Fin 262144 → EReal) : ∑ k ∈ Finset.range 64, tileTerm f k = ∑ p : Fin 262144, f p := by
  rw [Finset.sum_range]
  refine Eq.trans (Finset.sum_congr rfl fun k _ => ?_) (Cert.Lib.Tiles.sum_tiles 64 4096 (fun p : Fin (64 * 4096) => f p)).symm
  unfold tileTerm; rw [dif_pos k.isLt]

theorem sums_fst (c : Dev nD) (q : Fin 128) : ∀ (n : ℕ) (h : n < cfg1.N),
    (sumsAt V c n h).1 (ix2 (0 : Fin 1) q) = ∑ k ∈ Finset.range (n + 1), tileTerm (fun p => stats2_o2 V c p q) k
  | 0, h => by
    have hlt : (0 : ℕ) < 64 := by norm_num
    rw [show sumsAt V c 0 h = stepSums V c ⟨0, h⟩ (k1_pay6 (F := Ideal), k1_pay7 (F := Ideal)) from rfl, stepSums_fst]
    dsimp only
    rw [zeroRow_entry, zero_add, Finset.sum_range_one]
    unfold tileTerm; rw [dif_pos hlt]
  | n + 1, h => by
    have hlt : n + 1 < 64 := lt_of_lt_of_eq h (show cfg1.N = 64 from N_1)
    rw [show sumsAt V c (n + 1) h = stepSums V c ⟨n + 1, h⟩ (sumsAt V c n (Nat.lt_of_succ_lt h)) from rfl, stepSums_fst,
      sums_fst c q n (Nat.lt_of_succ_lt h), Finset.sum_range_succ _ (n + 1)]
    refine congrArg (fun z => _ + z) ?_
    unfold tileTerm; rw [dif_pos hlt]

theorem sums_snd (c : Dev nD) (q : Fin 128) : ∀ (n : ℕ) (h : n < cfg1.N),
    (sumsAt V c n h).2 (ix2 (0 : Fin 1) q)
      = ∑ k ∈ Finset.range (n + 1), tileTerm (fun p => stats2_o2 V c p q * stats2_o2 V c p q) k
  | 0, h => by
    have hlt : (0 : ℕ) < 64 := by norm_num
    rw [show sumsAt V c 0 h = stepSums V c ⟨0, h⟩ (k1_pay6 (F := Ideal), k1_pay7 (F := Ideal)) from rfl, stepSums_snd]
    dsimp only
    rw [zeroRow'_entry, zero_add, Finset.sum_range_one]
    unfold tileTerm; rw [dif_pos hlt]
  | n + 1, h => by
    have hlt : n + 1 < 64 := lt_of_lt_of_eq h (show cfg1.N = 64 from N_1)
    rw [show sumsAt V c (n + 1) h = stepSums V c ⟨n + 1, h⟩ (sumsAt V c n (Nat.lt_of_succ_lt h)) from rfl, stepSums_snd,
      sums_snd c q n (Nat.lt_of_succ_lt h), Finset.sum_range_succ _ (n + 1)]
    refine congrArg (fun z => _ + z) ?_
    unfold tileTerm; rw [dif_pos hlt]

theorem lastPoint : (63 : ℕ) < cfg1.N := by rw [show cfg1.N = 64 from N_1]; norm_num

/-- After the last point the first scratch row holds the column sums over the whole batch, -/
theorem total_fst (c : Dev nD) (q : Fin 128) :
    (sumsAt V c 63 lastPoint).1 (ix2 (0 : Fin 1) q) = ∑ p : Fin 262144, stats2_o2 V c p q := by
  rw [sums_fst V c q 63 lastPoint]; exact sum_tileTerm _

/-- and the second the column sums of squares. -/
theorem total_snd (c : Dev nD) (q : Fin 128) :
    (sumsAt V c 63 lastPoint).2 (ix2 (0 : Fin 1) q) = ∑ p : Fin 262144, stats2_o2 V c p q * stats2_o2 V c p q := by
  rw [sums_snd V c q 63 lastPoint]; exact sum_tileTerm _

/-! ## From the last point's stores to the arrays -/

/-- The one write-back of output 9, after the last point, writes what the last point stored. -/
theorem flushed_mean (c : Dev nD) (t : Fin cfg1.N) (hf : (cfg1.win 9).flush t = true) :
    (dat1 V c).flushed 9 t = ((cfg1.win 9).blk t).view.read (Elt Ideal) (k1_pay4 (sumsAt V c 63 lastPoint).1) := by
  have h63 : t.val = 63 := by have := (flush1_9 t).mp hf; have := point_lt t; omega
  obtain rfl : t = ⟨63, lastPoint⟩ := Fin.ext h63
  show (cfg1.win 9).cut (grid1.coords ⟨63, lastPoint⟩) ((dat1 V c).after 9 ⟨63, lastPoint⟩) = _
  rw [after_mean]
  have hz : (fun a => win1_9.index ⟨63, lastPoint⟩ a * main_v9_0.ty.shape.size a) = fun _ => 0 :=
    funext fun a => by rw [fixedIndex9 _ a]; exact Nat.zero_mul _
  exact (Memref.read_access_unit_zero (Elt Ideal) main_v9_0 hz (fun a => by rw [congrFun hz a]; simp) _).symm

/-- So the array ends holding it: the one block is the whole array. -/
theorem final_mean (c : Dev nD) : (dat1 V c).arrAt 9 cfg1.N = k1_pay4 (sumsAt V c 63 lastPoint).1 :=
  (dat1 V c).arrAt_eq_of_cover 9 _ (flushed_mean V c) fun i =>
    ⟨⟨63, lastPoint⟩, (flush1_9 ⟨63, lastPoint⟩).mpr rfl, by
      show i ∈ ((View.whole main_v9_0).slice (win1_9.rect ⟨63, lastPoint⟩)).set
      rw [View.set_slice_whole, Rect.mem_set_unit]
      intro a
      have h0 : (i 0 : ℕ) < 1 := (i 0).isLt
      have h1 : (i 1 : ℕ) < 128 := (i 1).isLt
      match a with
      | ⟨0, _⟩ =>
        show win1_9.index ⟨63, lastPoint⟩ 0 * win1_9.size 0 ≤ (i 0 : ℕ)
          ∧ (i 0 : ℕ) < win1_9.index ⟨63, lastPoint⟩ 0 * win1_9.size 0 + win1_9.xsize (grid1.coords ⟨63, lastPoint⟩) 0
        rw [fixedIndex9 _ 0, show win1_9.xsize (grid1.coords ⟨63, lastPoint⟩) 0 = 1 from by decide +kernel]; omega
      | ⟨1, _⟩ =>
        show win1_9.index ⟨63, lastPoint⟩ 1 * win1_9.size 1 ≤ (i 1 : ℕ)
          ∧ (i 1 : ℕ) < win1_9.index ⟨63, lastPoint⟩ 1 * win1_9.size 1 + win1_9.xsize (grid1.coords ⟨63, lastPoint⟩) 1
        rw [fixedIndex9 _ 1, show win1_9.xsize (grid1.coords ⟨63, lastPoint⟩) 1 = 128 from by decide +kernel]; omega⟩

/-- The one write-back of output 10, after the last point, writes what the last point stored. -/
theorem flushed_var (c : Dev nD) (t : Fin cfg1.N) (hf : (cfg1.win 10).flush t = true) :
    (dat1 V c).flushed 10 t = ((cfg1.win 10).blk t).view.read (Elt Ideal) (k1_pay5 (sumsAt V c 63 lastPoint).1 (sumsAt V c 63 lastPoint).2) := by
  have h63 : t.val = 63 := by have := (flush1_10 t).mp hf; have := point_lt t; omega
  obtain rfl : t = ⟨63, lastPoint⟩ := Fin.ext h63
  show (cfg1.win 10).cut (grid1.coords ⟨63, lastPoint⟩) ((dat1 V c).after 10 ⟨63, lastPoint⟩) = _
  rw [after_var]
  have hz : (fun a => win1_10.index ⟨63, lastPoint⟩ a * main_v9_1.ty.shape.size a) = fun _ => 0 :=
    funext fun a => by rw [fixedIndex10 _ a]; exact Nat.zero_mul _
  exact (Memref.read_access_unit_zero (Elt Ideal) main_v9_1 hz (fun a => by rw [congrFun hz a]; simp) _).symm

/-- So the array ends holding it: the one block is the whole array. -/
theorem final_var (c : Dev nD) : (dat1 V c).arrAt 10 cfg1.N = k1_pay5 (sumsAt V c 63 lastPoint).1 (sumsAt V c 63 lastPoint).2 :=
  (dat1 V c).arrAt_eq_of_cover 10 _ (flushed_var V c) fun i =>
    ⟨⟨63, lastPoint⟩, (flush1_10 ⟨63, lastPoint⟩).mpr rfl, by
      show i ∈ ((View.whole main_v9_1).slice (win1_10.rect ⟨63, lastPoint⟩)).set
      rw [View.set_slice_whole, Rect.mem_set_unit]
      intro a
      have h0 : (i 0 : ℕ) < 1 := (i 0).isLt
      have h1 : (i 1 : ℕ) < 128 := (i 1).isLt
      match a with
      | ⟨0, _⟩ =>
        show win1_10.index ⟨63, lastPoint⟩ 0 * win1_10.size 0 ≤ (i 0 : ℕ)
          ∧ (i 0 : ℕ) < win1_10.index ⟨63, lastPoint⟩ 0 * win1_10.size 0 + win1_10.xsize (grid1.coords ⟨63, lastPoint⟩) 0
        rw [fixedIndex10 _ 0, show win1_10.xsize (grid1.coords ⟨63, lastPoint⟩) 0 = 1 from by decide +kernel]; omega
      | ⟨1, _⟩ =>
        show win1_10.index ⟨63, lastPoint⟩ 1 * win1_10.size 1 ≤ (i 1 : ℕ)
          ∧ (i 1 : ℕ) < win1_10.index ⟨63, lastPoint⟩ 1 * win1_10.size 1 + win1_10.xsize (grid1.coords ⟨63, lastPoint⟩) 1
        rw [fixedIndex10 _ 1, show win1_10.xsize (grid1.coords ⟨63, lastPoint⟩) 1 = 128 from by decide +kernel]; omega⟩

end Stats2

open Stats2

/-- The first output ends holding the column means of the second layer's pre-activations over the whole batch. -/
theorem mean2_eq (c : Dev nD) (q : Fin 128) :
    ((dat1 (F := Ideal) V c).arrAt 9 cfg1.N : S1x128.Idx → EReal) (ValueIdx.ix2 0 q) = Spec.kerMean stats2_iN (stats2_o2 V c) q := by
  rw [final_mean V c, meanRow_entry, total_fst]
  rfl

/-- The second output ends holding their clamped column variances. -/
theorem var2_eq (c : Dev nD) (q : Fin 128) :
    ((dat1 (F := Ideal) V c).arrAt 10 cfg1.N : S1x128.Idx → EReal) (ValueIdx.ix2 0 q) = Spec.kerVar stats2_iN (stats2_o2 V c) q := by
  rw [final_var V c, varRow_entry, total_fst, total_snd]
  rfl

end Cert.KernelIdeal.Hand

end
-- ==== Proof.FinalValue.lean ====
import proofs.«159717_j8890582303003_2_alg».proof.Proof.FinalRegion
import proofs.«159717_j8890582303003_2_alg».proof.Proof.KerSpec
import proofs.«159717_j8890582303003_2_alg».proof.Proof.LibDenseBias
import Idealize.ShloMosaic.Lib.ValueIdx
import Idealize.ShloMosaic.Lib.Pipeline.Value

/-!
# What the closing call leaves in the output array

On the extended reals, with no rounding. The body's value at row `r` of a tile depends on the activation tile only
through its row `r`: a dense layer's entry `(r, q)` reads row `r` of its input, and everything else the body does is
entry by entry against single rows. So one function of ONE activation row, `rowOut`, describes both a tile of the
body's result and the whole output array, and what remains is bookkeeping: tile `t` of the activation is rows
`4096·t … 4096·t + 4095` of the array, the twelve small operands are their arrays at every point, and the 64 output
tiles, each written back at its own point, fill the 262144 rows.
-/

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the contents of every buffer of a core when the call starts
variable (V : (c : Dev nD) → (b : Ref sig .tc) → Buf (Elt Ideal) ((c : Thread nD τ).loc b))

namespace Final

/-- The small constant added to a variance before the reciprocal square root. -/
abbrev eps : EReal := Ideal.ofBits .f32 0x3727C5AC#32

/-! ## One row of the result -/

/-- Row `xr` of the activation through the block: dense layer, normalise with the first moments, clamp, dense layer,
    normalise with the second moments, clamp, add the row back. Stated with the specification's own functions on a
    one-row matrix. -/
def rowOut (xr : Fin 128 → EReal) (W₁ : Fin 128 → Fin 128 → EReal) (b₁ μ₁ v₁ γ₁ β₁ : Fin 128 → EReal)
    (W₂ : Fin 128 → Fin 128 → EReal) (b₂ μ₂ v₂ γ₂ β₂ : Fin 128 → EReal) (q : Fin 128) : EReal :=
  Spec.normWith μ₂ v₂ eps
      (Spec.linT (Spec.normWith μ₁ v₁ eps (Spec.linT (fun _ : Fin 1 => xr) W₁ b₁) γ₁ β₁) W₂ b₂) γ₂ β₂ 0 q
    + xr q

/-! ## The body's arithmetic at an entry -/

/-- The product's index bookkeeping is the plain one: contract the left factor's columns with the right factor's rows. -/
theorem dot_is_plain : dot_S4096x128_S128x128_S4096x128_1_0_0_1_n_n = DotDims.plain 4096 128 128 := rfl

/-- A tile times a 128 × 128 weight into the zero accumulator, at an entry: the sum over the shared coordinate. Narrowing
    the factors changes nothing on the extended reals. -/
theorem product_entry (x : FVec Ideal S4096x128 .f32) (W : Vec Ideal S128x128 .f32) (r : Fin 4096) (q : Fin 128) :
    matmul dot_S4096x128_S128x128_S4096x128_1_0_0_1_n_n none (truncf .bf16 x bitsLt_bf16_f32)
        (truncf .bf16 (shapeCast S128x128 W shapeCasts_S128x128_S128x128) bitsLt_bf16_f32)
        (constant (F := Ideal) S4096x128 .f32 0x00000000#32) (ix2 r q)
      = ∑ k : Fin 128, x (ix2 r k) * W (ix2 k q) := by
  rw [dot_is_plain, shapeCast_self]
  exact Cert.Lib.DenseBias.dense_block_entry bitsLt_bf16_f32 x W r q

/-- Add the bias row, subtract the mean row, scale by the reciprocal root of variance plus `eps`, scale, shift, clamp at
    zero — each row operand repeated down the 4096 rows — at an entry. -/
theorem norm_entry (o : FVec Ideal S4096x128 .f32) (b v μ γ β : Vec Ideal S1x128 .f32) (r : Fin 4096) (q : Fin 128) :
    (maximumf (addf (mulf (mulf (subf (addf o (broadcastTo S4096x128 (shapeCast S1x128 b shapeCasts_S1x128_S1x128) broadcasts_S1x128_S4096x128)) (broadcastTo S4096x128 (shapeCast S1x128 μ shapeCasts_S1x128_S1x128) broadcasts_S1x128_S4096x128))
        (broadcastTo S4096x128 (rsqrt (addf (shapeCast S1x128 v shapeCasts_S1x128_S1x128) (broadcast S1x128 (Scalar.ofBits .f32 0x3727C5AC#32)))) broadcasts_S1x128_S4096x128))
        (broadcastTo S4096x128 (shapeCast S1x128 γ shapeCasts_S1x128_S1x128) broadcasts_S1x128_S4096x128)) (broadcastTo S4096x128 (shapeCast S1x128 β shapeCasts_S1x128_S1x128) broadcasts_S1x128_S4096x128))
      (broadcast S4096x128 (Scalar.ofBits .f32 0x00000000#32)) : FVec Ideal S4096x128 .f32) (ix2 r q)
      = max ((((o (ix2 r q) + b (ix2 (0 : Fin 1) q)) - μ (ix2 (0 : Fin 1) q)) * Ideal.rsqrt (v (ix2 (0 : Fin 1) q) + eps))
          * γ (ix2 (0 : Fin 1) q) + β (ix2 (0 : Fin 1) q)) 0 := by
  rw [maximumf_apply, addf_apply, mulf_apply, mulf_apply, subf_apply, addf_apply, broadcast_apply]
  rw [Cert.Lib.DenseBias.row_down_entry, Cert.Lib.DenseBias.row_down_entry, Cert.Lib.DenseBias.row_down_entry,
    Cert.Lib.DenseBias.row_down_entry, Cert.Lib.DenseBias.row_down_entry]
  simp only [shapeCast_self]
  have hz : (FloatOps.ofBits FTy.f32 0x00000000#32 : Ideal .f32) = 0 := Ideal.ofBits_zero_f32
  rw [hz]
  rfl

/-- The inner term at an entry: the clamped, normalised first layer against a column of the second weight. -/
theorem inner_entry (x : Vec Ideal S4096x128 .f32) (W₁ : Vec Ideal S128x128 .f32) (b₁ v₁ μ₁ γ₁ β₁ : Vec Ideal S1x128 .f32)
    (W₂ : Vec Ideal S128x128 .f32) (r : Fin 4096) (q : Fin 128) :
    k2_pay2 x W₁ b₁ v₁ μ₁ γ₁ β₁ W₂ (ix2 r q)
      = ∑ k : Fin 128,
          Spec.normWith (Spec.row μ₁) (Spec.row v₁) eps
            (Spec.linT (fun _ : Fin 1 => fun k' => x (ix2 r k')) (Spec.mat W₁) (Spec.row b₁)) (Spec.row γ₁) (Spec.row β₁) 0 k
          * W₂ (ix2 k q) := by
  unfold k2_pay2
  refine (product_entry _ W₂ r q).trans ?_
  refine Finset.sum_congr rfl fun k _ => ?_
  refine congrArg (· * W₂ (ix2 k q)) ?_
  refine (norm_entry _ b₁ v₁ μ₁ γ₁ β₁ r k).trans ?_
  rw [product_entry]
  rfl

/-- A tile of the body's result, at an entry, is `rowOut` of the activation tile's row. -/
theorem finalBlock_entry (x : Vec Ideal S4096x128 .f32) (W₁ : Vec Ideal S128x128 .f32) (b₁ μ₁ v₁ γ₁ β₁ : Vec Ideal S1x128 .f32)
    (W₂ : Vec Ideal S128x128 .f32) (b₂ μ₂ v₂ γ₂ β₂ : Vec Ideal S1x128 .f32) (r : Fin 4096) (q : Fin 128) :
    finalBlock x W₁ b₁ μ₁ v₁ γ₁ β₁ W₂ b₂ μ₂ v₂ γ₂ β₂ (ix2 r q)
      = rowOut (fun k => x (ix2 r k)) (Spec.mat W₁) (Spec.row b₁) (Spec.row μ₁) (Spec.row v₁) (Spec.row γ₁) (Spec.row β₁)
          (Spec.mat W₂) (Spec.row b₂) (Spec.row μ₂) (Spec.row v₂) (Spec.row γ₂) (Spec.row β₂) q := by
  unfold finalBlock k2_pay1 rowOut
  refine (addf_apply _ _ _).trans ?_
  refine congrArg (· + x (ix2 r q)) ?_
  refine (norm_entry _ b₂ v₂ μ₂ γ₂ β₂ r q).trans ?_
  rw [inner_entry]
  rfl

/-! ## Tiles and arrays -/

/-- The index maps, decided over the 64 grid points: the activation and the output advance one tile of rows per point and
    stay in their only tile of columns; every other operand stays at its only tile. -/
theorem grid_facts : ∀ t : Fin cfg2.N,
    win2_0.index t (0 : Fin 2) = t.val
    ∧ win2_0.index t (1 : Fin 2) = 0
    ∧ win2_13.index t (0 : Fin 2) = t.val
    ∧ win2_13.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0 :=
  (by decide +kernel : ∀ t : Fin grid2.N, _)

theorem point_lt (t : Fin cfg2.N) : t.val < 64 := t.isLt.trans_eq N_2

/-- Row `r` of the activation's tile at point `t` is row `4096·t + r` of the activation. -/
theorem act_tile (c : Dev nD) (t : Fin cfg2.N) (r : Fin 4096) (k : Fin 128) :
    tile V c 0 t (ix2 r k)
      = (V c main_arg0 : S262144x128.Idx → EReal) (ix2 (⟨t.val * 4096 + r.val, by have := point_lt t; omega⟩ : Fin 262144) k) := by
  show (V c main_arg0 : S262144x128.Idx → EReal) (((cfg2.win 0).blk t).view.emb (ix2 r k)) = _
  refine congrArg _ (funext fun a => Fin.ext ?_)
  match a with
  | ⟨0, _⟩ => show win2_0.index t (0 : Fin 2) * 4096 + 1 * r.val = t.val * 4096 + r.val; rw [(grid_facts t).1]; omega
  | ⟨1, _⟩ => show win2_0.index t (1 : Fin 2) * 128 + 1 * k.val = k.val; rw [(grid_facts t).2.1]; omega

/-- Every other operand's tile, at every point, is the operand's whole array. -/
theorem tile_1 (c : Dev nD) (t : Fin cfg2.N) : (tile V c 1 t : S128x128.Idx → EReal) = V c main_v0 := by
  funext j
  show (V c main_v0 : S128x128.Idx → EReal) (((cfg2.win 1).blk t).view.emb j) = V c main_v0 j
  refine congrArg _ (funext fun a => Fin.ext ?_)
  match a with
  | ⟨0, _⟩ => show win2_1.index t (0 : Fin 2) * 128 + 1 * (j 0).val = (j 0).val; rw [(grid_facts t).2.2.2.2.1]; omega
  | ⟨1, _⟩ => show win2_1.index t (1 : Fin 2) * 128 + 1 * (j 1).val = (j 1).val; rw [(grid_facts t).2.2.2.2.2.1]; omega
theorem tile_2 (c : Dev nD) (t : Fin cfg2.N) : (tile V c 2 t : S1x128.Idx → EReal) = V c main_v2 := by
  funext j
  show (V c main_v2 : S1x128.Idx → EReal) (((cfg2.win 2).blk t).view.emb j) = V c main_v2 j
  refine congrArg _ (funext fun a => Fin.ext ?_)
  match a with
  | ⟨0, _⟩ => show win2_2.index t (0 : Fin 2) * 1 + 1 * (j 0).val = (j 0).val; rw [(grid_facts t).2.2.2.2.2.2.1]; omega
  | ⟨1, _⟩ => show win2_2.index t (1 : Fin 2) * 128 + 1 * (j 1).val = (j 1).val; rw [(grid_facts t).2.2.2.2.2.2.2.1]; omega
theorem tile_3 (c : Dev nD) (t : Fin cfg2.N) : (tile V c 3 t : S1x128.Idx → EReal) = V c main_v8_0 := by
  funext j
  show (V c main_v8_0 : S1x128.Idx → EReal) (((cfg2.win 3).blk t).view.emb j) = V c main_v8_0 j
  refine congrArg _ (funext fun a => Fin.ext ?_)
  match a with
  | ⟨0, _⟩ => show win2_3.index t (0 : Fin 2) * 1 + 1 * (j 0).val = (j 0).val; rw [(grid_facts t).2.2.2.2.2.2.2.2.1]; omega
  | ⟨1, _⟩ => show win2_3.index t (1 : Fin 2) * 128 + 1 * (j 1).val = (j 1).val; rw [(grid_facts t).2.2.2.2.2.2.2.2.2.1]; omega
theorem tile_4 (c : Dev nD) (t : Fin cfg2.N) : (tile V c 4 t : S1x128.Idx → EReal) = V c main_v8_1 := by
  funext j
  show (V c main_v8_1 : S1x128.Idx → EReal) (((cfg2.win 4).blk t).view.emb j) = V c main_v8_1 j
  refine congrArg _ (funext fun a => Fin.ext ?_)
  match a with
  | ⟨0, _⟩ => show win2_4.index t (0 : Fin 2) * 1 + 1 * (j 0).val = (j 0).val; rw [(grid_facts t).2.2.2.2.2.2.2.2.2.2.1]; omega
  | ⟨1, _⟩ => show win2_4.index t (1 : Fin 2) * 128 + 1 * (j 1).val = (j 1).val; rw [(grid_facts t).2.2.2.2.2.2.2.2.2.2.2.1]; omega
theorem tile_5 (c : Dev nD) (t : Fin cfg2.N) : (tile V c 5 t : S1x128.Idx → EReal) = V c main_v3 := by
  funext j
  show (V c main_v3 : S1x128.Idx → EReal) (((cfg2.win 5).blk t).view.emb j) = V c main_v3 j
  refine congrArg _ (funext fun a => Fin.ext ?_)
  match a with
  | ⟨0, _⟩ => show win2_5.index t (0 : Fin 2) * 1 + 1 * (j 0).val = (j 0).val; rw [(grid_facts t).2.2.2.2.2.2.2.2.2.2.2.2.1]; omega
  | ⟨1, _⟩ => show win2_5.index t (1 : Fin 2) * 128 + 1 * (j 1).val = (j 1).val; rw [(grid_facts t).2.2.2.2.2.2.2.2.2.2.2.2.2.1]; omega
theorem tile_6 (c : Dev nD) (t : Fin cfg2.N) : (tile V c 6 t : S1x128.Idx → EReal) = V c main_v4 := by
  funext j
  show (V c main_v4 : S1x128.Idx → EReal) (((cfg2.win 6).blk t).view.emb j) = V c main_v4 j
  refine congrArg _ (funext fun a => Fin.ext ?_)
  match a with
  | ⟨0, _⟩ => show win2_6.index t (0 : Fin 2) * 1 + 1 * (j 0).val = (j 0).val; rw [(grid_facts t).2.2.2.2.2.2.2.2.2.2.2.2.2.2.1]; omega
  | ⟨1, _⟩ => show win2_6.index t (1 : Fin 2) * 128 + 1 * (j 1).val = (j 1).val; rw [(grid_facts t).2.2.2.2.2.2.2.2.2.2.2.2.2.2.2.1]; omega
theorem tile_7 (c : Dev nD) (t : Fin cfg2.N) : (tile V c 7 t : S128x128.Idx → EReal) = V c main_v1 := by
  funext j
  show (V c main_v1 : S128x128.Idx → EReal) (((cfg2.win 7).blk t).view.emb j) = V c main_v1 j
  refine congrArg _ (funext fun a => Fin.ext ?_)
  match a with
  | ⟨0, _⟩ => show win2_7.index t (0 : Fin 2) * 128 + 1 * (j 0).val = (j 0).val; rw [(grid_facts t).2.2.2.2.2.2.2.2.2.2.2.2.2.2.2.2.1]; omega
  | ⟨1, _⟩ => show win2_7.index t (1 : Fin 2) * 128 + 1 * (j 1).val = (j 1).val; rw [(grid_facts t).2.2.2.2.2.2.2.2.2.2.2.2.2.2.2.2.2.1]; omega
theorem tile_8 (c : Dev nD) (t : Fin cfg2.N) : (tile V c 8 t : S1x128.Idx → EReal) = V c main_v5 := by
  funext j
  show (V c main_v5 : S1x128.Idx → EReal) (((cfg2.win 8).blk t).view.emb j) = V c main_v5 j
  refine congrArg _ (funext fun a => Fin.ext ?_)
  match a with
  | ⟨0, _⟩ => show win2_8.index t (0 : Fin 2) * 1 + 1 * (j 0).val = (j 0).val; rw [(grid_facts t).2.2.2.2.2.2.2.2.2.2.2.2.2.2.2.2.2.2.1]; omega
  | ⟨1, _⟩ => show win2_8.index t (1 : Fin 2) * 128 + 1 * (j 1).val = (j 1).val; rw [(grid_facts t).2.2.2.2.2.2.2.2.2.2.2.2.2.2.2.2.2.2.2.1]; omega
theorem tile_9 (c : Dev nD) (t : Fin cfg2.N) : (tile V c 9 t : S1x128.Idx → EReal) = V c main_v9_0 := by
  funext j
  show (V c main_v9_0 : S1x128.Idx → EReal) (((cfg2.win 9).blk t).view.emb j) = V c main_v9_0 j
  refine congrArg _ (funext fun a => Fin.ext ?_)
  match a with
  | ⟨0, _⟩ => show win2_9.index t (0 : Fin 2) * 1 + 1 * (j 0).val = (j 0).val; rw [(grid_facts t).2.2.2.2.2.2.2.2.2.2.2.2.2.2.2.2.2.2.2.2.1]; omega
  | ⟨1, _⟩ => show win2_9.index t (1 : Fin 2) * 128 + 1 * (j 1).val = (j 1).val; rw [(grid_facts t).2.2.2.2.2.2.2.2.2.2.2.2.2.2.2.2.2.2.2.2.2.1]; omega
theorem tile_10 (c : Dev nD) (t : Fin cfg2.N) : (tile V c 10 t : S1x128.Idx → EReal) = V c main_v9_1 := by
  funext j
  show (V c main_v9_1 : S1x128.Idx → EReal) (((cfg2.win 10).blk t).view.emb j) = V c main_v9_1 j
  refine congrArg _ (funext fun a => Fin.ext ?_)
  match a with
  | ⟨0, _⟩ => show win2_10.index t (0 : Fin 2) * 1 + 1 * (j 0).val = (j 0).val; rw [(grid_facts t).2.2.2.2.2.2.2.2.2.2.2.2.2.2.2.2.2.2.2.2.2.2.1]; omega
  | ⟨1, _⟩ => show win2_10.index t (1 : Fin 2) * 128 + 1 * (j 1).val = (j 1).val; rw [(grid_facts t).2.2.2.2.2.2.2.2.2.2.2.2.2.2.2.2.2.2.2.2.2.2.2.1]; omega
theorem tile_11 (c : Dev nD) (t : Fin cfg2.N) : (tile V c 11 t : S1x128.Idx → EReal) = V c main_v6 := by
  funext j
  show (V c main_v6 : S1x128.Idx → EReal) (((cfg2.win 11).blk t).view.emb j) = V c main_v6 j
  refine congrArg _ (funext fun a => Fin.ext ?_)
  match a with
  | ⟨0, _⟩ => show win2_11.index t (0 : Fin 2) * 1 + 1 * (j 0).val = (j 0).val; rw [(grid_facts t).2.2.2.2.2.2.2.2.2.2.2.2.2.2.2.2.2.2.2.2.2.2.2.2.1]; omega
  | ⟨1, _⟩ => show win2_11.index t (1 : Fin 2) * 128 + 1 * (j 1).val = (j 1).val; rw [(grid_facts t).2.2.2.2.2.2.2.2.2.2.2.2.2.2.2.2.2.2.2.2.2.2.2.2.2.1]; omega
theorem tile_12 (c : Dev nD) (t : Fin cfg2.N) : (tile V c 12 t : S1x128.Idx → EReal) = V c main_v7 := by
  funext j
  show (V c main_v7 : S1x128.Idx → EReal) (((cfg2.win 12).blk t).view.emb j) = V c main_v7 j
  refine congrArg _ (funext fun a => Fin.ext ?_)
  match a with
  | ⟨0, _⟩ => show win2_12.index t (0 : Fin 2) * 1 + 1 * (j 0).val = (j 0).val; rw [(grid_facts t).2.2.2.2.2.2.2.2.2.2.2.2.2.2.2.2.2.2.2.2.2.2.2.2.2.2.1]; omega
  | ⟨1, _⟩ => show win2_12.index t (1 : Fin 2) * 128 + 1 * (j 1).val = (j 1).val; rw [(grid_facts t).2.2.2.2.2.2.2.2.2.2.2.2.2.2.2.2.2.2.2.2.2.2.2.2.2.2.2]; omega

/-! ## The output array -/

/-- Entry `(p, q)` of the result: `rowOut` of row `p` of the activation, with the twelve small operands as found. -/
def outEntry (c : Dev nD) (p : Fin 262144) (q : Fin 128) : EReal :=
  rowOut (fun k => (V c main_arg0 : S262144x128.Idx → EReal) (ix2 p k)) (Spec.mat (V c main_v0)) (Spec.row (V c main_v2)) (Spec.row (V c main_v8_0)) (Spec.row (V c main_v8_1)) (Spec.row (V c main_v3)) (Spec.row (V c main_v4)) (Spec.mat (V c main_v1)) (Spec.row (V c main_v5)) (Spec.row (V c main_v9_0)) (Spec.row (V c main_v9_1)) (Spec.row (V c main_v6)) (Spec.row (V c main_v7)) q

/-- The result as an array. -/
def outArray (c : Dev nD) : S262144x128.Idx → EReal := fun i => outEntry V c (i 0) (i 1)

/-- What point `t` writes back is tile `t` of `outArray`. -/
theorem written_back (c : Dev nD) (t : Fin cfg2.N) :
    (dat2 V c).flushed 13 t = ((cfg2.win 13).blk t).view.read (Elt Ideal) (outArray V c) := by
  show (cfg2.win 13).cut (grid2.coords t) ((dat2 V c).after 13 t) = _
  rw [output_left]
  funext j
  obtain ⟨r, q, rfl⟩ : ∃ (r : Fin 4096) (q : Fin 128), j = ix2 r q := ⟨j 0, j 1, eq_ix2 j⟩
  have hb : t.val * 4096 + r.val < 262144 := by have := point_lt t; omega
  have e0 : (((cfg2.win 13).blk t).view.emb (ix2 r q)) 0 = (⟨t.val * 4096 + r.val, hb⟩ : Fin 262144) :=
    Fin.ext (by show win2_13.index t (0 : Fin 2) * 4096 + 1 * r.val = t.val * 4096 + r.val; rw [(grid_facts t).2.2.1]; omega)
  have e1 : (((cfg2.win 13).blk t).view.emb (ix2 r q)) 1 = q :=
    Fin.ext (by show win2_13.index t (1 : Fin 2) * 128 + 1 * q.val = q.val; rw [(grid_facts t).2.2.2.1]; omega)
  refine (finalBlock_entry (tile V c 0 t) (tile V c 1 t) (tile V c 2 t) (tile V c 3 t) (tile V c 4 t) (tile V c 5 t) (tile V c 6 t) (tile V c 7 t) (tile V c 8 t) (tile V c 9 t) (tile V c 10 t) (tile V c 11 t) (tile V c 12 t) r q).trans ?_
  rw [tile_1 V c t, tile_2 V c t, tile_3 V c t, tile_4 V c t, tile_5 V c t, tile_6 V c t, tile_7 V c t, tile_8 V c t, tile_9 V c t, tile_10 V c t, tile_11 V c t, tile_12 V c t]
  have hx : (fun k => tile V c 0 t (ix2 r k))
      = fun k => (V c main_arg0 : S262144x128.Idx → EReal) (ix2 (⟨t.val * 4096 + r.val, hb⟩ : Fin 262144) k) := funext fun k => act_tile V c t r k
  rw [hx]
  show outEntry V c ⟨t.val * 4096 + r.val, hb⟩ q = outEntry V c _ _
  rw [e0, e1]

/-- A cell of the output array lies in point `t`'s tile exactly when each coordinate lies in the tile's range. -/
theorem mem_out_tile (t : Fin cfg2.N) (i : S262144x128.Idx) :
    i ∈ ((cfg2.win 13).blk t).view.set ↔ ∀ a : Fin 2, win2_13.index t a * S4096x128.size a ≤ (i a).val
      ∧ (i a).val < win2_13.index t a * S4096x128.size a + S4096x128.size a := by
  show i ∈ ((View.whole main_v10).slice (win2_13.rect t)).set ↔ _
  rw [View.set_slice_whole, Rect.mem_set_unit]
  exact Iff.rfl

/-- Row `p` lies in the tile of point `p / 4096`, and that point writes its tile back. -/
theorem tiles_fill (i : S262144x128.Idx) :
    ∃ t : Fin cfg2.N, (cfg2.win 13).flush t = true ∧ i ∈ ((cfg2.win 13).blk t).view.set := by
  have hi0 : (i 0).val < 262144 := idx2_lt0 i
  have hi1 : (i 1).val < 128 := idx2_lt1 i
  have hN : (i 0).val / 4096 < cfg2.N := by rw [show cfg2.N = 64 from N_2]; omega
  refine ⟨⟨(i 0).val / 4096, hN⟩, flush2_13 _, ?_⟩
  rw [mem_out_tile]
  obtain ⟨-, -, h0, h1, -⟩ := grid_facts ⟨(i 0).val / 4096, hN⟩
  intro a
  match a with
  | ⟨0, _⟩ =>
    show win2_13.index _ (0 : Fin 2) * 4096 ≤ (i 0).val ∧ (i 0).val < win2_13.index _ (0 : Fin 2) * 4096 + 4096
    rw [h0]; show (i 0).val / 4096 * 4096 ≤ (i 0).val ∧ (i 0).val < (i 0).val / 4096 * 4096 + 4096; omega
  | ⟨1, _⟩ =>
    show win2_13.index _ (1 : Fin 2) * 128 ≤ (i 1).val ∧ (i 1).val < win2_13.index _ (1 : Fin 2) * 128 + 128
    rw [h1]; omega

/-- After the last point the output array is `outArray`. -/
theorem out_array_eq (c : Dev nD) : (dat2 V c).arrAt 13 cfg2.N = outArray V c :=
  (dat2 V c).arrAt_eq_of_cover 13 (outArray V c) (fun t _ => written_back V c t) tiles_fill

end Final

open Final

/-- Entry `(p, q)` of the output array after the call, in the specification's words. -/
theorem final_eq (c : Dev nD) (p : Fin 262144) (q : Fin 128) :
    ((dat2 (F := Ideal) V c).arrAt 13 cfg2.N) (ValueIdx.ix2 p q)
      = Spec.normWith (Spec.row (V c main_v9_0)) (Spec.row (V c main_v9_1)) (Ideal.ofBits .f32 0x3727C5AC#32)
          (Spec.linT (Spec.normWith (Spec.row (V c main_v8_0)) (Spec.row (V c main_v8_1)) (Ideal.ofBits .f32 0x3727C5AC#32)
              (Spec.linT (Spec.mat (V c main_arg0)) (Spec.mat (V c main_v0)) (Spec.row (V c main_v2))) (Spec.row (V c main_v3)) (Spec.row (V c main_v4)))
            (Spec.mat (V c main_v1)) (Spec.row (V c main_v5)))
          (Spec.row (V c main_v6)) (Spec.row (V c main_v7)) p q
        + Spec.mat (V c main_arg0) p q := by
  rw [out_array_eq]
  rfl

end Cert.KernelIdeal.Hand

end
-- ==== Proof.KernelValue.lean ====
/-
  The kernel program's result, entry by entry, is the specification's kernel form of the block.

  With the arguments read as matrices and vectors: the first pass's view of its arrays is the first dense layer
  `o1`, and it leaves `o1`'s column mean and clamped variance; with those, the second pass's view is the second
  dense layer `o2` of the normalised first layer, and it leaves `o2`'s moments; the third pass normalises `o2`
  with them and adds the input back.
-/
import proofs.«159717_j8890582303003_2_alg».proof.Proof.KernelReads
import proofs.«159717_j8890582303003_2_alg».proof.Proof.Stats1Value
import proofs.«159717_j8890582303003_2_alg».proof.Proof.Stats2Value
import proofs.«159717_j8890582303003_2_alg».proof.Proof.FinalValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg) (c : Dev nD)

/-- The reciprocal of the row count and the variance offset, as the kernel spells them. -/
abbrev iNw : EReal := Ideal.ofBits .f32 0x36800000#32
abbrev epsw : EReal := Ideal.ofBits .f32 0x3727C5AC#32

/-! ## The arguments as matrices and vectors -/

def aX : Fin 262144 → Fin 128 → EReal := Spec.mat (arg m c main_arg0 : S262144x128.Idx → EReal)
def aW1 : Fin 128 → Fin 128 → EReal := Spec.mat (arg m c main_arg1 : S128x128.Idx → EReal)
def ab1 : Fin 128 → EReal := Spec.vec (arg m c main_arg2 : S128.Idx → EReal)
def ag1 : Fin 128 → EReal := Spec.vec (arg m c main_arg3 : S128.Idx → EReal)
def abe1 : Fin 128 → EReal := Spec.vec (arg m c main_arg4 : S128.Idx → EReal)
def aW2 : Fin 128 → Fin 128 → EReal := Spec.mat (arg m c main_arg5 : S128x128.Idx → EReal)
def ab2 : Fin 128 → EReal := Spec.vec (arg m c main_arg6 : S128.Idx → EReal)
def ag2 : Fin 128 → EReal := Spec.vec (arg m c main_arg7 : S128.Idx → EReal)
def abe2 : Fin 128 → EReal := Spec.vec (arg m c main_arg8 : S128.Idx → EReal)

/-- The first dense layer, the normalised first layer, the second dense layer. -/
def o1 : Fin 262144 → Fin 128 → EReal := Spec.lin (aX m c) (aW1 m c) (ab1 m c)
def h1 : Fin 262144 → Fin 128 → EReal := Spec.kerNorm iNw epsw (o1 m c) (ag1 m c) (abe1 m c)
def o2 : Fin 262144 → Fin 128 → EReal := Spec.lin (h1 m c) (aW2 m c) (ab2 m c)

/-! ## The passes' arrays in these terms -/

theorem mat_V1_arg0 : Spec.mat (V1 m ρ c main_arg0 : S262144x128.Idx → EReal) = aX m c :=
  congrArg (fun v : S262144x128.Idx → EReal => Spec.mat v) (V1_arg0 m ρ c)
theorem mat_V1_v0 : Spec.mat (V1 m ρ c main_v0 : S128x128.Idx → EReal) = fun k q => aW1 m c q k :=
  (congrArg (fun v : S128x128.Idx → EReal => Spec.mat v) (host_v0 m ρ c)).trans (mat_transpose _)
theorem mat_V1_v1 : Spec.mat (V1 m ρ c main_v1 : S128x128.Idx → EReal) = fun k q => aW2 m c q k :=
  (congrArg (fun v : S128x128.Idx → EReal => Spec.mat v) (host_v1 m ρ c)).trans (mat_transpose _)
theorem row_V1_v2 : Spec.row (V1 m ρ c main_v2 : S1x128.Idx → EReal) = ab1 m c :=
  (congrArg (fun v : S1x128.Idx → EReal => Spec.row v) (host_v2 m ρ c)).trans (row_reshape _)
theorem row_V1_v3 : Spec.row (V1 m ρ c main_v3 : S1x128.Idx → EReal) = ag1 m c :=
  (congrArg (fun v : S1x128.Idx → EReal => Spec.row v) (host_v3 m ρ c)).trans (row_reshape _)
theorem row_V1_v4 : Spec.row (V1 m ρ c main_v4 : S1x128.Idx → EReal) = abe1 m c :=
  (congrArg (fun v : S1x128.Idx → EReal => Spec.row v) (host_v4 m ρ c)).trans (row_reshape _)
theorem row_V1_v5 : Spec.row (V1 m ρ c main_v5 : S1x128.Idx → EReal) = ab2 m c :=
  (congrArg (fun v : S1x128.Idx → EReal => Spec.row v) (host_v5 m ρ c)).trans (row_reshape _)
theorem row_V1_v6 : Spec.row (V1 m ρ c main_v6 : S1x128.Idx → EReal) = ag2 m c :=
  (congrArg (fun v : S1x128.Idx → EReal => Spec.row v) (host_v6 m ρ c)).trans (row_reshape _)
theorem row_V1_v7 : Spec.row (V1 m ρ c main_v7 : S1x128.Idx → EReal) = abe2 m c :=
  (congrArg (fun v : S1x128.Idx → EReal => Spec.row v) (host_v7 m ρ c)).trans (row_reshape _)

/-- The first pass sees the first dense layer. -/
theorem view1 : Spec.linT (Spec.mat (V1 m ρ c main_arg0 : S262144x128.Idx → EReal)) (Spec.mat (V1 m ρ c main_v0 : S128x128.Idx → EReal))
      (Spec.row (V1 m ρ c main_v2 : S1x128.Idx → EReal)) = o1 m c := by
  rw [mat_V1_arg0, mat_V1_v0, row_V1_v2]; rfl

/-- What the first pass leaves: the first layer's column mean and clamped variance. -/
theorem row_mean1 : Spec.row (V2 m ρ c main_v8_0 : S1x128.Idx → EReal) = Spec.kerMean iNw (o1 m c) := by
  funext q
  exact (congrFun (V2_v8_0 m ρ c) (ix2 0 q)).trans ((mean1_eq (V1 m ρ) c q).trans (congrArg (fun o => Spec.kerMean iNw o q) (view1 m ρ c)))
theorem row_var1 : Spec.row (V2 m ρ c main_v8_1 : S1x128.Idx → EReal) = Spec.kerVar iNw (o1 m c) := by
  funext q
  exact (congrFun (V2_v8_1 m ρ c) (ix2 0 q)).trans ((var1_eq (V1 m ρ) c q).trans (congrArg (fun o => Spec.kerVar iNw o q) (view1 m ρ c)))

/-- The arrays as the second pass finds them. -/
theorem mat_V2_arg0 : Spec.mat (V2 m ρ c main_arg0 : S262144x128.Idx → EReal) = aX m c :=
  congrArg (fun v : S262144x128.Idx → EReal => Spec.mat v) (V2_arg0 m ρ c)
theorem mat_V2_v0 : Spec.mat (V2 m ρ c main_v0 : S128x128.Idx → EReal) = Spec.mat (V1 m ρ c main_v0 : S128x128.Idx → EReal) :=
  congrArg (fun v : S128x128.Idx → EReal => Spec.mat v) (V2_v0 m ρ c)
theorem mat_V2_v1 : Spec.mat (V2 m ρ c main_v1 : S128x128.Idx → EReal) = Spec.mat (V1 m ρ c main_v1 : S128x128.Idx → EReal) :=
  congrArg (fun v : S128x128.Idx → EReal => Spec.mat v) (V2_v1 m ρ c)
theorem row_V2_v2 : Spec.row (V2 m ρ c main_v2 : S1x128.Idx → EReal) = Spec.row (V1 m ρ c main_v2 : S1x128.Idx → EReal) :=
  congrArg (fun v : S1x128.Idx → EReal => Spec.row v) (V2_v2 m ρ c)
theorem row_V2_v3 : Spec.row (V2 m ρ c main_v3 : S1x128.Idx → EReal) = Spec.row (V1 m ρ c main_v3 : S1x128.Idx → EReal) :=
  congrArg (fun v : S1x128.Idx → EReal => Spec.row v) (V2_v3 m ρ c)
theorem row_V2_v4 : Spec.row (V2 m ρ c main_v4 : S1x128.Idx → EReal) = Spec.row (V1 m ρ c main_v4 : S1x128.Idx → EReal) :=
  congrArg (fun v : S1x128.Idx → EReal => Spec.row v) (V2_v4 m ρ c)
theorem row_V2_v5 : Spec.row (V2 m ρ c main_v5 : S1x128.Idx → EReal) = Spec.row (V1 m ρ c main_v5 : S1x128.Idx → EReal) :=
  congrArg (fun v : S1x128.Idx → EReal => Spec.row v) (V2_v5 m ρ c)
theorem row_V2_v6 : Spec.row (V2 m ρ c main_v6 : S1x128.Idx → EReal) = Spec.row (V1 m ρ c main_v6 : S1x128.Idx → EReal) :=
  congrArg (fun v : S1x128.Idx → EReal => Spec.row v) (V2_v6 m ρ c)
theorem row_V2_v7 : Spec.row (V2 m ρ c main_v7 : S1x128.Idx → EReal) = Spec.row (V1 m ρ c main_v7 : S1x128.Idx → EReal) :=
  congrArg (fun v : S1x128.Idx → EReal => Spec.row v) (V2_v7 m ρ c)

/-- The second pass sees the second dense layer of the normalised first layer. -/
theorem view2 : Spec.linT
      (Spec.normWith (Spec.row (V2 m ρ c main_v8_0 : S1x128.Idx → EReal)) (Spec.row (V2 m ρ c main_v8_1 : S1x128.Idx → EReal)) epsw
        (Spec.linT (Spec.mat (V2 m ρ c main_arg0 : S262144x128.Idx → EReal)) (Spec.mat (V2 m ρ c main_v0 : S128x128.Idx → EReal))
          (Spec.row (V2 m ρ c main_v2 : S1x128.Idx → EReal)))
        (Spec.row (V2 m ρ c main_v3 : S1x128.Idx → EReal)) (Spec.row (V2 m ρ c main_v4 : S1x128.Idx → EReal)))
      (Spec.mat (V2 m ρ c main_v1 : S128x128.Idx → EReal)) (Spec.row (V2 m ρ c main_v5 : S1x128.Idx → EReal)) = o2 m c := by
  rw [row_mean1, row_var1, mat_V2_arg0, mat_V2_v0, row_V2_v2, row_V2_v3, row_V2_v4, mat_V2_v1, row_V2_v5,
    mat_V1_v0, row_V1_v2, row_V1_v3, row_V1_v4, mat_V1_v1, row_V1_v5]
  rfl

/-- What the second pass leaves: the second layer's column mean and clamped variance. -/
theorem row_mean2 : Spec.row (V3 m ρ c main_v9_0 : S1x128.Idx → EReal) = Spec.kerMean iNw (o2 m c) := by
  funext q
  exact (congrFun (V3_v9_0 m ρ c) (ix2 0 q)).trans ((mean2_eq (V2 m ρ) c q).trans (congrArg (fun o => Spec.kerMean iNw o q) (view2 m ρ c)))
theorem row_var2 : Spec.row (V3 m ρ c main_v9_1 : S1x128.Idx → EReal) = Spec.kerVar iNw (o2 m c) := by
  funext q
  exact (congrFun (V3_v9_1 m ρ c) (ix2 0 q)).trans ((var2_eq (V2 m ρ) c q).trans (congrArg (fun o => Spec.kerVar iNw o q) (view2 m ρ c)))

/-- The arrays as the third pass finds them. -/
theorem mat_V3_arg0 : Spec.mat (V3 m ρ c main_arg0 : S262144x128.Idx → EReal) = aX m c :=
  congrArg (fun v : S262144x128.Idx → EReal => Spec.mat v) (V3_arg0 m ρ c)
theorem mat_V3_v0 : Spec.mat (V3 m ρ c main_v0 : S128x128.Idx → EReal) = Spec.mat (V1 m ρ c main_v0 : S128x128.Idx → EReal) :=
  congrArg (fun v : S128x128.Idx → EReal => Spec.mat v) (V3_v0 m ρ c)
theorem mat_V3_v1 : Spec.mat (V3 m ρ c main_v1 : S128x128.Idx → EReal) = Spec.mat (V1 m ρ c main_v1 : S128x128.Idx → EReal) :=
  congrArg (fun v : S128x128.Idx → EReal => Spec.mat v) (V3_v1 m ρ c)
theorem row_V3_v2 : Spec.row (V3 m ρ c main_v2 : S1x128.Idx → EReal) = Spec.row (V1 m ρ c main_v2 : S1x128.Idx → EReal) :=
  congrArg (fun v : S1x128.Idx → EReal => Spec.row v) (V3_v2 m ρ c)
theorem row_V3_v3 : Spec.row (V3 m ρ c main_v3 : S1x128.Idx → EReal) = Spec.row (V1 m ρ c main_v3 : S1x128.Idx → EReal) :=
  congrArg (fun v : S1x128.Idx → EReal => Spec.row v) (V3_v3 m ρ c)
theorem row_V3_v4 : Spec.row (V3 m ρ c main_v4 : S1x128.Idx → EReal) = Spec.row (V1 m ρ c main_v4 : S1x128.Idx → EReal) :=
  congrArg (fun v : S1x128.Idx → EReal => Spec.row v) (V3_v4 m ρ c)
theorem row_V3_v5 : Spec.row (V3 m ρ c main_v5 : S1x128.Idx → EReal) = Spec.row (V1 m ρ c main_v5 : S1x128.Idx → EReal) :=
  congrArg (fun v : S1x128.Idx → EReal => Spec.row v) (V3_v5 m ρ c)
theorem row_V3_v6 : Spec.row (V3 m ρ c main_v6 : S1x128.Idx → EReal) = Spec.row (V1 m ρ c main_v6 : S1x128.Idx → EReal) :=
  congrArg (fun v : S1x128.Idx → EReal => Spec.row v) (V3_v6 m ρ c)
theorem row_V3_v7 : Spec.row (V3 m ρ c main_v7 : S1x128.Idx → EReal) = Spec.row (V1 m ρ c main_v7 : S1x128.Idx → EReal) :=
  congrArg (fun v : S1x128.Idx → EReal => Spec.row v) (V3_v7 m ρ c)
theorem row_V3_v8_0 : Spec.row (V3 m ρ c main_v8_0 : S1x128.Idx → EReal) = Spec.kerMean iNw (o1 m c) :=
  (congrArg (fun v : S1x128.Idx → EReal => Spec.row v) (V3_v8_0 m ρ c)).trans (row_mean1 m ρ c)
theorem row_V3_v8_1 : Spec.row (V3 m ρ c main_v8_1 : S1x128.Idx → EReal) = Spec.kerVar iNw (o1 m c) :=
  (congrArg (fun v : S1x128.Idx → EReal => Spec.row v) (V3_v8_1 m ρ c)).trans (row_var1 m ρ c)

/-- THE RESULT: entry (p, q) of the kernel program's result is the kernel form of the block of the arguments. -/
theorem result_eq (p : Fin 262144) (q : Fin 128) :
    (B4 m ρ c (Proc.devRef .tc main_v10) : S262144x128.Idx → EReal) (ix2 p q)
      = Spec.kerOut iNw epsw (aX m c) (aW1 m c) (ab1 m c) (ag1 m c) (abe1 m c) (aW2 m c) (ab2 m c) (ag2 m c) (abe2 m c) p q := by
  refine (congrFun (B4_main_v10 m ρ c) (ix2 p q)).trans ((final_eq (V3 m ρ) c p q).trans ?_)
  rw [row_mean2, row_var2, row_V3_v8_0, row_V3_v8_1, mat_V3_arg0, mat_V3_v0, row_V3_v2, row_V3_v3, row_V3_v4, mat_V3_v1, row_V3_v5,
    row_V3_v6, row_V3_v7, mat_V1_v0, row_V1_v2, row_V1_v3, row_V1_v4, mat_V1_v1, row_V1_v5, row_V1_v6, row_V1_v7]
  rfl

end Cert.KernelIdeal.Hand

end
-- ==== Proof.RefRun.lean ====
/-
  The reference program's run, read as one term.

  The reference is a straight line of host operations: two dense layers, each followed by a centring of the
  columns, a batch normalisation (column mean, column variance, reciprocal root, scale and shift) and a clamp
  at zero, and at the end the input added back.  Its helper functions (the variance, its selection against a
  not-a-number pattern, the clamp) are unfolded at their call sites, so the whole program is one list of
  operations; what the result buffer holds after the list is the composed term of the nine arguments.
-/
import proofs.«159717_j8890582303003_2_alg».proof.Proof.Gen.ReferenceIdeal
import Idealize.ShloMosaic.Lib.StableHlo.Run
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo
open Cert.ReferenceIdeal.Facts₀

/-- A length-128 vector repeated down the 262144 rows: first as a single row, then that row on every row. -/
def rowBcast (v : FVec Ideal S128 .f32) : FVec Ideal S262144x128 .f32 :=
  broadcastInDim S262144x128 ![0, 1] bcast_S1x128_S262144x128_0_1 (broadcastInDim S1x128 ![1] bcast_S128_S1x128_1 v)

/-- The column sums from zero, each divided by the row count 262144. -/
def colMean (h : FVec Ideal S262144x128 .f32) : FVec Ideal S128 .f32 :=
  Host.divf (Host.reduceAdd h (constant S_ .f32 0x00000000#32) reducesTo_S262144x128_S128_d0 h_S_)
    (broadcastInDim S128 ![] bcast_S_S128 (constant S_ .f32 0x48800000#32))

/-- The dense layer: the rows of `h` against the columns of the transposed weight, plus the bias on every row. -/
def dense (h : FVec Ideal S262144x128 .f32) (W : FVec Ideal S128x128 .f32) (b : FVec Ideal S128 .f32) :
    FVec Ideal S262144x128 .f32 :=
  addf (Host.dotGeneral dot_S262144x128_S128x128_S262144x128_1_0_0_1_n_n none h
      (transpose S128x128 [1, 0] W transposes_S128x128_S128x128_1_0)) (rowBcast b)

/-- Each column less its mean. -/
def center (h : FVec Ideal S262144x128 .f32) : FVec Ideal S262144x128 .f32 :=
  subf h (rowBcast (colMean h))

/-- The row count less the integer zero converted to a float: the variance's divisor. -/
def varDen : FVec Ideal S_ .f32 :=
  subf (constant S_ .f32 0x48800000#32) (sitofp .f32 (constantI S_ 32 0#32))

/-- The column variance: the mean (kept as one row) subtracted, the deviations squared, their column sums from zero divided
    by the divisor — selected against the not-a-number pattern by whether the divisor is positive. -/
def colVar (h : FVec Ideal S262144x128 .f32) : FVec Ideal S128 .f32 :=
  select (broadcastInDim S128 ![] bcast_S_S128 (cmpf .ogt varDen (constant S_ .f32 0x00000000#32)))
    (Host.divf
      (Host.reduceAdd
        (mulf
          (subf h (broadcastInDim S262144x128 ![0, 1] bcast_S1x128_S262144x128_0_1
            (Host.divf
              (broadcastInDim S1x128 ![1] bcast_S128_S1x128_1
                (Host.reduceAdd h (constant S_ .f32 0x00000000#32) reducesTo_S262144x128_S128_d0 h_S_))
              (broadcastInDim S1x128 ![] bcast_S_S1x128 (constant S_ .f32 0x48800000#32)))))
          (subf h (broadcastInDim S262144x128 ![0, 1] bcast_S1x128_S262144x128_0_1
            (Host.divf
              (broadcastInDim S1x128 ![1] bcast_S128_S1x128_1
                (Host.reduceAdd h (constant S_ .f32 0x00000000#32) reducesTo_S262144x128_S128_d0 h_S_))
              (broadcastInDim S1x128 ![] bcast_S_S1x128 (constant S_ .f32 0x48800000#32))))))
        (constant S_ .f32 0x00000000#32) reducesTo_S262144x128_S128_d0 h_S_)
      (broadcastInDim S128 ![] bcast_S_S128 varDen))
    (broadcastInDim S128 ![] bcast_S_S128 (constant S_ .f32 0x7FC00000#32))

/-- Batch normalisation of the columns: mean subtracted, times the reciprocal root of variance plus ε, scaled, shifted. -/
def bnorm (h : FVec Ideal S262144x128 .f32) (g be : FVec Ideal S128 .f32) : FVec Ideal S262144x128 .f32 :=
  addf
    (mulf
      (mulf (subf h (rowBcast (colMean h)))
        (rowBcast (Host.rsqrt (addf (colVar h) (broadcastInDim S128 ![] bcast_S_S128 (constant S_ .f32 0x3727C5AC#32))))))
      (rowBcast g))
    (rowBcast be)

/-- The maximum against the zero splat. -/
def relu (h : FVec Ideal S262144x128 .f32) : FVec Ideal S262144x128 .f32 :=
  maximumf h (broadcastInDim S262144x128 ![] bcast_S_S262144x128 (constant S_ .f32 0x00000000#32))

/-- One layer: dense, centre, batch-normalise, clamp at zero. -/
def layer (h : FVec Ideal S262144x128 .f32) (W : FVec Ideal S128x128 .f32) (b g be : FVec Ideal S128 .f32) :
    FVec Ideal S262144x128 .f32 :=
  relu (bnorm (center (dense h W b)) g be)

/-- The reference's result as one term of its nine arguments: two layers, the input added back. -/
def refTerm (x : FVec Ideal S262144x128 .f32) (W1 : FVec Ideal S128x128 .f32) (b1 g1 be1 : FVec Ideal S128 .f32)
    (W2 : FVec Ideal S128x128 .f32) (b2 g2 be2 : FVec Ideal S128 .f32) : FVec Ideal S262144x128 .f32 :=
  addf (layer (layer x W1 b1 g1 be1) W2 b2 g2 be2) x
variable {F : FTy → Type} [FloatOps F]

/-- The program's 121 operations in order, the helper functions unfolded at their calls: per layer the transposed
    weight, the contraction, the bias, the column mean and the centring, the second mean, the variance function's
    nineteen with the selection's three, the normalisation's sixteen, the clamp's three; last the input added back. -/
abbrev ops : List (HloOp τ sig (Elt F)) :=
  [ unary main_arg1 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S262144x128 ![0, 1] bcast_S1x128_S262144x128_0_1 : (⟨S1x128, .f32⟩ : BufTy).Contents (Elt F) → (⟨S262144x128, .f32⟩ : BufTy).Contents (Elt F)),
    binary main_v1 main_v3 main_v4 (addf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    binary main_v4 main_cst main_v5 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_0 (constant S_ .f32 0x48800000#32),
    unary main_cst_0 main_v6 (broadcastInDim S128 ![] bcast_S_S128 : (⟨S_, .f32⟩ : BufTy).Contents (Elt F) → (⟨S128, .f32⟩ : BufTy).Contents (Elt F)),
    binary main_v5 main_v6 main_v7 (Host.divf : (⟨S128, .f32⟩ : BufTy).Contents (Elt F) → (⟨S128, .f32⟩ : BufTy).Contents (Elt F) → (⟨S128, .f32⟩ : BufTy).Contents (Elt F)),
    unary main_v7 main_v8 (broadcastInDim S1x128 ![1] bcast_S128_S1x128_1 : (⟨S128, .f32⟩ : BufTy).Contents (Elt F) → (⟨S1x128, .f32⟩ : BufTy).Contents (Elt F)),
    unary main_v8 main_v9 (broadcastInDim S262144x128 ![0, 1] bcast_S1x128_S262144x128_0_1 : (⟨S1x128, .f32⟩ : BufTy).Contents (Elt F) → (⟨S262144x128, .f32⟩ : BufTy).Contents (Elt F)),
    binary main_v4 main_v9 main_v10 (subf : (⟨S262144x128, .f32⟩ : BufTy).Contents (Elt F) → (⟨S262144x128, .f32⟩ : BufTy).Contents (Elt F) → (⟨S262144x128, .f32⟩ : BufTy).Contents (Elt F)),
    nullary main_cst_1 (constant S_ .f32 0x00000000#32),
    binary main_v10 main_cst_1 main_v11 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_2 (constant S_ .f32 0x48800000#32),
    unary main_cst_2 main_v12 (broadcastInDim S128 ![] bcast_S_S128 : (⟨S_, .f32⟩ : BufTy).Contents (Elt F) → (⟨S128, .f32⟩ : BufTy).Contents (Elt F)),
    binary main_v11 main_v12 main_v13 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v10 : TRef sig ⟨S262144x128, .f32⟩) main_call0.cst main_call0.v0 (fun x v => Host.reduceAdd x v reducesTo_S262144x128_S128_d0 h_S_),
    TRef.unary main_call0.v0 main_call0.v1 (broadcastInDim S1x128 ![1] bcast_S128_S1x128_1),
    TRef.nullary main_call0.cst_0 (constant S_ .f32 0x48800000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S262144x128 ![0, 1] bcast_S1x128_S262144x128_0_1),
    TRef.binary (.of main_v10 : TRef sig ⟨S262144x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S262144x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v13 main_v15 (broadcastInDim S1x128 ![1] bcast_S128_S1x128_1 : (⟨S128, .f32⟩ : BufTy).Contents (Elt F) → (⟨S1x128, .f32⟩ : BufTy).Contents (Elt F)),
    unary main_v15 main_v16 (broadcastInDim S262144x128 ![0, 1] bcast_S1x128_S262144x128_0_1 : (⟨S1x128, .f32⟩ : BufTy).Contents (Elt F) → (⟨S262144x128, .f32⟩ : BufTy).Contents (Elt F)),
    binary main_v10 main_v16 main_v17 (subf : (⟨S262144x128, .f32⟩ : BufTy).Contents (Elt F) → (⟨S262144x128, .f32⟩ : BufTy).Contents (Elt F) → (⟨S262144x128, .f32⟩ : BufTy).Contents (Elt F)),
    nullary main_cst_3 (constant S_ .f32 0x3727C5AC#32),
    unary main_cst_3 main_v18 (broadcastInDim S128 ![] bcast_S_S128 : (⟨S_, .f32⟩ : BufTy).Contents (Elt F) → (⟨S128, .f32⟩ : BufTy).Contents (Elt F)),
    binary main_v14 main_v18 main_v19 (addf : (⟨S128, .f32⟩ : BufTy).Contents (Elt F) → (⟨S128, .f32⟩ : BufTy).Contents (Elt F) → (⟨S128, .f32⟩ : BufTy).Contents (Elt F)),
    unary main_v19 main_v20 (Host.rsqrt : (⟨S128, .f32⟩ : BufTy).Contents (Elt F) → (⟨S128, .f32⟩ : BufTy).Contents (Elt F)),
    unary main_v20 main_v21 (broadcastInDim S1x128 ![1] bcast_S128_S1x128_1 : (⟨S128, .f32⟩ : BufTy).Contents (Elt F) → (⟨S1x128, .f32⟩ : BufTy).Contents (Elt F)),
    unary main_v21 main_v22 (broadcastInDim S262144x128 ![0, 1] bcast_S1x128_S262144x128_0_1 : (⟨S1x128, .f32⟩ : BufTy).Contents (Elt F) → (⟨S262144x128, .f32⟩ : BufTy).Contents (Elt F)),
    binary main_v17 main_v22 main_v23 (mulf : (⟨S262144x128, .f32⟩ : BufTy).Contents (Elt F) → (⟨S262144x128, .f32⟩ : BufTy).Contents (Elt F) → (⟨S262144x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S262144x128 ![0, 1] bcast_S1x128_S262144x128_0_1 : (⟨S1x128, .f32⟩ : BufTy).Contents (Elt F) → (⟨S262144x128, .f32⟩ : BufTy).Contents (Elt F)),
    binary main_v23 main_v25 main_v26 (mulf : (⟨S262144x128, .f32⟩ : BufTy).Contents (Elt F) → (⟨S262144x128, .f32⟩ : BufTy).Contents (Elt F) → (⟨S262144x128, .f32⟩ : BufTy).Contents (Elt F)),
    unary main_arg4 main_v27 (broadcastInDim S1x128 ![1] bcast_S128_S1x128_1 : (⟨S128, .f32⟩ : BufTy).Contents (Elt F) → (⟨S1x128, .f32⟩ : BufTy).Contents (Elt F)),
    unary main_v27 main_v28 (broadcastInDim S262144x128 ![0, 1] bcast_S1x128_S262144x128_0_1 : (⟨S1x128, .f32⟩ : BufTy).Contents (Elt F) → (⟨S262144x128, .f32⟩ : BufTy).Contents (Elt F)),
    binary main_v26 main_v28 main_v29 (addf : (⟨S262144x128, .f32⟩ : BufTy).Contents (Elt F) → (⟨S262144x128, .f32⟩ : BufTy).Contents (Elt F) → (⟨S262144x128, .f32⟩ : BufTy).Contents (Elt F)),
    TRef.nullary main_call1.cst (constant S_ .f32 0x00000000#32),
    TRef.unary main_call1.cst main_call1.v0 (broadcastInDim S262144x128 ![] bcast_S_S262144x128),
    TRef.binary (.of main_v29 : TRef sig ⟨S262144x128, .f32⟩) main_call1.v0 main_call1.v1 maximumf,
    unary main_arg5 main_v31 ((transpose S128x128 [1, 0] · transposes_S128x128_S128x128_1_0) : (⟨S128x128, .f32⟩ : BufTy).Contents (Elt F) → (⟨S128x128, .f32⟩ : BufTy).Contents (Elt F)),
    binary main_v30 main_v31 main_v32 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg6 main_v33 (broadcastInDim S1x128 ![1] bcast_S128_S1x128_1 : (⟨S128, .f32⟩ : BufTy).Contents (Elt F) → (⟨S1x128, .f32⟩ : BufTy).Contents (Elt F)),
    unary main_v33 main_v34 (broadcastInDim S262144x128 ![0, 1] bcast_S1x128_S262144x128_0_1 : (⟨S1x128, .f32⟩ : BufTy).Contents (Elt F) → (⟨S262144x128, .f32⟩ : BufTy).Contents (Elt F)),
    binary main_v32 main_v34 main_v35 (addf : (⟨S262144x128, .f32⟩ : BufTy).Contents (Elt F) → (⟨S262144x128, .f32⟩ : BufTy).Contents (Elt F) → (⟨S262144x128, .f32⟩ : BufTy).Contents (Elt F)),
    nullary main_cst_4 (constant S_ .f32 0x00000000#32),
    binary main_v35 main_cst_4 main_v36 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_5 (constant S_ .f32 0x48800000#32),
    unary main_cst_5 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S262144x128 ![0, 1] bcast_S1x128_S262144x128_0_1 : (⟨S1x128, .f32⟩ : BufTy).Contents (Elt F) → (⟨S262144x128, .f32⟩ : BufTy).Contents (Elt F)),
    binary main_v35 main_v40 main_v41 (subf : (⟨S262144x128, .f32⟩ : BufTy).Contents (Elt F) → (⟨S262144x128, .f32⟩ : BufTy).Contents (Elt F) → (⟨S262144x128, .f32⟩ : BufTy).Contents (Elt F)),
    nullary main_cst_6 (constant S_ .f32 0x00000000#32),
    binary main_v41 main_cst_6 main_v42 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_7 (constant S_ .f32 0x48800000#32),
    unary main_cst_7 main_v43 (broadcastInDim S128 ![] bcast_S_S128 : (⟨S_, .f32⟩ : BufTy).Contents (Elt F) → (⟨S128, .f32⟩ : BufTy).Contents (Elt F)),
    binary main_v42 main_v43 main_v44 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call2.cst (constant S_ .f32 0x00000000#32),
    TRef.binary (.of main_v41 : TRef sig ⟨S262144x128, .f32⟩) main_call2.cst main_call2.v0 (fun x v => Host.reduceAdd x v reducesTo_S262144x128_S128_d0 h_S_),
    TRef.unary main_call2.v0 main_call2.v1 (broadcastInDim S1x128 ![1] bcast_S128_S1x128_1),
    TRef.nullary main_call2.cst_0 (constant S_ .f32 0x48800000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S262144x128 ![0, 1] bcast_S1x128_S262144x128_0_1),
    TRef.binary (.of main_v41 : TRef sig ⟨S262144x128, .f32⟩) main_call2.v4 main_call2.v5 subf,
    TRef.binary main_call2.v5 main_call2.v5 main_call2.v6 mulf,
    TRef.unary (.of main_c_8 : TRef sig ⟨S_, .i32⟩) main_call2.v7 (sitofp .f32),
    TRef.nullary main_call2.cst_1 (constant S_ .f32 0x48800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S262144x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v44 main_v46 (broadcastInDim S1x128 ![1] bcast_S128_S1x128_1 : (⟨S128, .f32⟩ : BufTy).Contents (Elt F) → (⟨S1x128, .f32⟩ : BufTy).Contents (Elt F)),
    unary main_v46 main_v47 (broadcastInDim S262144x128 ![0, 1] bcast_S1x128_S262144x128_0_1 : (⟨S1x128, .f32⟩ : BufTy).Contents (Elt F) → (⟨S262144x128, .f32⟩ : BufTy).Contents (Elt F)),
    binary main_v41 main_v47 main_v48 (subf : (⟨S262144x128, .f32⟩ : BufTy).Contents (Elt F) → (⟨S262144x128, .f32⟩ : BufTy).Contents (Elt F) → (⟨S262144x128, .f32⟩ : BufTy).Contents (Elt F)),
    nullary main_cst_9 (constant S_ .f32 0x3727C5AC#32),
    unary main_cst_9 main_v49 (broadcastInDim S128 ![] bcast_S_S128 : (⟨S_, .f32⟩ : BufTy).Contents (Elt F) → (⟨S128, .f32⟩ : BufTy).Contents (Elt F)),
    binary main_v45 main_v49 main_v50 (addf : (⟨S128, .f32⟩ : BufTy).Contents (Elt F) → (⟨S128, .f32⟩ : BufTy).Contents (Elt F) → (⟨S128, .f32⟩ : BufTy).Contents (Elt F)),
    unary main_v50 main_v51 (Host.rsqrt : (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S262144x128 ![0, 1] bcast_S1x128_S262144x128_0_1 : (⟨S1x128, .f32⟩ : BufTy).Contents (Elt F) → (⟨S262144x128, .f32⟩ : BufTy).Contents (Elt F)),
    binary main_v48 main_v53 main_v54 (mulf : (⟨S262144x128, .f32⟩ : BufTy).Contents (Elt F) → (⟨S262144x128, .f32⟩ : BufTy).Contents (Elt F) → (⟨S262144x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S262144x128 ![0, 1] bcast_S1x128_S262144x128_0_1 : (⟨S1x128, .f32⟩ : BufTy).Contents (Elt F) → (⟨S262144x128, .f32⟩ : BufTy).Contents (Elt F)),
    binary main_v54 main_v56 main_v57 (mulf : (⟨S262144x128, .f32⟩ : BufTy).Contents (Elt F) → (⟨S262144x128, .f32⟩ : BufTy).Contents (Elt F) → (⟨S262144x128, .f32⟩ : BufTy).Contents (Elt F)),
    unary main_arg8 main_v58 (broadcastInDim S1x128 ![1] bcast_S128_S1x128_1 : (⟨S128, .f32⟩ : BufTy).Contents (Elt F) → (⟨S1x128, .f32⟩ : BufTy).Contents (Elt F)),
    unary main_v58 main_v59 (broadcastInDim S262144x128 ![0, 1] bcast_S1x128_S262144x128_0_1 : (⟨S1x128, .f32⟩ : BufTy).Contents (Elt F) → (⟨S262144x128, .f32⟩ : BufTy).Contents (Elt F)),
    binary main_v57 main_v59 main_v60 (addf : (⟨S262144x128, .f32⟩ : BufTy).Contents (Elt F) → (⟨S262144x128, .f32⟩ : BufTy).Contents (Elt F) → (⟨S262144x128, .f32⟩ : BufTy).Contents (Elt F)),
    TRef.nullary main_call3.cst (constant S_ .f32 0x00000000#32),
    TRef.unary main_call3.cst main_call3.v0 (broadcastInDim S262144x128 ![] bcast_S_S262144x128),
    TRef.binary (.of main_v60 : TRef sig ⟨S262144x128, .f32⟩) main_call3.v0 main_call3.v1 maximumf,
    binary main_v61 main_arg0 main_v62 (addf : (⟨S262144x128, .f32⟩ : BufTy).Contents (Elt F) → (⟨S262144x128, .f32⟩ : BufTy).Contents (Elt F) → (⟨S262144x128, .f32⟩ : BufTy).Contents (Elt F)) ]

-- one bind per operation re-associated: the rewrite recurses once per statement
set_option maxRecDepth 8192 in
set_option maxHeartbeats 4000000 in
/-- The program is that straight line: the helper functions unfolded at their calls, sequencing re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

attribute [local irreducible] Host.reduceAdd in
set_option maxRecDepth 16384 in
set_option maxHeartbeats 8000000 in
/-- The fold of the operations at the result buffer is the composed term of the nine arguments: each operation's result
    read at its own buffer, every other buffer untouched; the column reduction is kept folded meanwhile. -/
theorem out_eq (V : Valuation τ sig (Elt Ideal)) :
    after (ops (F := Ideal)) V (main_v62 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

set_option maxRecDepth 16384 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 16384 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 16384 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 16384 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 16384 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 16384 in
set_option maxHeartbeats 4000000 in
theorem arg8_eq (V : Valuation τ sig (Elt Ideal)) :
    after (ops (F := Ideal)) V (main_arg8 : DevRef τ sig) = V (main_arg8 : DevRef τ sig) := by
  after_results_simp

/-- From any memory with zero counters every weakly fair execution of the program terminates with the result buffer at
    the composed term of the arguments' launch contents and the nine arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v62) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h c main_v62).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.Hand

end
-- ==== Proof.RefConsts.lean ====
/-
  The three float literals of the program as real numbers: the row count 262144 = 2^18, its reciprocal 2^-18,
  and the small positive ε added to the variance.
-/
import Idealize.ShloMosaic.PureOps.Ideal

noncomputable section

namespace Cert.ReferenceIdeal.Hand

open Idealize.ShloMosaic

/-- The pattern 0x48800000 (exponent field 145, fraction 0) is 2^23 · 2^(145−127−23) = 2^18 = 262144. -/
theorem ofBits_N : Ideal.ofBits .f32 0x48800000#32 = ((262144 : ℝ) : EReal) := by
  simp [Ideal.ofBits, Ideal.ieee, -EReal.coe_mul]; norm_num

/-- The pattern 0x36800000 (exponent field 109, fraction 0) is 2^23 · 2^(109−127−23) = 2^-18 = 1/262144. -/
theorem ofBits_invN : Ideal.ofBits .f32 0x36800000#32 = (((1 / 262144 : ℝ)) : EReal) := by
  simp [Ideal.ofBits, Ideal.ieee, -EReal.coe_mul]; norm_num

/-- The value of the pattern 0x3727C5AC (exponent field 110, fraction 2606508): (2^23 + 2606508) · 2^(110−127−23). -/
def epsR : ℝ := 10995116 * (2 : ℝ) ^ (-40 : Int)

theorem epsR_pos : 0 < epsR := by
  unfold epsR; positivity

/-- The pattern 0x3727C5AC (printed 9.99999974E-6) is the positive real `epsR`. -/
theorem ofBits_eps : Ideal.ofBits .f32 0x3727C5AC#32 = ((epsR : ℝ) : EReal) := by
  unfold epsR
  simp [Ideal.ofBits, Ideal.ieee, -EReal.coe_mul]

end Cert.ReferenceIdeal.Hand

end
-- ==== Proof.RefRead.lean ====
/-
  The reference's term read at an entry.

  Entry (p, q) of the composed term is the specification's reference form: a dense layer is the sum over k of
  h(p,k)·W(q,k) plus b(q) (the weight is transposed before the contraction), a column reduction from zero is the
  plain column sum, a length-128 vector broadcast down the rows is its q-th entry, the variance's divisor is the
  row count (the row count less zero) and its selection keeps the quotient because that divisor is positive.
-/
import proofs.«159717_j8890582303003_2_alg».proof.Proof.RefRun
import proofs.«159717_j8890582303003_2_alg».proof.Proof.RefConsts
import proofs.«159717_j8890582303003_2_alg».proof.Proof.Spec
import proofs.«159717_j8890582303003_2_alg».proof.Proof.LibHostDot
import Idealize.ShloMosaic.Lib.ValueIdx
import Idealize.ShloMosaic.Lib.ValueLayout
import Idealize.ShloMosaic.PureOps.Ideal.Laws

noncomputable section

namespace Cert.ReferenceIdeal.Hand

open Cert.ReferenceIdeal Idealize.ShloMosaic Idealize.ShloMosaic.ValueIdx
open Cert.ReferenceIdeal.Facts₀
open scoped BigOperators

/-- The row count's literal and the ε literal, as the program prints them. -/
local notation "Nn" => Ideal.ofBits FTy.f32 0x48800000#32
local notation "εε" => Ideal.ofBits FTy.f32 0x3727C5AC#32

/-- A rank-2 array as a function of its two coordinates, a rank-1 array as a function of its one. -/
abbrev mat {a b : ℕ} (h : FVec Ideal ⟨2, ![a, b]⟩ .f32) : Fin a → Fin b → EReal := fun p k => h (ix2 p k)
abbrev vec {a : ℕ} (v : FVec Ideal ⟨1, ![a]⟩ .f32) : Fin a → EReal := fun q => v (ix1 q)

/-! ## The layout operations at an entry -/

/-- A single row repeated down the 262144 rows: entry (p, q) is the row's entry q. -/
theorem bcastRows_apply (v : FVec Ideal S1x128 .f32) (p : Fin 262144) (q : Fin 128) :
    broadcastInDim S262144x128 ![0, 1] bcast_S1x128_S262144x128_0_1 v (ix2 p q) = v (ix2 (0 : Fin 1) q) :=
  congrArg v (funext fun a => match a with | ⟨0, _⟩ => rfl | ⟨1, _⟩ => rfl)

/-- A length-128 vector laid out as one row: entry (r, q) is the vector's entry q. -/
theorem bcastRow1_apply (v : FVec Ideal S128 .f32) (r : Fin 1) (q : Fin 128) :
    broadcastInDim S1x128 ![1] bcast_S128_S1x128_1 v (ix2 r q) = v (ix1 q) :=
  congrArg v (funext fun a => match a with | ⟨0, _⟩ => rfl)

theorem rowBcast_apply (v : FVec Ideal S128 .f32) (p : Fin 262144) (q : Fin 128) :
    rowBcast v (ix2 p q) = v (ix1 q) := by
  unfold rowBcast; rw [bcastRows_apply, bcastRow1_apply]

/-- A scalar broadcast to any shape reads the scalar everywhere. -/
theorem bcastScalar_apply {α : Type} {t : Shape} (dims : Fin S_.rank → Fin t.rank) (h : S_.BroadcastsInDim t dims)
    (v : S_.Idx → α) (i : t.Idx) : broadcastInDim t dims h v i = v ix0 :=
  congrArg v (funext fun a => a.elim0)

theorem redN : S262144x128.Reduces [0] S128 := by decide

/-- A column reduction from the zero literal: the plain sum down the column. -/
theorem colSum_apply (h : FVec Ideal S262144x128 .f32) (q : Fin 128) :
    Host.reduceAdd h (constant S_ .f32 0x00000000#32) reducesTo_S262144x128_S128_d0 h_S_ (ix1 q)
      = ∑ p : Fin 262144, h (ix2 p q) := by
  unfold Host.reduceAdd
  rw [Ideal.hostReduceAdd_def, Ideal.hostReduceAdd_single _ redN, constant_apply, Ideal.ofBits_zero_f32, zero_add]
  refine Finset.sum_congr rfl fun p _ => congrArg h (funext fun a => ?_)
  match a with
  | ⟨0, _⟩ => rfl
  | ⟨1, _⟩ => rfl

/-- The contraction of the rows of `h` against the rows of a 128×128 matrix's transpose. -/
theorem dot_apply (h : FVec Ideal S262144x128 .f32) (B : FVec Ideal S128x128 .f32) (p : Fin 262144) (q : Fin 128) :
    Host.dotGeneral dot_S262144x128_S128x128_S262144x128_1_0_0_1_n_n none h B (ix2 p q)
      = ∑ k : Fin 128, h (ix2 p k) * B (ix2 k q) :=
  Cert.HostDot.dotGeneral_plain_apply (M := 262144) (K := 128) (N := 128) none h B p q

theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl

/-! ## The stages at an entry -/

theorem dense_apply (h : FVec Ideal S262144x128 .f32) (W : FVec Ideal S128x128 .f32) (b : FVec Ideal S128 .f32)
    (p : Fin 262144) (q : Fin 128) :
    dense h W b (ix2 p q) = Cert.Spec.lin (mat h) (mat W) (vec b) p q := by
  unfold dense Cert.Spec.lin
  rw [addf_apply, dot_apply, rowBcast_apply]
  congr 1
  refine Finset.sum_congr rfl fun k _ => ?_
  rw [transpose_ix2_apply]

theorem colMean_apply (h : FVec Ideal S262144x128 .f32) (q : Fin 128) :
    colMean h (ix1 q) = Cert.Spec.refMean Nn (mat h) q := by
  unfold colMean Cert.Spec.refMean
  rw [hdivf_apply, colSum_apply, bcastScalar_apply, constant_apply]

theorem center_apply (h : FVec Ideal S262144x128 .f32) (p : Fin 262144) (q : Fin 128) :
    center h (ix2 p q) = Cert.Spec.refCen Nn (mat h) p q := by
  unfold center Cert.Spec.refCen
  rw [subf_apply, rowBcast_apply, colMean_apply]

/-- The variance's divisor: the row count less the integer zero as a float, which is the row count. -/
theorem varDen_apply (i : S_.Idx) : varDen i = Nn := by
  unfold varDen
  rw [subf_apply, constant_apply]
  show Nn - ((((0#32 : BitVec 32).toInt : ℝ)) : EReal) = Nn
  have h0 : ((((0#32 : BitVec 32).toInt : ℝ)) : EReal) = 0 := by simp
  rw [h0, sub_zero]

/-- The row count is positive, so the comparison against zero answers true. -/
theorem cmp_N : FloatOps.cmpf (F := Ideal) (φ := .f32) .ogt Nn 0 = 1#1 := by
  show Ideal.cmp .ogt Nn 0 = 1#1
  rw [ofBits_N]
  unfold Ideal.cmp
  have : (0 : EReal) < ((262144 : ℝ) : EReal) := by exact_mod_cast (by norm_num : (0 : ℝ) < 262144)
  simp [this]

theorem colVar_apply (h : FVec Ideal S262144x128 .f32) (q : Fin 128) :
    colVar h (ix1 q) = Cert.Spec.refVar Nn (mat h) q := by
  unfold colVar Cert.Spec.refVar Cert.Spec.refMean
  rw [select_apply, bcastScalar_apply, cmpf_apply, varDen_apply, constant_apply, Ideal.ofBits_zero_f32, cmp_N, select_one,
    hdivf_apply, colSum_apply, bcastScalar_apply, varDen_apply]
  refine congrArg (fun s => Ideal.div s Nn) ?_
  refine Finset.sum_congr rfl fun p _ => ?_
  rw [mulf_apply, subf_apply, bcastRows_apply, hdivf_apply, bcastRow1_apply, colSum_apply, bcastScalar_apply,
    constant_apply]

theorem bnorm_apply (h : FVec Ideal S262144x128 .f32) (g be : FVec Ideal S128 .f32) (p : Fin 262144) (q : Fin 128) :
    bnorm h g be (ix2 p q)
      = ((mat h p q - Cert.Spec.refMean Nn (mat h) q) * Ideal.rsqrt (Cert.Spec.refVar Nn (mat h) q + εε)) * vec g q
          + vec be q := by
  unfold bnorm
  simp only [addf_apply, mulf_apply, subf_apply, rowBcast_apply, colMean_apply, hrsqrt_apply, colVar_apply,
    bcastScalar_apply, constant_apply]

theorem relu_apply (h : FVec Ideal S262144x128 .f32) (p : Fin 262144) (q : Fin 128) :
    relu h (ix2 p q) = max (h (ix2 p q)) 0 := by
  unfold relu
  rw [maximumf_apply, bcastScalar_apply, constant_apply, Ideal.ofBits_zero_f32]

theorem layer_apply (h : FVec Ideal S262144x128 .f32) (W : FVec Ideal S128x128 .f32) (b g be : FVec Ideal S128 .f32)
    (p : Fin 262144) (q : Fin 128) :
    layer h W b g be (ix2 p q) = Cert.Spec.refNorm Nn εε (Cert.Spec.lin (mat h) (mat W) (vec b)) (vec g) (vec be) p q := by
  have hd : mat (dense h W b) = Cert.Spec.lin (mat h) (mat W) (vec b) := by
    funext a c; exact dense_apply h W b a c
  have hc : mat (center (dense h W b)) = Cert.Spec.refCen Nn (Cert.Spec.lin (mat h) (mat W) (vec b)) := by
    funext a c
    show center (dense h W b) (ix2 a c) = _
    rw [center_apply, hd]
  unfold layer
  rw [relu_apply, bnorm_apply, hc]
  rfl

theorem refTerm_apply (x : FVec Ideal S262144x128 .f32) (W1 : FVec Ideal S128x128 .f32) (b1 g1 be1 : FVec Ideal S128 .f32)
    (W2 : FVec Ideal S128x128 .f32) (b2 g2 be2 : FVec Ideal S128 .f32) (p : Fin 262144) (q : Fin 128) :
    refTerm x W1 b1 g1 be1 W2 b2 g2 be2 (ValueIdx.ix2 p q)
      = Cert.Spec.refOut (n := 262144) (c := 128) (Ideal.ofBits .f32 0x48800000#32) (Ideal.ofBits .f32 0x3727C5AC#32)
          (fun p k => x (ValueIdx.ix2 p k)) (fun q k => W1 (ValueIdx.ix2 q k)) (fun q => b1 (ValueIdx.ix1 q))
          (fun q => g1 (ValueIdx.ix1 q)) (fun q => be1 (ValueIdx.ix1 q)) (fun q k => W2 (ValueIdx.ix2 q k))
          (fun q => b2 (ValueIdx.ix1 q)) (fun q => g2 (ValueIdx.ix1 q)) (fun q => be2 (ValueIdx.ix1 q)) p q := by
  have h1 : mat (layer x W1 b1 g1 be1)
      = Cert.Spec.refNorm Nn εε (Cert.Spec.lin (mat x) (mat W1) (vec b1)) (vec g1) (vec be1) := by
    funext a c; exact layer_apply x W1 b1 g1 be1 a c
  unfold refTerm
  rw [addf_apply, layer_apply, h1]
  rfl

end Cert.ReferenceIdeal.Hand

end
-- ==== Proof.SpecLaw.lean ====
/-
  The one law of the block: for real entries, a positive row count N (the kernel multiplying by exactly 1/N
  where the reference divides by N) and a positive ε, the kernel's form and the reference's form of the
  block are the same function.

  The proof moves everything into ℝ.  For a real matrix `o` let `m = (∑ₚ o)/N` be the column mean and
  `v = (1/N)·∑ₚ (o − m)²` the centred variance.  The kernel's raw-moment variance `s₂/N − m²` equals `v`
  (expand the square and use `∑ₚ o = N·m`), and `v ≥ 0`, so the kernel's clamp at 0 does nothing.  The
  reference's centred column `o − m` has sum `N·m − N·m = 0`, hence mean 0, so subtracting its mean again
  changes nothing and its variance is `v` too.  Since `v + ε > 0` the reciprocal root is the real
  `(√(v+ε))⁻¹`.  Both normalisations are therefore the cast of one real function, whose output is real
  again and can be fed to the next dense layer, which also maps real data to real data.
-/
import proofs.«159717_j8890582303003_2_alg».proof.Proof.Spec

noncomputable section

namespace Cert.Spec

open Idealize.ShloMosaic
open scoped BigOperators

variable {n c : ℕ}

/-! ## Casts -/

/-- The cast of a finite real sum is the sum of the casts. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast commutes with `max` (it is monotone). -/
theorem coe_max_real (a b : ℝ) : ((max a b : ℝ) : EReal) = max (a : EReal) (b : EReal) :=
  EReal.coe_strictMono.monotone.map_max

/-- The reciprocal root of a positive real is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.2 h.le), if_neg h.ne']

/-- One normalised, scaled, shifted and clamped entry, for real data and a positive `v + ε`. -/
theorem normEntry_coe (a m v eps g be : ℝ) (h : 0 < v + eps) :
    max ((((a : EReal) - (m : EReal)) * Ideal.rsqrt ((v : EReal) + (eps : EReal))) * (g : EReal) + (be : EReal)) 0
      = ((max (((a - m) * (Real.sqrt (v + eps))⁻¹) * g + be) 0 : ℝ) : EReal) := by
  rw [← EReal.coe_add v eps, rsqrt_coe_pos h, ← EReal.coe_sub, ← EReal.coe_mul, ← EReal.coe_mul, ← EReal.coe_add,
    ← EReal.coe_zero, ← coe_max_real]

/-! ## The real moments -/

/-- The real column mean. -/
def rMean (o : Fin n → Fin c → ℝ) (q : Fin c) : ℝ := (∑ p, o p q) * (1 / (n : ℝ))

/-- The real centred column. -/
def rCen (o : Fin n → Fin c → ℝ) : Fin n → Fin c → ℝ := fun p q => o p q - rMean o q

/-- The real centred variance: the mean of the squared deviations from the mean. -/
def rVar (o : Fin n → Fin c → ℝ) (q : Fin c) : ℝ :=
  (∑ p, (o p q - rMean o q) * (o p q - rMean o q)) * (1 / (n : ℝ))

/-- The real normalisation. -/
def rNorm (eps : ℝ) (o : Fin n → Fin c → ℝ) (g be : Fin c → ℝ) : Fin n → Fin c → ℝ :=
  fun p q => max (((o p q - rMean o q) * (Real.sqrt (rVar o q + eps))⁻¹) * g q + be q) 0

/-- The real dense layer. -/
def rLin (h : Fin n → Fin c → ℝ) (W : Fin c → Fin c → ℝ) (b : Fin c → ℝ) : Fin n → Fin c → ℝ :=
  fun p q => (∑ k, h p k * W q k) + b q

/-- The column sum is `N` times the mean. -/
theorem sum_eq_mul_rMean (hn : 0 < n) (o : Fin n → Fin c → ℝ) (q : Fin c) :
    ∑ p, o p q = (n : ℝ) * rMean o q := by
  have hN : (n : ℝ) ≠ 0 := by exact_mod_cast hn.ne'
  rw [rMean]
  field_simp

/-- The deviations from the mean sum to zero. -/
theorem sum_dev (hn : 0 < n) (o : Fin n → Fin c → ℝ) (q : Fin c) : ∑ p, (o p q - rMean o q) = 0 := by
  rw [Finset.sum_sub_distrib, Finset.sum_const, Finset.card_univ, Fintype.card_fin, nsmul_eq_mul,
    ← sum_eq_mul_rMean hn, sub_self]

/-- The centred column has mean zero. -/
theorem rMean_rCen (hn : 0 < n) (o : Fin n → Fin c → ℝ) (q : Fin c) : rMean (rCen o) q = 0 := by
  show (∑ p, (o p q - rMean o q)) * (1 / (n : ℝ)) = 0
  rw [sum_dev hn, zero_mul]

/-- Centring a centred column changes nothing. -/
theorem rCen_sub_rMean (hn : 0 < n) (o : Fin n → Fin c → ℝ) (p : Fin n) (q : Fin c) :
    rCen o p q - rMean (rCen o) q = o p q - rMean o q := by
  rw [rMean_rCen hn, sub_zero, rCen]

/-- The centred column has the variance of the column. -/
theorem rVar_rCen (hn : 0 < n) (o : Fin n → Fin c → ℝ) (q : Fin c) : rVar (rCen o) q = rVar o q := by
  rw [rVar, rVar]
  simp only [rCen_sub_rMean hn]

/-- The two forms of a variance: the mean of the squares less the squared mean is the mean of the
    squared deviations. -/
theorem rVar_eq (hn : 0 < n) (o : Fin n → Fin c → ℝ) (q : Fin c) :
    (∑ p, o p q * o p q) * (1 / (n : ℝ)) - rMean o q * rMean o q = rVar o q := by
  have hN : (n : ℝ) ≠ 0 := by exact_mod_cast hn.ne'
  have e : ∀ p, (o p q - rMean o q) * (o p q - rMean o q)
      = o p q * o p q - 2 * rMean o q * o p q + rMean o q * rMean o q := fun p => by ring
  rw [rVar]
  simp only [e]
  rw [Finset.sum_add_distrib, Finset.sum_sub_distrib, ← Finset.mul_sum, Finset.sum_const, Finset.card_univ,
    Fintype.card_fin, nsmul_eq_mul, sum_eq_mul_rMean hn o q]
  field_simp
  ring

/-- A variance is not negative. -/
theorem rVar_nonneg (o : Fin n → Fin c → ℝ) (q : Fin c) : 0 ≤ rVar o q :=
  mul_nonneg (Finset.sum_nonneg fun p _ => mul_self_nonneg _) (by positivity)

/-! ## The kernel's form on real data -/

theorem kerMean_coe (o : Fin n → Fin c → ℝ) (q : Fin c) :
    kerMean (((1 / (n : ℝ) : ℝ)) : EReal) (fun p q => (o p q : EReal)) q = (rMean o q : EReal) := by
  rw [kerMean, rMean, EReal.coe_mul, coe_sum_real]

theorem kerVar_coe (hn : 0 < n) (o : Fin n → Fin c → ℝ) (q : Fin c) :
    kerVar (((1 / (n : ℝ) : ℝ)) : EReal) (fun p q => (o p q : EReal)) q = (rVar o q : EReal) := by
  have hs : (∑ p, (o p q : EReal) * (o p q : EReal)) = ((∑ p, o p q * o p q : ℝ) : EReal) := by
    rw [coe_sum_real]
    exact Finset.sum_congr rfl fun p _ => (EReal.coe_mul _ _).symm
  rw [kerVar, kerMean_coe]
  simp only [hs]
  rw [← EReal.coe_mul, ← EReal.coe_mul, ← EReal.coe_sub, ← EReal.coe_zero, ← coe_max_real, rVar_eq hn,
    max_eq_left (rVar_nonneg o q)]

theorem kerNorm_coe (hn : 0 < n) {eps : ℝ} (heps : 0 < eps) (o : Fin n → Fin c → ℝ) (g be : Fin c → ℝ) :
    kerNorm (((1 / (n : ℝ) : ℝ)) : EReal) (eps : EReal) (fun p q => (o p q : EReal)) (fun q => (g q : EReal))
        (fun q => (be q : EReal))
      = fun p q => (rNorm eps o g be p q : EReal) := by
  funext p q
  simp only [kerNorm]
  rw [kerMean_coe, kerVar_coe hn]
  exact normEntry_coe _ _ _ _ _ _ (add_pos_of_nonneg_of_pos (rVar_nonneg o q) heps)

/-! ## The reference's form on real data -/

theorem refMean_coe (hn : 0 < n) (o : Fin n → Fin c → ℝ) (q : Fin c) :
    refMean (((n : ℝ)) : EReal) (fun p q => (o p q : EReal)) q = (rMean o q : EReal) := by
  have hN : (n : ℝ) ≠ 0 := by exact_mod_cast hn.ne'
  rw [refMean, Ideal.div_coe hN]
  exact kerMean_coe o q

theorem refCen_coe (hn : 0 < n) (o : Fin n → Fin c → ℝ) :
    refCen (((n : ℝ)) : EReal) (fun p q => (o p q : EReal)) = fun p q => (rCen o p q : EReal) := by
  funext p q
  simp only [refCen]
  rw [refMean_coe hn, rCen, EReal.coe_sub]

theorem refVar_coe (hn : 0 < n) (o : Fin n → Fin c → ℝ) (q : Fin c) :
    refVar (((n : ℝ)) : EReal) (fun p q => (o p q : EReal)) q = (rVar o q : EReal) := by
  have hN : (n : ℝ) ≠ 0 := by exact_mod_cast hn.ne'
  rw [refVar, Ideal.div_coe hN, refMean_coe hn, rVar, EReal.coe_mul, coe_sum_real]
  simp only [EReal.coe_mul, EReal.coe_sub]

theorem refNorm_coe (hn : 0 < n) {eps : ℝ} (heps : 0 < eps) (o : Fin n → Fin c → ℝ) (g be : Fin c → ℝ) :
    refNorm (((n : ℝ)) : EReal) (eps : EReal) (fun p q => (o p q : EReal)) (fun q => (g q : EReal))
        (fun q => (be q : EReal))
      = fun p q => (rNorm eps o g be p q : EReal) := by
  funext p q
  simp only [refNorm]
  rw [refCen_coe hn, refMean_coe hn, refVar_coe hn,
    normEntry_coe _ _ _ _ _ _ (add_pos_of_nonneg_of_pos (rVar_nonneg (rCen o) q) heps),
    rCen_sub_rMean hn, rVar_rCen hn, rNorm]

/-! ## The dense layer on real data -/

theorem lin_coe (h : Fin n → Fin c → ℝ) (W : Fin c → Fin c → ℝ) (b : Fin c → ℝ) :
    lin (fun p k => (h p k : EReal)) (fun q k => (W q k : EReal)) (fun q => (b q : EReal))
      = fun p q => (rLin h W b p q : EReal) := by
  funext p q
  simp only [lin, rLin]
  rw [EReal.coe_add, coe_sum_real]
  simp only [EReal.coe_mul]

/-! ## The block -/

/-- For real inputs the kernel's block and the reference's block agree entry by entry. -/
theorem kerOut_eq_refOut (hn : 0 < n) (eps : ℝ) (heps : 0 < eps)
    (x : Fin n → Fin c → EReal) (W1 : Fin c → Fin c → EReal) (b1 g1 be1 : Fin c → EReal)
    (W2 : Fin c → Fin c → EReal) (b2 g2 be2 : Fin c → EReal)
    (hx : ∀ p k, IsReal (x p k)) (hW1 : ∀ q k, IsReal (W1 q k)) (hb1 : ∀ q, IsReal (b1 q)) (hg1 : ∀ q, IsReal (g1 q))
    (hbe1 : ∀ q, IsReal (be1 q)) (hW2 : ∀ q k, IsReal (W2 q k)) (hb2 : ∀ q, IsReal (b2 q)) (hg2 : ∀ q, IsReal (g2 q))
    (hbe2 : ∀ q, IsReal (be2 q)) :
    kerOut (((1 / (n : ℝ) : ℝ)) : EReal) (eps : EReal) x W1 b1 g1 be1 W2 b2 g2 be2
      = refOut (((n : ℝ)) : EReal) (eps : EReal) x W1 b1 g1 be1 W2 b2 g2 be2 := by
  choose xr hxr using hx
  choose W1r hW1r using hW1
  choose b1r hb1r using hb1
  choose g1r hg1r using hg1
  choose be1r hbe1r using hbe1
  choose W2r hW2r using hW2
  choose b2r hb2r using hb2
  choose g2r hg2r using hg2
  choose be2r hbe2r using hbe2
  obtain rfl : x = fun p k => (xr p k : EReal) := funext fun p => funext fun k => hxr p k
  obtain rfl : W1 = fun q k => (W1r q k : EReal) := funext fun q => funext fun k => hW1r q k
  obtain rfl : b1 = fun q => (b1r q : EReal) := funext hb1r
  obtain rfl : g1 = fun q => (g1r q : EReal) := funext hg1r
  obtain rfl : be1 = fun q => (be1r q : EReal) := funext hbe1r
  obtain rfl : W2 = fun q k => (W2r q k : EReal) := funext fun q => funext fun k => hW2r q k
  obtain rfl : b2 = fun q => (b2r q : EReal) := funext hb2r
  obtain rfl : g2 = fun q => (g2r q : EReal) := funext hg2r
  obtain rfl : be2 = fun q => (be2r q : EReal) := funext hbe2r
  funext p q
  simp only [kerOut, refOut]
  rw [lin_coe, kerNorm_coe hn heps, lin_coe, kerNorm_coe hn heps, refNorm_coe hn heps, lin_coe,
    refNorm_coe hn heps]

end Cert.Spec

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«159717_j8890582303003_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.Finite.lean ====
/-
  From the precondition to real entries.

  The precondition tests each of the nine argument arrays by comparing every entry's absolute value with +inf,
  folds each array's comparisons with "and" into one bit, and ands the nine bits together.  When the result is 1
  every one of the nine bits is 1, and then every entry of every argument is the cast of a real number.
-/
import proofs.«159717_j8890582303003_2_alg».proof.Pre_finite_inputs
import proofs.«159717_j8890582303003_2_alg».proof.Proof.Gen.Pre_finite_inputs
import proofs.«159717_j8890582303003_2_alg».proof.Proof.LibAllFinite
import proofs.«159717_j8890582303003_2_alg».proof.Proof.Spec
import Idealize.ShloMosaic.Lib.Affine

noncomputable section

namespace Cert.Proof.Finite

open Idealize.ShloMosaic Cert.Pre_finite_inputs Cert.Pre_finite_inputs.Facts

/-- The library's "cast of a real" is the specification's. -/
theorem toSpec {a : EReal} (h : Cert.Finite.IsReal a) : Cert.Spec.IsReal a := h

variable [Facts]

/-- When the precondition's bit is 1, every entry of each of the nine arguments is real. -/
theorem all_real (a0 : FVec Ideal S262144x128 .f32) (a1 : FVec Ideal S128x128 .f32) (a2 a3 a4 : FVec Ideal S128 .f32)
    (a5 : FVec Ideal S128x128 .f32) (a6 a7 a8 : FVec Ideal S128 .f32)
    (h : fn (F := Ideal) a0 a1 a2 a3 a4 a5 a6 a7 a8 = fun _ => 1#1) :
    (∀ i, Cert.Spec.IsReal (a0 i)) ∧ (∀ i, Cert.Spec.IsReal (a1 i)) ∧ (∀ i, Cert.Spec.IsReal (a2 i)) ∧
    (∀ i, Cert.Spec.IsReal (a3 i)) ∧ (∀ i, Cert.Spec.IsReal (a4 i)) ∧ (∀ i, Cert.Spec.IsReal (a5 i)) ∧
    (∀ i, Cert.Spec.IsReal (a6 i)) ∧ (∀ i, Cert.Spec.IsReal (a7 i)) ∧ (∀ i, Cert.Spec.IsReal (a8 i)) := by
  have h0 := congrFun h (fun d => d.elim0)
  dsimp only [fn, fn_part1, fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => toSpec (Cert.Lib.AllFinite.entry_of_all a0 _ _ _ _ e0 i),
    fun i => toSpec (Cert.Lib.AllFinite.entry_of_all a1 _ _ _ _ e1 i),
    fun i => toSpec (Cert.Lib.AllFinite.entry_of_all a2 _ _ _ _ e2 i),
    fun i => toSpec (Cert.Lib.AllFinite.entry_of_all a3 _ _ _ _ e3 i),
    fun i => toSpec (Cert.Lib.AllFinite.entry_of_all a4 _ _ _ _ e4 i),
    fun i => toSpec (Cert.Lib.AllFinite.entry_of_all a5 _ _ _ _ e5 i),
    fun i => toSpec (Cert.Lib.AllFinite.entry_of_all a6 _ _ _ _ e6 i),
    fun i => toSpec (Cert.Lib.AllFinite.entry_of_all a7 _ _ _ _ e7 i),
    fun i => toSpec (Cert.Lib.AllFinite.entry_of_all a8 _ _ _ _ e8 i)⟩

end Cert.Proof.Finite

end
-- ==== Proof.lean ====
/-
  The certificate of the residual block: linear → centring → batch-norm + relu → linear → centring →
  batch-norm + relu → residual, a three-pass kernel against the plain reference.

  The three frames.  The kernel program, at either instance, is run as a host stretch and three passes; its
  run ends with every unscoped buffer at named contents, and no item changes an argument.  The reference's run
  is read back operation by operation.

  The value.  At the ideal instance the kernel's result, entry by entry, is the specification's kernel form of
  the block (raw column moments scaled by 2⁻¹⁸, a clamped variance), and the reference's result its reference
  form (centred column, batch-normalised again).  The precondition makes every argument entry real, and for
  real entries the two forms are one function: the centred column has mean zero, the raw-moment variance is
  the centred one and is never negative, and multiplying by 2⁻¹⁸ is dividing by 262144.

  The idealisation rewrote nothing, so its conjunct is trivial.
-/
import proofs.«159717_j8890582303003_2_alg».proof.Defs
import proofs.«159717_j8890582303003_2_alg».proof.Proof.Gen.Kernel
import proofs.«159717_j8890582303003_2_alg».proof.Proof.Gen.KernelIdeal
import proofs.«159717_j8890582303003_2_alg».proof.Proof.Gen.ReferenceIdeal
import proofs.«159717_j8890582303003_2_alg».proof.Proof.Gen.Pre_finite_inputs
import proofs.«159717_j8890582303003_2_alg».proof.Proof.BitsKernelRun
import proofs.«159717_j8890582303003_2_alg».proof.Proof.KernelValue
import proofs.«159717_j8890582303003_2_alg».proof.Proof.RefRun
import proofs.«159717_j8890582303003_2_alg».proof.Proof.RefRead
import proofs.«159717_j8890582303003_2_alg».proof.Proof.RefConsts
import proofs.«159717_j8890582303003_2_alg».proof.Proof.SpecLaw
import proofs.«159717_j8890582303003_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames -/

theorem frame_kernel : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.B4_main_arg0 m ρ c),
      (h c _ (Cert.Kernel.Hand.mem_uc Cert.Kernel.main_arg1 (by decide))).trans (Cert.Kernel.Hand.B4_main_arg1 m ρ c),
      (h c _ (Cert.Kernel.Hand.mem_uc Cert.Kernel.main_arg2 (by decide))).trans (Cert.Kernel.Hand.B4_main_arg2 m ρ c),
      (h c _ (Cert.Kernel.Hand.mem_uc Cert.Kernel.main_arg3 (by decide))).trans (Cert.Kernel.Hand.B4_main_arg3 m ρ c),
      (h c _ (Cert.Kernel.Hand.mem_uc Cert.Kernel.main_arg4 (by decide))).trans (Cert.Kernel.Hand.B4_main_arg4 m ρ c),
      (h c _ (Cert.Kernel.Hand.mem_uc Cert.Kernel.main_arg5 (by decide))).trans (Cert.Kernel.Hand.B4_main_arg5 m ρ c),
      (h c _ (Cert.Kernel.Hand.mem_uc Cert.Kernel.main_arg6 (by decide))).trans (Cert.Kernel.Hand.B4_main_arg6 m ρ c),
      (h c _ (Cert.Kernel.Hand.mem_uc Cert.Kernel.main_arg7 (by decide))).trans (Cert.Kernel.Hand.B4_main_arg7 m ρ c),
      (h c _ (Cert.Kernel.Hand.mem_uc Cert.Kernel.main_arg8 (by decide))).trans (Cert.Kernel.Hand.B4_main_arg8 m ρ c)⟩)
    (Cert.Kernel.Hand.run_main (F := Bits) m ρ)

theorem frame_kernelIdeal : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.B4_main_arg0 m ρ c),
      (h c _ (Cert.KernelIdeal.Hand.mem_uc Cert.KernelIdeal.main_arg1 (by decide))).trans (Cert.KernelIdeal.Hand.B4_main_arg1 m ρ c),
      (h c _ (Cert.KernelIdeal.Hand.mem_uc Cert.KernelIdeal.main_arg2 (by decide))).trans (Cert.KernelIdeal.Hand.B4_main_arg2 m ρ c),
      (h c _ (Cert.KernelIdeal.Hand.mem_uc Cert.KernelIdeal.main_arg3 (by decide))).trans (Cert.KernelIdeal.Hand.B4_main_arg3 m ρ c),
      (h c _ (Cert.KernelIdeal.Hand.mem_uc Cert.KernelIdeal.main_arg4 (by decide))).trans (Cert.KernelIdeal.Hand.B4_main_arg4 m ρ c),
      (h c _ (Cert.KernelIdeal.Hand.mem_uc Cert.KernelIdeal.main_arg5 (by decide))).trans (Cert.KernelIdeal.Hand.B4_main_arg5 m ρ c),
      (h c _ (Cert.KernelIdeal.Hand.mem_uc Cert.KernelIdeal.main_arg6 (by decide))).trans (Cert.KernelIdeal.Hand.B4_main_arg6 m ρ c),
      (h c _ (Cert.KernelIdeal.Hand.mem_uc Cert.KernelIdeal.main_arg7 (by decide))).trans (Cert.KernelIdeal.Hand.B4_main_arg7 m ρ c),
      (h c _ (Cert.KernelIdeal.Hand.mem_uc Cert.KernelIdeal.main_arg8 (by decide))).trans (Cert.KernelIdeal.Hand.B4_main_arg8 m ρ c)⟩)
    (Cert.KernelIdeal.Hand.run_main (F := Ideal) m ρ)

theorem frame_reference : Cert.frame_ReferenceIdeal := fun m ρ _ =>
  (θ_run (Cert.ReferenceIdeal.defs (F := Ideal)) _ _).mono (fun _ h c => (h c).2) (Cert.ReferenceIdeal.Hand.run m ρ)

/-! ## The value -/

/-- The two programs' results agree: the reference's entry is the reference form, the kernel's the kernel form,
    of the same real arguments. -/
theorem algebraic : Cert.algebraic_KernelIdeal_ReferenceIdeal := by
  intro m ρ m' ρ' hpre hagree
  refine ⟨fun c => Cert.KernelIdeal.Hand.B4 (F := Ideal) m ρ c (Proc.devRef .tc Cert.KernelIdeal.main_v10), ?_, ?_⟩
  · exact (θ_run (Cert.KernelIdeal.defs (F := Ideal)) _ _).mono (fun r h c =>
      ⟨h c _ (Cert.KernelIdeal.Hand.mem_uc Cert.KernelIdeal.main_v10 (by decide)),
      (h c _ (Cert.KernelIdeal.Hand.mem_uc Cert.KernelIdeal.main_arg0 (by decide))).trans (Cert.KernelIdeal.Hand.B4_main_arg0 m ρ c),
      (h c _ (Cert.KernelIdeal.Hand.mem_uc Cert.KernelIdeal.main_arg1 (by decide))).trans (Cert.KernelIdeal.Hand.B4_main_arg1 m ρ c),
      (h c _ (Cert.KernelIdeal.Hand.mem_uc Cert.KernelIdeal.main_arg2 (by decide))).trans (Cert.KernelIdeal.Hand.B4_main_arg2 m ρ c),
      (h c _ (Cert.KernelIdeal.Hand.mem_uc Cert.KernelIdeal.main_arg3 (by decide))).trans (Cert.KernelIdeal.Hand.B4_main_arg3 m ρ c),
      (h c _ (Cert.KernelIdeal.Hand.mem_uc Cert.KernelIdeal.main_arg4 (by decide))).trans (Cert.KernelIdeal.Hand.B4_main_arg4 m ρ c),
      (h c _ (Cert.KernelIdeal.Hand.mem_uc Cert.KernelIdeal.main_arg5 (by decide))).trans (Cert.KernelIdeal.Hand.B4_main_arg5 m ρ c),
      (h c _ (Cert.KernelIdeal.Hand.mem_uc Cert.KernelIdeal.main_arg6 (by decide))).trans (Cert.KernelIdeal.Hand.B4_main_arg6 m ρ c),
      (h c _ (Cert.KernelIdeal.Hand.mem_uc Cert.KernelIdeal.main_arg7 (by decide))).trans (Cert.KernelIdeal.Hand.B4_main_arg7 m ρ c),
      (h c _ (Cert.KernelIdeal.Hand.mem_uc Cert.KernelIdeal.main_arg8 (by decide))).trans (Cert.KernelIdeal.Hand.B4_main_arg8 m ρ c)⟩)
      (Cert.KernelIdeal.Hand.run_main (F := Ideal) m ρ)
  · refine (θ_run (Cert.ReferenceIdeal.defs (F := Ideal)) _ _).mono (fun r h c => ⟨(h c).1.trans ?_, (h c).2⟩)
      (Cert.ReferenceIdeal.Hand.run m' ρ')
    obtain ⟨e0, e1, e2, e3, e4, e5, e6, e7, e8⟩ := hagree c
    rw [e0, e1, e2, e3, e4, e5, e6, e7, e8]
    obtain ⟨r0, r1, r2, r3, r4, r5, r6, r7, r8⟩ := Cert.Proof.Finite.all_real _ _ _ _ _ _ _ _ _ (hpre c)
    funext i
    obtain ⟨p, q, rfl⟩ : ∃ (p : Fin 262144) (q : Fin 128), i = ix2 p q := ⟨i 0, i 1, eq_ix2 i⟩
    refine (Cert.ReferenceIdeal.Hand.refTerm_apply _ _ _ _ _ _ _ _ _ p q).trans ?_
    refine Eq.trans ?_ (Cert.KernelIdeal.Hand.result_eq m ρ c p q).symm
    have hN : ((262144 : ℕ) : ℝ) = (262144 : ℝ) := by norm_num
    have law := Cert.Spec.kerOut_eq_refOut (n := 262144) (c := 128) (by norm_num) Cert.ReferenceIdeal.Hand.epsR
      Cert.ReferenceIdeal.Hand.epsR_pos
      (Cert.KernelIdeal.Hand.aX m c) (Cert.KernelIdeal.Hand.aW1 m c) (Cert.KernelIdeal.Hand.ab1 m c) (Cert.KernelIdeal.Hand.ag1 m c)
      (Cert.KernelIdeal.Hand.abe1 m c) (Cert.KernelIdeal.Hand.aW2 m c) (Cert.KernelIdeal.Hand.ab2 m c) (Cert.KernelIdeal.Hand.ag2 m c)
      (Cert.KernelIdeal.Hand.abe2 m c)
      (fun p k => r0 _) (fun q k => r1 _) (fun q => r2 _) (fun q => r3 _) (fun q => r4 _) (fun q k => r5 _) (fun q => r6 _)
      (fun q => r7 _) (fun q => r8 _)
    rw [hN] at law
    rw [Cert.ReferenceIdeal.Hand.ofBits_N, Cert.ReferenceIdeal.Hand.ofBits_eps]
    show _ = Cert.Spec.kerOut (Ideal.ofBits .f32 0x36800000#32) (Ideal.ofBits .f32 0x3727C5AC#32) _ _ _ _ _ _ _ _ _ p q
    rw [Cert.ReferenceIdeal.Hand.ofBits_invN, Cert.ReferenceIdeal.Hand.ofBits_eps]
    exact (congrFun (congrFun law p) q).symm

/-! ## The certificate -/

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
